-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S27x64x64 .f32) (main_arg2 : FVec F S64 .f32) (main_arg3 : FVec F S64 .f32) (main_arg4 : IVec S27x100000 32) (main_arg5 : IVec S27x100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S2700000x64 : Shape := ⟨2, ![2700000, 64]⟩
abbrev S2700000 : Shape := ⟨1, ![2700000]⟩
abbrev S2700000x1 : Shape := ⟨2, ![2700000, 1]⟩
abbrev S1x64 : Shape := ⟨2, ![1, 64]⟩

abbrev nBuf : Space → Nat
  | .hbm => 48
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x100000, .i32⟩
  | .hbm, ⟨5, _⟩ => ⟨S27x100000, .i32⟩
  | .hbm, ⟨6, _⟩ => ⟨S100000x64, .bf16⟩
  | .hbm, ⟨7, _⟩ => ⟨S27x64x64, .bf16⟩
  | .hbm, ⟨8, _⟩ => ⟨S_, .i32⟩
  | .hbm, ⟨9, _⟩ => ⟨S27x100000, .i32⟩
  | .hbm, ⟨10, _⟩ => ⟨S27x100000, .i1⟩
  | .hbm, ⟨11, _⟩ => ⟨S27x100000x1, .i1⟩
  | .hbm, ⟨12, _⟩ => ⟨S_, .i32⟩
  | .hbm, ⟨13, _⟩ => ⟨S27x100000, .i32⟩
  | .hbm, ⟨14, _⟩ => ⟨S27x100000, .i1⟩
  | .hbm, ⟨15, _⟩ => ⟨S_, .i32⟩
  | .hbm, ⟨16, _⟩ => ⟨S27x100000, .i32⟩
  | .hbm, ⟨17, _⟩ => ⟨S27x100000, .i32⟩
  | .hbm, ⟨18, _⟩ => ⟨S27x100000, .i32⟩
  | .hbm, ⟨19, _⟩ => ⟨S27x100000x1, .i32⟩
  | .hbm, ⟨20, _⟩ => ⟨S27x100000x64, .bf16⟩
  | .hbm, ⟨21, _⟩ => ⟨S_, .bf16⟩
  | .hbm, ⟨22, _⟩ => ⟨S27x100000x64, .i1⟩
  | .hbm, ⟨23, _⟩ => ⟨S27x100000x64, .bf16⟩
  | .hbm, ⟨24, _⟩ => ⟨S27x100000x64, .bf16⟩
  | .hbm, ⟨25, _⟩ => ⟨S27x100000x64, .f32⟩
  | .hbm, ⟨26, _⟩ => ⟨S2700000x64, .f32⟩
  | .hbm, ⟨27, _⟩ => ⟨S2700000, .i32⟩
  | .hbm, ⟨28, _⟩ => ⟨S_, .f32⟩
  | .hbm, ⟨29, _⟩ => ⟨S100000x64, .f32⟩
  | .hbm, ⟨30, _⟩ => ⟨S2700000x1, .i32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .local _ .vmem, ⟨0, _⟩ => ⟨S1x10000x64, .bf16⟩
  | .local _ .vmem, ⟨1, _⟩ => ⟨S1x10000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x10000x64, .f32⟩
  | .local _ .vmem, ⟨5, _⟩ => ⟨S1x10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨2, ![27, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S27x100000x1_S27x100000x64_0_1_2 : S27x100000x1.BroadcastsInDim S27x100000x64 (![0, 1, 2] : Fin 3 → Fin S27x100000x64.rank)
  bcast_S_S27x100000x64 : S_.BroadcastsInDim S27x100000x64 (![] : Fin 0 → Fin S27x100000x64.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  shapeCasts_S27x100000x64_S2700000x64 : S27x100000x64.ShapeCasts S2700000x64
  shapeCasts_S27x100000_S2700000 : S27x100000.ShapeCasts S2700000
  bcast_S_S100000x64 : S_.BroadcastsInDim S100000x64 (![] : Fin 0 → Fin S100000x64.rank)
  bcast_S2700000_S2700000x1_0 : S2700000.BroadcastsInDim S2700000x1 (![0] : Fin 1 → Fin S2700000x1.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  gather_S100000x64_S27x100000x1_S27x100000x64_2_0_n_n_0_2_164_wf : GatherDims.WF S100000x64 S27x100000x1 S27x100000x64 [2] [0] [] [0] [] 2 ![1, 64]
  dot_S10000x64_S64x64_S10000x64_1_0_0_1_n_n_wf : DotDims.WF S10000x64 S64x64 S10000x64 [1] [0] [0] [1] [] []
  scatter_S100000x64_S2700000x1_S2700000x64_1_0_0_1_wf : ScatterDims.WF S100000x64 S2700000x1 S2700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x100000x64.size a
  hwx0_0 : ∀ i : grid0.Coords, EltTy.bits .bf16 = 32 ∨ (Rect.block (s := S27x100000x64) S1x10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x100000x64.size a
  hwx0_2 : ∀ i : grid0.Coords, EltTy.bits .f32 = 32 ∨ (Rect.block (s := S27x100000x64) S1x10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S100000x64_S27x100000x1_S27x100000x64_2_0_n_n_0_2_164 : GatherDims S100000x64 S27x100000x1 S27x100000x64 where
  offsetDims := [2]
  collapsedSliceDims := [0]
  operandBatchingDims := []
  startIndicesBatchingDims := []
  startIndexMap := [0]
  indexVectorDim := 2
  sliceSizes := ![1, 64]
  wf := gather_S100000x64_S27x100000x1_S27x100000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S2700000x1_S2700000x64_1_0_0_1 : ScatterDims S100000x64 S2700000x1 S2700000x64 where
  updateWindowDims := [1]
  insertedWindowDims := [0]
  scatterDimsToOperandDims := [0]
  indexVectorDim := 1
  wf := scatter_S100000x64_S2700000x1_S2700000x64_1_0_0_1_wf

abbrev win0_0 : Pipeline.Window sig grid0 :=
  Pipeline.Window.ofSpec (Memref.whole main_v12) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000x64 : Shape := ⟨2, ![2700000, 64]⟩
abbrev S2700000 : Shape := ⟨1, ![2700000]⟩
abbrev S2700000x1 : Shape := ⟨2, ![2700000, 1]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S27x100000, .i32⟩
  | .hbm, ⟨5, _⟩ => ⟨S27x100000, .i32⟩
  | .hbm, ⟨6, _⟩ => ⟨S_, .i32⟩
  | .hbm, ⟨7, _⟩ => ⟨S27x100000, .i32⟩
  | .hbm, ⟨8, _⟩ => ⟨S27x100000, .i1⟩
  | .hbm, ⟨9, _⟩ => ⟨S27x100000x1, .i1⟩
  | .hbm, ⟨10, _⟩ => ⟨S_, .i32⟩
  | .hbm, ⟨11, _⟩ => ⟨S27x100000, .i32⟩
  | .hbm, ⟨12, _⟩ => ⟨S27x100000, .i1⟩
  | .hbm, ⟨13, _⟩ => ⟨S_, .i32⟩
  | .hbm, ⟨14, _⟩ => ⟨S27x100000, .i32⟩
  | .hbm, ⟨15, _⟩ => ⟨S27x100000, .i32⟩
  | .hbm, ⟨16, _⟩ => ⟨S27x100000, .i32⟩
  | .hbm, ⟨17, _⟩ => ⟨S27x100000x1, .i32⟩
  | .hbm, ⟨18, _⟩ => ⟨S27x100000x64, .f32⟩
  | .hbm, ⟨19, _⟩ => ⟨S_, .f32⟩
  | .hbm, ⟨20, _⟩ => ⟨S_, .f32⟩
  | .hbm, ⟨21, _⟩ => ⟨S27x100000x64, .i1⟩
  | .hbm, ⟨22, _⟩ => ⟨S27x100000x64, .f32⟩
  | .hbm, ⟨23, _⟩ => ⟨S27x100000x64, .f32⟩
  | .hbm, ⟨24, _⟩ => ⟨S27x100000x64, .f32⟩
  | .hbm, ⟨25, _⟩ => ⟨S2700000x64, .f32⟩
  | .hbm, ⟨26, _⟩ => ⟨S2700000, .i32⟩
  | .hbm, ⟨27, _⟩ => ⟨S_, .f32⟩
  | .hbm, ⟨28, _⟩ => ⟨S100000x64, .f32⟩
  | .hbm, ⟨29, _⟩ => ⟨S2700000x1, .i32⟩
  | .hbm, ⟨30, _⟩ => ⟨S100000x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_6 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call2_cst : Ref sig .tc := ⟨.hbm, 75, rfl⟩
abbrev main_call2_v0 : Ref sig .tc := ⟨.hbm, 76, rfl⟩
abbrev main_v36 : Ref sig .tc := ⟨.hbm, 77, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S27x100000x1_S27x100000x64_0_1_2 : S27x100000x1.BroadcastsInDim S27x100000x64 (![0, 1, 2] : Fin 3 → Fin S27x100000x64.rank)
  bcast_S_S27x100000x64 : S_.BroadcastsInDim S27x100000x64 (![] : Fin 0 → Fin S27x100000x64.rank)
  shapeCasts_S27x100000x64_S2700000x64 : S27x100000x64.ShapeCasts S2700000x64
  shapeCasts_S27x100000_S2700000 : S27x100000.ShapeCasts S2700000
  bcast_S_S100000x64 : S_.BroadcastsInDim S100000x64 (![] : Fin 0 → Fin S100000x64.rank)
  bcast_S2700000_S2700000x1_0 : S2700000.BroadcastsInDim S2700000x1 (![0] : Fin 1 → Fin S2700000x1.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  gather_S100000x64_S27x100000x1_S27x100000x64_2_0_n_n_0_2_164_wf : GatherDims.WF S100000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S100000x64_S2700000x1_S2700000x64_1_0_0_1_wf : ScatterDims.WF S100000x64 S2700000x1 S2700000x64 [1] [0] [0] 1

variable [Facts₀]

def gather_S100000x64_S27x100000x1_S27x100000x64_2_0_n_n_0_2_164 : GatherDims S100000x64 S27x100000x1 S27x100000x64 where
  offsetDims := [2]
  collapsedSliceDims := [0]
  operandBatchingDims := []
  startIndicesBatchingDims := []
  startIndexMap := [0]
  indexVectorDim := 2
  sliceSizes := ![1, 64]
  wf := gather_S100000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S100000x64_S2700000x1_S2700000x64_1_0_0_1 : ScatterDims S100000x64 S2700000x1 S2700000x64 where
  updateWindowDims := [1]
  insertedWindowDims := [0]
  scatterDimsToOperandDims := [0]
  indexVectorDim := 1
  wf := scatter_S100000x64_S2700000x1_S2700000x64_1_0_0_1_wf

class Facts : Prop extends Facts₀ where

variable [Facts]
-- ==== Proof.KReg0.lean ====
/- Region 0 of the kernel program: the per-offset matrix product.

   The grid is 27 x 10.  At the point (k, m) the body reads block (k, m, 0) of the gathered features (1 x 10000 x 64),
   block (k, 0, 0) of the weights (1 x 64 x 64), and writes block (k, m, 0) of the contributions (1 x 10000 x 64): the
   rows 10000 m .. 10000 m + 9999 of offset k times the weight matrix of offset k.  The weight block depends on k alone,
   so it is transferred only when k changes and otherwise stays in its buffer from the point before.

   Everything here is stated at a parameter `V`, the contents of the TensorCore's buffers when the region is entered,
   and for any float interpretation `F`.  It gives: each window's block at a point read off `V`; what the body leaves
   in the output's buffer as a function of the two input blocks; the body's triple; the proof data of the pipeline; and
   the body obligation the launch theorem asks for. -/
import proofs.«182249_j77902116815210_2_alg».proof.Proof.Gen.Kernel.Launch
import proofs.«182249_j77902116815210_2_alg».proof.Proof.Gen.Kernel.Skeleton
import proofs.«182249_j77902116815210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks of this region have an axis of 10000 coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at the grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered features' buffer holds their block at every point.  Stated for any proof data over the array of `V`
    whose body leaves that block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the block of the current offset at every point, also at the points where nothing is
    transferred: there the offset is the one of the point before, whose block the body left in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole 1 x 10000 x 64 buffer (the features' block, and the output's). -/
abbrev r0_0 : Rect S1x10000x64 := Rect.unit (s := S1x10000x64) ![0, 0, 0] S1x10000x64.size inb_S1x10000x64_S1x10000x64_0_0_0
/-- The whole 1 x 64 x 64 buffer (the weights' block). -/
abbrev r0_1 : Rect S1x64x64 := Rect.unit (s := S1x64x64) ![0, 0, 0] S1x64x64.size inb_S1x64x64_S1x64x64_0_0_0

/-- The output's buffer after the body, as a function of the two input buffers: one store over the whole buffer, of the
    product of the features' block with the weights' block. -/
def out0_2 (x0 : Vec F S1x10000x64 .bf16) (x1 : Vec F S1x64x64 .bf16) : Vec F S1x10000x64 .f32 :=
  View.canon [⟨r0_0, k0_pay1 (View.ld x0 r0_0) (View.ld x1 r0_1)⟩]

/-- That one store reaches every index of the buffer. -/
theorem cover0_2 (p0 : Vec F S1x10000x64 .f32) (y : S1x10000x64.Idx) :
    ∃ pc ∈ ([⟨r0_0, p0⟩] : List (View.Piece (Elt F) S1x10000x64 .f32)), y ∈ pc.1.set :=
  View.cover_of_tiled [⟨r0_0, p0⟩] S1x10000x64.size (by rfl) y

/-! ## The body's triple -/

set_option maxHeartbeats 1000000 in
/-- The body, given the two input buffers at known contents and the output's buffer at any contents, ends with the
    inputs as they were and the output at `out0_2` of the inputs.  (It reads the output's buffer before writing it; what
    it reads there is not used.) -/
theorem sound_kernel0 (c : Dev nD) (E : Set ℕ) (i : grid0.Coords) (arg2 : Memref sig .tc .vmem S1x10000x64 .bf16) (harg2 : arg2.IsWhole) (arg3 : Memref sig .tc .vmem S1x64x64 .bf16) (harg3 : arg3.IsWhole) (arg4 : Memref sig .tc .vmem S1x10000x64 .f32) (harg4 : arg4.IsWhole)
    (x0 : Vec F S1x10000x64 .bf16) (x1 : Vec F S1x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gemm_kernel i arg2 harg2 arg3 harg3 arg4 harg4) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`.  The arrays are those of `V`; after the body at a point the two input
    buffers hold their blocks and the output's buffer holds `out0_2` of them; the invariant is the one of a body that
    touches nothing but its buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the contents the region is entered with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at the point `t`: the invariant, the core's debt, and the three buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the triple applies; the invariant and the debt
    are carried across untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation of the launch theorem, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1a.lean ====
import proofs.«182249_j77902116815210_2_alg».proof.Proof.Gen.Kernel.Launch
import proofs.«182249_j77902116815210_2_alg».proof.Proof.Gen.Kernel.Skeleton
import proofs.«182249_j77902116815210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The column-sum region (the second pallas_call): what its body does at each grid point

The region walks the 100000 rows of its operand in ten blocks of 10000 rows. Two 1×64 scratch rows are carried
from point to point: at the first point they are reset to zero and then take the first block's column sums and
column sums of squares; at every later point they add that point's block; at the last point they are copied into
the two output rows, which are idle (neither stored nor written back) everywhere else.

This module states, per case of the body's two conditionals (first point / a middle point / last point), what the
body leaves in the scratch rows and the outputs as the pieces its stores write, the running contents after each
point as a recursion over the points, the region's proof data with the invariant that carries the scratch rows,
and the body obligation at every point. Everything is generic in the float instance.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the ten points -/

/-- The first conditional (reset the scratch rows): the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (copy the scratch rows to the outputs): the grid coordinate is nine. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- A 1×64 row's view, through which the rows' contents are stated (any whole 1×64 buffer serves). -/
abbrev VR : View sig .tc .vmem S1x64 .f32 := (Memref.whole cc1_stg1_0 : Memref sig .tc .vmem S1x64 .f32).view
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two carried scratch rows. -/
abbrev scM1_0 : Memref sig .tc .vmem S1x64 .f32 := Memref.whole cc1_scratch0
abbrev scM1_1 : Memref sig .tc .vmem S1x64 .f32 := Memref.whole cc1_scratch1

/-! ## The body per case: the pieces its stores leave, found by running it -/

set_option maxHeartbeats 2000000 in
/-- FIRST POINT: the scratch rows are reset and take the block's sums; the outputs are handed back untouched. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S10000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun xi1 xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- A MIDDLE POINT: the scratch rows, at what the point before left, add the block's sums; the outputs are handed back untouched. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S10000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun xi1 xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- LAST POINT: the scratch rows add the block's sums and are copied into the outputs. -/
noncomputable def kernelRun1_C (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S10000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.KReg1b.lean ====
import proofs.«182249_j77902116815210_2_alg».proof.Proof.KReg1a

/-!
# The column-sum region: the running contents, the proof data and the body obligation

What the two carried scratch rows hold after each of the ten points is a recursion over the points: the first
point's pieces, then each later point's pieces over what the point before left. The outputs hold the last point's
copies. The region's invariant says exactly that about the scratch rows between points.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in each row -/

/-- First point, the sum row: its pieces tile the row, so they cover it. -/
theorem coverA_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y
/-- First point, the sum row: the pieces read back. -/
def rowA_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) : Vec F S1x64 .f32 :=
  VR.read (Elt F) (VR.writes (Elt F) VR.junk (kernelRun1_A c i arg1 harg1 arg2 harg2 arg3 harg3 arg4 harg4 arg5 harg5 hc0 hc1 x0).1)

/-- First point, the sum-of-squares row: its pieces tile the row, so they cover it. -/
theorem coverA_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y
/-- First point, the sum-of-squares row: the pieces read back. -/
def rowA_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) : Vec F S1x64 .f32 :=
  VR.read (Elt F) (VR.writes (Elt F) VR.junk (kernelRun1_A c i arg1 harg1 arg2 harg2 arg3 harg3 arg4 harg4 arg5 harg5 hc0 hc1 x0).2.1)

/-- A middle point, the sum row: its pieces tile the row, so they cover it. -/
theorem coverB_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y
/-- A middle point, the sum row: the pieces read back. -/
def rowB_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) : Vec F S1x64 .f32 :=
  VR.read (Elt F) (VR.writes (Elt F) VR.junk (kernelRun1_B c i arg1 harg1 arg2 harg2 arg3 harg3 arg4 harg4 arg5 harg5 hc0 hc1 x0 xs0 xs1).1)

/-- A middle point, the sum-of-squares row: its pieces tile the row, so they cover it. -/
theorem coverB_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y
/-- A middle point, the sum-of-squares row: the pieces read back. -/
def rowB_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) : Vec F S1x64 .f32 :=
  VR.read (Elt F) (VR.writes (Elt F) VR.junk (kernelRun1_B c i arg1 harg1 arg2 harg2 arg3 harg3 arg4 harg4 arg5 harg5 hc0 hc1 x0 xs0 xs1).2.1)

/-- Last point, the first output: its pieces tile the row, so they cover it. -/
theorem coverC_o1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y
/-- Last point, the first output: the pieces read back. -/
def rowC_o1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).1)

/-- Last point, the second output: its pieces tile the row, so they cover it. -/
theorem coverC_o2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y
/-- Last point, the second output: the pieces read back. -/
def rowC_o2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.1)

/-- Last point, the sum row: its pieces tile the row, so they cover it. -/
theorem coverC_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y
/-- Last point, the sum row: the pieces read back. -/
def rowC_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.2.1)

/-- Last point, the sum-of-squares row: its pieces tile the row, so they cover it. -/
theorem coverC_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y
/-- Last point, the sum-of-squares row: the pieces read back. -/
def rowC_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

/-! ## The input window's blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A row nothing consults: what an idle output is said to hold. -/
def idleRow : Vec F S1x64 .f32 := VR.read (Elt F) VR.junk

/-! ## The running contents -/

/-- After point `n`: the two outputs (idle before the last point) and the two scratch rows. -/
def outsAt1 (c : Dev nD) : (n : ℕ) → n < cfg1.N → Vec F S1x64 .f32 × Vec F S1x64 .f32 × Vec F S1x64 .f32 × Vec F S1x64 .f32
  | 0, hn => (idleRow, idleRow,
      rowA_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have := (hcond1_1 ⟨0, hn⟩).mp h; (try dsimp only at this); omega) (iblk1 V c 0 ⟨0, hn⟩),
      rowA_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have := (hcond1_1 ⟨0, hn⟩).mp h; (try dsimp only at this); omega) (iblk1 V c 0 ⟨0, hn⟩))
  | n + 1, hn =>
    if h9 : n + 1 = 9 then
      (rowC_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2)
    else
      (idleRow, idleRow,
       rowB_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) (fun h => h9 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       rowB_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) (fun h => h9 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (hz : t.val = 0) (hc0 : cond1_0 (grid1.coords t)) (hc1 : ¬cond1_1 (grid1.coords t)) :
    outsAt1 V c t.val t.isLt = (idleRow, idleRow,
      rowA_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t),
      rowA_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t)) := by
  obtain ⟨n, hn⟩ := t
  cases n with
  | zero => exact rfl
  | succ n => exact (by exfalso; (try dsimp only at hz); omega)

theorem outsAt1_B (c : Dev nD) (t : Fin cfg1.N) (h0 : ¬t.val = 0) (h9 : ¬t.val = 9) (hc0 : ¬cond1_0 (grid1.coords t)) (hc1 : ¬cond1_1 (grid1.coords t)) :
    outsAt1 V c t.val t.isLt = (idleRow, idleRow,
      rowB_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      rowB_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h9).trans rfl

theorem outsAt1_C (c : Dev nD) (t : Fin cfg1.N) (h0 : ¬t.val = 0) (h9 : t.val = 9) (hc0 : ¬cond1_0 (grid1.coords t)) (hc1 : cond1_1 (grid1.coords t)) :
    outsAt1 V c t.val t.isLt =
      (rowC_o1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_o2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h9).trans rfl

end Cert.Kernel.Hand

end
-- ==== Proof.KReg1c.lean ====
import proofs.«182249_j77902116815210_2_alg».proof.Proof.KReg1b

/-!
# The column-sum region: the invariant, the proof data, the body obligation

Between points the region owns, besides the other regions' staging buffers (at anything) and the generator register,
the two scratch rows at exactly what the point before left in them. Before the first point they are at anything.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- The last region's staging buffers, at anything. -/
abbrev rest8 (c : Dev nD) : sProp 𝕄 := iprop(anyAt (F := F) c cc2_stg0_0 ∗ anyAt (F := F) c cc2_stg0_1 ∗ anyAt (F := F) c cc2_stg1_0 ∗ anyAt (F := F) c cc2_stg2_0 ∗ anyAt (F := F) c cc2_stg3_0 ∗ anyAt (F := F) c cc2_stg4_0 ∗ anyAt (F := F) c cc2_stg5_0 ∗ anyAt (F := F) c cc2_stg5_1)

/-- The class invariant spelt out: the other regions' staging buffers and the two scratch rows at anything, the generator
    register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ (∃ d, owns (c : Thread nD τ) scM1_0 fullShare d) ∗ (∃ d, owns (c : Thread nD τ) scM1_1 fullShare d) ∗ rest8 (F := F) c) ∗ (∃ r, prngReg c r)) := by
  unfold Pipeline.ΦA; rw [scopedRest1_eq]; simp only [scM1_0, scM1_1, owns_whole]; try rfl

variable (V : (c : Dev nD) → (b : Ref sig .tc) → Buf (Elt F) ((c : Thread nD τ).loc b))

/-- The invariant before position `n`. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c n hn).2.2.1) ∗ owns (c : Thread nD τ) scM1_1 fullShare ((outsAt1 V c n hn).2.2.2) ∗ rest8 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c n hn).2.2.1) ∗ owns (c : Thread nD τ) scM1_1 fullShare ((outsAt1 V c n hn).2.2.2) ∗ rest8 (F := F) c) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c (n - 1) (by omega)).2.2.1) ∗ owns (c : Thread nD τ) scM1_1 fullShare ((outsAt1 V c (n - 1) (by omega)).2.2.2) ∗ rest8 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is decided by its position; the invariant hands the
    scratch rows over at what the point before left (at anything at the first point) and takes them back at this point's
    contents; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  have hN : t.val < 10 := lt_of_lt_of_eq t.isLt (show cfg1.N = 10 from N_1)
  by_cases hz : t.val = 0
  · have hc0 : cond1_0 (grid1.coords t) := (hcond1_0 t).mpr hz
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [outsAt1_A V c t hz hc0 hc1]
    unfold rowA_s0 rowA_s1; (try dsimp only)
    rw [PhiS_castSucc V c t, PhiS_zero V c _ _ hz, PhiA1_eq]
    iintro ⟨⟨⟨A0, A1, A2, A3, A4, A5, HS0, HS1, HB⟩, Hg⟩, Ho, ⟨%d0, H0⟩, ⟨%d1, H1⟩, ⟨%d2, H2⟩⟩
    iapply ((kernelRun1_A c (grid1.coords t) _ _ _ _ _ _ _ _ _ _ hc0 hc1 (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    -- the invariant after the point: the other scoped buffers as they were, the scratch rows at this point's contents
    isplitl [A0 A1 A2 A3 A4 A5 HS0 HS1 HB Hg]
    · isplitl [A0 A1 A2 A3 A4 A5 HS0 HS1 HB]
      · isplitl [A0]; · iexact A0
        isplitl [A1]; · iexact A1
        isplitl [A2]; · iexact A2
        isplitl [A3]; · iexact A3
        isplitl [A4]; · iexact A4
        isplitl [A5]; · iexact A5
        isplitl [HS0]
        · unfold owns; iexists _; isplitr
          swap; · iexact HS0
          ipureintro; exact View.read_writes_of_cover _ _ _ _ _ (coverA_s0 c _ _ _ _ _ _ _ _ _ _ _ _ _ _)
        isplitl [HS1]
        · unfold owns; iexists _; isplitr
          swap; · iexact HS1
          ipureintro; exact View.read_writes_of_cover _ _ _ _ _ (coverA_s1 c _ _ _ _ _ _ _ _ _ _ _ _ _ _)
        iexact HB
      · iexact Hg
    isplitl [Ho]; · iexact Ho
    isplitl [H0]; · iexact H0
    isplitl [H1]; · iexists _; iexact H1
    iexists _; iexact H2
  · have hc0 : ¬cond1_0 (grid1.coords t) := fun h => hz ((hcond1_0 t).mp h)
    by_cases h9 : t.val = 9
    · have hc1 : cond1_1 (grid1.coords t) := (hcond1_1 t).mpr h9
      rw [show (dat1 V c).leavesExact 1 t = owns (c : Thread nD τ) (ms1_1 t) fullShare ((dat1 V c).after 1 t) from by
          unfold Dat.leavesExact; rw [liveAt1_1 t hc1], after1_1]
      rw [show (dat1 V c).leavesExact 2 t = owns (c : Thread nD τ) (ms1_2 t) fullShare ((dat1 V c).after 2 t) from by
          unfold Dat.leavesExact; rw [liveAt1_2 t hc1], after1_2]
      rw [outsAt1_C V c t hz h9 hc0 hc1]
      unfold rowC_o1 rowC_o2 rowC_s0 rowC_s1; (try dsimp only)
      rw [PhiS_castSucc V c t, PhiS_pos V c _ _ hz]
      iintro ⟨⟨⟨A0, A1, A2, A3, A4, A5, HS0, HS1, HB⟩, Hg⟩, Ho, ⟨%d0, H0⟩, ⟨%d1, H1⟩, ⟨%d2, H2⟩⟩
      iapply ((kernelRun1_C c (grid1.coords t) _ _ _ _ _ _ _ _ _ _ hc0 hc1 (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      -- the invariant after the point: the other scoped buffers as they were, the scratch rows at this point's contents
      isplitl [A0 A1 A2 A3 A4 A5 HS0 HS1 HB Hg]
      · isplitl [A0 A1 A2 A3 A4 A5 HS0 HS1 HB]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverC_s0 c _ _ _ _ _ _ _ _ _ _ _ _ _ _ _ _)
          isplitl [HS1]
          · unfold owns; iexists _; isplitr
            swap; · iexact HS1
            ipureintro; exact View.read_writes_of_cover _ _ _ _ _ (coverC_s1 c _ _ _ _ _ _ _ _ _ _ _ _ _ _ _ _)
          iexact HB
        · iexact Hg
      isplitl [Ho]; · iexact Ho
      isplitl [H0]; · iexact H0
      isplitl [H1]
      · unfold owns; iexists _; isplitr
        swap; · iexact H1
        ipureintro; exact View.read_writes_of_cover _ _ _ _ _ (coverC_o1 c _ _ _ _ _ _ _ _ _ _ _ _ _ _ _ _)
      unfold owns; iexists _; isplitr
      swap; · iexact H2
      ipureintro; exact View.read_writes_of_cover _ _ _ _ _ (coverC_o2 c _ _ _ _ _ _ _ _ _ _ _ _ _ _ _ _)
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [outsAt1_B V c t hz h9 hc0 hc1]
      unfold rowB_s0 rowB_s1; (try dsimp only)
      rw [PhiS_castSucc V c t, PhiS_pos V c _ _ hz]
      iintro ⟨⟨⟨A0, A1, A2, A3, A4, A5, HS0, HS1, HB⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      -- the invariant after the point: the other scoped buffers as they were, the scratch rows at this point's contents
      isplitl [A0 A1 A2 A3 A4 A5 HS0 HS1 HB Hg]
      · isplitl [A0 A1 A2 A3 A4 A5 HS0 HS1 HB]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverB_s0 c _ _ _ _ _ _ _ _ _ _ _ _ _ _ _ _)
          isplitl [HS1]
          · unfold owns; iexists _; isplitr
            swap; · iexact HS1
            ipureintro; exact View.read_writes_of_cover _ _ _ _ _ (coverB_s1 c _ _ _ _ _ _ _ _ _ _ _ _ _ _ _ _)
          iexact HB
        · iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: what the scratch rows hold is forgotten. -/
theorem hout1 (c : Dev nD) : (dat1 V c).Φ (Fin.last cfg1.N) ⊢ Pipeline.ΦA spec1 c := by
  have hN : cfg1.N = 10 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨A0, A1, A2, A3, A4, A5, HS0, HS1, HB⟩, Hg⟩
  isplitl [A0 A1 A2 A3 A4 A5 HS0 HS1 HB]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexact HB
  · iexact Hg

end Cert.Kernel.Hand

end
-- ==== Proof.KReg2.lean ====
/- Region 2 of the word-level kernel program — the normalise-and-ReLU pallas_call `cc2__norm_kernel` —
   stated at a parameter `V`: the TensorCore's buffer contents when the region is entered.

   The region walks ten grid points. At point `t` it stages rows `10000·t … 10000·t + 9999` of the
   scattered sum `out` (window 0) and, once and for all, the four per-column rows `mean`, `var`,
   `gamma`, `beta` (windows 1–4, whole `1×64` arrays whose block index never moves); the body loads
   all five, computes `max((x − mean)·rsqrt(var + ε)·gamma + beta, 0)` entrywise (the skeleton's one
   payload `k2_pay1`), and stores the result over the whole output block (window 5), which the
   pipeline writes back to rows `10000·t …` of the result array.

   This module is generic in the float instance `F`. It gives, per core `c`: each window's block at a
   point (`iblk2`), what the body leaves in the output block as a function of the five input blocks
   (`out2_5`), the body's separation-logic triple (`sound_kernel2`), the pipeline's proof data
   (`dat2`) with its projections (`A_eq2`, `after2_W`, `before2_W`), and the library's body obligation
   at every grid point (`body_obligation2`). -/
import proofs.«182249_j77902116815210_2_alg».proof.Proof.Gen.Kernel.Launch
import proofs.«182249_j77902116815210_2_alg».proof.Proof.Gen.Kernel.Skeleton
import proofs.«182249_j77902116815210_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks of this region have 10000 rows
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them
variable (V : (c : Dev nD) → (b : Ref sig .tc) → Buf (Elt F) ((c : Thread nD τ).loc b))

/-! ## The windows' blocks -/

/-- Window `w`'s block at grid point `t`: the rectangle of its array (as the region finds it) that the
    window's index map selects there — ten thousand rows of `out` or of the result, or a whole `1×64` row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at EVERY point, whether the pipeline
    fetched it there or not: where it is not fetched (the four `1×64` rows after the first point) the
    block index has not moved since the last fetch and the body left the buffer as it found it. This
    holds for any proof data whose array is `V`'s (`hA`) and whose body leaves the block in place
    (`hafter`); none of these windows is cut or idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole `10000×64` block: what the body loads of `out`'s buffer and stores of the result's. -/
abbrev r2_0 : Rect S10000x64 := Rect.unit (s := S10000x64) ![0, 0] S10000x64.size inb_S10000x64_S10000x64_0_0
/-- The whole `1×64` row: what the body loads of each per-column buffer. -/
abbrev r2_1 : Rect S1x64 := Rect.unit (s := S1x64) ![0, 0] S1x64.size inb_S1x64_S1x64_0_0

/-! ## What the body leaves in the output block -/

/-- The result's staging buffer after the body, from the five input blocks: its one store, of the payload
    `k2_pay1` of the five whole-block loads, over the whole block. -/
def out2_5 (x0 : Vec F S10000x64 .f32) (x1 x2 x3 x4 : Vec F S1x64 .f32) : Vec F S10000x64 .f32 :=
  View.canon [⟨r2_0, k2_pay1 (View.ld x0 r2_0) (View.ld x1 r2_1) (View.ld x2 r2_1) (View.ld x3 r2_1) (View.ld x4 r2_1)⟩]

/-- That one store covers the buffer: its rectangle is the whole block. -/
theorem cover2_5 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

/-! ## The body's triple -/

set_option maxHeartbeats 1000000 in
/-- The body on six whole staging memrefs — the five inputs' at contents `x0 … x4`, the result's at
    anything — runs to the continuation with the inputs' as they were and the result's at `out2_5` of
    them. The body also LOADS the result's buffer before storing it; the loaded value is not used, so
    whatever the buffer held does not matter. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the
    body at point `t` each input's buffer still at its block and the result's at `out2_5` of the five
    input blocks; the invariant is the plain one (the scoped rest and the generator register untouched);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and the six current
    staging memrefs at whatever the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five inputs' memrefs hold their blocks (`before2_W`), so the body's triple
    applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
import proofs.«182249_j77902116815210_2_alg».proof.Proof.KReg0
import proofs.«182249_j77902116815210_2_alg».proof.Proof.KReg1c
import proofs.«182249_j77902116815210_2_alg».proof.Proof.KReg2
import proofs.«182249_j77902116815210_2_alg».proof.Proof.Gen.Kernel.Regions

/-!
# The whole run of the kernel program

@main is four stretches of host operations around three pallas_calls. The buffers' contents at each boundary are a fold
from the launch memory: a host stretch applies its operations, a pallas_call replaces its windows' arrays by what its
write-backs leave and keeps every other buffer. The run theorem says every weakly fair execution ends with every
unscoped buffer at the last boundary's contents; the argument arrays walk back through the fold to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (casts, the mask, the gather). -/
abbrev W1 : Dev nD → Valuation τ sig (Elt F) := fun c => StableHlo.after hostOps0 (W0 m ρ c)
/-- After the masked select: the first pallas_call's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At the exit of pallas_call 0: its arrays at what the write-backs leave, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the scatter-add stretch: the second pallas_call's entry. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At the exit of pallas_call 1: its arrays at what the write-backs leave, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the mean / variance stretch: the third pallas_call's entry. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At the exit of pallas_call 2: its arrays at what the write-backs leave, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (by decide : main_arg0 ∉ hostOps2_W)
    _ = W4 m ρ c (Proc.devRef .tc main_arg0) := W5_of_ne m ρ c main_arg0 (by decide)
    _ = W3 m ρ c (Proc.devRef .tc main_arg0) := StableHlo.after_of_writes_sub hostOps1 _ hostOps1_writes (by decide : main_arg0 ∉ hostOps1_W)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (by decide : main_arg1 ∉ hostOps2_W)
    _ = W4 m ρ c (Proc.devRef .tc main_arg1) := W5_of_ne m ρ c main_arg1 (by decide)
    _ = W3 m ρ c (Proc.devRef .tc main_arg1) := StableHlo.after_of_writes_sub hostOps1 _ hostOps1_writes (by decide : main_arg1 ∉ hostOps1_W)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (by decide : main_arg2 ∉ hostOps2_W)
    _ = W4 m ρ c (Proc.devRef .tc main_arg2) := W5_of_ne m ρ c main_arg2 (by decide)
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (by decide : main_arg3 ∉ hostOps2_W)
    _ = W4 m ρ c (Proc.devRef .tc main_arg3) := W5_of_ne m ρ c main_arg3 (by decide)
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (by decide : main_arg4 ∉ hostOps2_W)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (by decide : main_arg5 ∉ hostOps2_W)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- The pallas_call number 0 as a segment: entered with every unscoped buffer at `W2`, left with them at `W3`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered with every unscoped buffer at `W4`, left with them at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V4 m ρ) c).Φ (Fin.last cfg1.N) from rfl]
    have hΦ := hout1 (V4 m ρ) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered with every unscoped buffer at `W6`, left with them at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_main m ρ)

end Cert.Kernel.Hand

end
-- ==== Proof.KIReg0.lean ====
/- Region 0 of the kernel program: the per-offset matrix product.

   The grid is 27 x 10.  At the point (k, m) the body reads block (k, m, 0) of the gathered features (1 x 10000 x 64),
   block (k, 0, 0) of the weights (1 x 64 x 64), and writes block (k, m, 0) of the contributions (1 x 10000 x 64): the
   rows 10000 m .. 10000 m + 9999 of offset k times the weight matrix of offset k.  The weight block depends on k alone,
   so it is transferred only when k changes and otherwise stays in its buffer from the point before.

   Everything here is stated at a parameter `V`, the contents of the TensorCore's buffers when the region is entered,
   and for any float interpretation `F`.  It gives: each window's block at a point read off `V`; what the body leaves
   in the output's buffer as a function of the two input blocks; the body's triple; the proof data of the pipeline; and
   the body obligation the launch theorem asks for. -/
import proofs.«182249_j77902116815210_2_alg».proof.Proof.Gen.KernelIdeal.Launch
import proofs.«182249_j77902116815210_2_alg».proof.Proof.Gen.KernelIdeal.Skeleton
import proofs.«182249_j77902116815210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks of this region have an axis of 10000 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at the grid point `t`: the part of the window's array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered features' buffer holds their block at every point.  Stated for any proof data over the array of `V`
    whose body leaves that block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' buffer holds the block of the current offset at every point, also at the points where nothing is
    transferred: there the offset is the one of the point before, whose block the body left in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

/-- The whole 1 x 10000 x 64 buffer (the features' block, and the output's). -/
abbrev r0_0 : Rect S1x10000x64 := Rect.unit (s := S1x10000x64) ![0, 0, 0] S1x10000x64.size inb_S1x10000x64_S1x10000x64_0_0_0
/-- The whole 1 x 64 x 64 buffer (the weights' block). -/
abbrev r0_1 : Rect S1x64x64 := Rect.unit (s := S1x64x64) ![0, 0, 0] S1x64x64.size inb_S1x64x64_S1x64x64_0_0_0

/-- The output's buffer after the body, as a function of the two input buffers: one store over the whole buffer, of the
    product of the features' block with the weights' block. -/
def out0_2 (x0 : Vec F S1x10000x64 .bf16) (x1 : Vec F S1x64x64 .bf16) : Vec F S1x10000x64 .f32 :=
  View.canon [⟨r0_0, k0_pay1 (View.ld x0 r0_0) (View.ld x1 r0_1)⟩]

/-- That one store reaches every index of the buffer. -/
theorem cover0_2 (p0 : Vec F S1x10000x64 .f32) (y : S1x10000x64.Idx) :
    ∃ pc ∈ ([⟨r0_0, p0⟩] : List (View.Piece (Elt F) S1x10000x64 .f32)), y ∈ pc.1.set :=
  View.cover_of_tiled [⟨r0_0, p0⟩] S1x10000x64.size (by rfl) y

/-! ## The body's triple -/

set_option maxHeartbeats 1000000 in
/-- The body, given the two input buffers at known contents and the output's buffer at any contents, ends with the
    inputs as they were and the output at `out0_2` of the inputs.  (It reads the output's buffer before writing it; what
    it reads there is not used.) -/
theorem sound_kernel0 (c : Dev nD) (E : Set ℕ) (i : grid0.Coords) (arg2 : Memref sig .tc .vmem S1x10000x64 .bf16) (harg2 : arg2.IsWhole) (arg3 : Memref sig .tc .vmem S1x64x64 .bf16) (harg3 : arg3.IsWhole) (arg4 : Memref sig .tc .vmem S1x10000x64 .f32) (harg4 : arg4.IsWhole)
    (x0 : Vec F S1x10000x64 .bf16) (x1 : Vec F S1x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__gemm_kernel i arg2 harg2 arg3 harg3 arg4 harg4) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the pipeline on core `c`.  The arrays are those of `V`; after the body at a point the two input
    buffers hold their blocks and the output's buffer holds `out0_2` of them; the invariant is the one of a body that
    touches nothing but its buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the contents the region is entered with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at the point `t`: the invariant, the core's debt, and the three buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold their blocks, so the triple applies; the invariant and the debt
    are carried across untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation of the launch theorem, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1a.lean ====
import proofs.«182249_j77902116815210_2_alg».proof.Proof.Gen.KernelIdeal.Launch
import proofs.«182249_j77902116815210_2_alg».proof.Proof.Gen.KernelIdeal.Skeleton
import proofs.«182249_j77902116815210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The column-sum region (the second pallas_call): what its body does at each grid point

The region walks the 100000 rows of its operand in ten blocks of 10000 rows. Two 1×64 scratch rows are carried
from point to point: at the first point they are reset to zero and then take the first block's column sums and
column sums of squares; at every later point they add that point's block; at the last point they are copied into
the two output rows, which are idle (neither stored nor written back) everywhere else.

This module states, per case of the body's two conditionals (first point / a middle point / last point), what the
body leaves in the scratch rows and the outputs as the pieces its stores write, the running contents after each
point as a recursion over the points, the region's proof data with the invariant that carries the scratch rows,
and the body obligation at every point. Everything is generic in the float instance.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the ten points -/

/-- The first conditional (reset the scratch rows): the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional (copy the scratch rows to the outputs): the grid coordinate is nine. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

/-- A 1×64 row's view, through which the rows' contents are stated (any whole 1×64 buffer serves). -/
abbrev VR : View sig .tc .vmem S1x64 .f32 := (Memref.whole cc1_stg1_0 : Memref sig .tc .vmem S1x64 .f32).view
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two carried scratch rows. -/
abbrev scM1_0 : Memref sig .tc .vmem S1x64 .f32 := Memref.whole cc1_scratch0
abbrev scM1_1 : Memref sig .tc .vmem S1x64 .f32 := Memref.whole cc1_scratch1

/-! ## The body per case: the pieces its stores leave, found by running it -/

set_option maxHeartbeats 2000000 in
/-- FIRST POINT: the scratch rows are reset and take the block's sums; the outputs are handed back untouched. -/
noncomputable def kernelRun1_A (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S10000x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun xi1 xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- A MIDDLE POINT: the scratch rows, at what the point before left, add the block's sums; the outputs are handed back untouched. -/
noncomputable def kernelRun1_B (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S10000x64 .f32) (xs0 xs1 : Vec F S1x64 .f32) :
    Σ' (LS0 : List (View.Piece (Elt F) S1x64 .f32)), { LS1 : List (View.Piece (Elt F) S1x64 .f32) //
      ∀ (xi1 xi2 : Vec F S1x64 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, fun xi1 xi2 E K => ?run⟩
  case run =>
    simp only [cc1__reduce_kernel_eq_skeleton]; unfold cc1__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- LAST POINT: the scratch rows add the block's sums and are copied into the outputs. -/
noncomputable def kernelRun1_C (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S10000x64 .f32) (xs0 xs1 : Vec F S1x64 .f32) :
    Σ' (L1 : List (View.Piece (Elt F) S1x64 .f32)) (L2 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__reduce_kernel i arg1 harg1 arg2 harg2 arg3 harg3 arg4 harg4 arg5 harg5) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KIReg1b.lean ====
import proofs.«182249_j77902116815210_2_alg».proof.Proof.KIReg1a

/-!
# The column-sum region: the running contents, the proof data and the body obligation

What the two carried scratch rows hold after each of the ten points is a recursion over the points: the first
point's pieces, then each later point's pieces over what the point before left. The outputs hold the last point's
copies. The region's invariant says exactly that about the scratch rows between points.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in each row -/

/-- First point, the sum row: its pieces tile the row, so they cover it. -/
theorem coverA_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) (y : S1x64.Idx) :
    ∃ pc ∈ (kernelRun1_A c i arg1 harg1 arg2 harg2 arg3 harg3 arg4 harg4 arg5 harg5 hc0 hc1 x0).1, y ∈ pc.1.set :=
  View.cover_of_tiledL (kernelRun1_A c i arg1 harg1 arg2 harg2 arg3 harg3 arg4 harg4 arg5 harg5 hc0 hc1 x0).1 S1x64.size (by sl_kernel_rfl) y
/-- First point, the sum row: the pieces read back. -/
def rowA_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) : Vec F S1x64 .f32 :=
  VR.read (Elt F) (VR.writes (Elt F) VR.junk (kernelRun1_A c i arg1 harg1 arg2 harg2 arg3 harg3 arg4 harg4 arg5 harg5 hc0 hc1 x0).1)

/-- First point, the sum-of-squares row: its pieces tile the row, so they cover it. -/
theorem coverA_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) (y : S1x64.Idx) :
    ∃ pc ∈ (kernelRun1_A c i arg1 harg1 arg2 harg2 arg3 harg3 arg4 harg4 arg5 harg5 hc0 hc1 x0).2.1, y ∈ pc.1.set :=
  View.cover_of_tiledL (kernelRun1_A c i arg1 harg1 arg2 harg2 arg3 harg3 arg4 harg4 arg5 harg5 hc0 hc1 x0).2.1 S1x64.size (by sl_kernel_rfl) y
/-- First point, the sum-of-squares row: the pieces read back. -/
def rowA_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) : Vec F S1x64 .f32 :=
  VR.read (Elt F) (VR.writes (Elt F) VR.junk (kernelRun1_A c i arg1 harg1 arg2 harg2 arg3 harg3 arg4 harg4 arg5 harg5 hc0 hc1 x0).2.1)

/-- A middle point, the sum row: its pieces tile the row, so they cover it. -/
theorem coverB_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).1, y ∈ pc.1.set :=
  View.cover_of_tiledL (kernelRun1_B c i arg1 harg1 arg2 harg2 arg3 harg3 arg4 harg4 arg5 harg5 hc0 hc1 x0 xs0 xs1).1 S1x64.size (by sl_kernel_rfl) y
/-- A middle point, the sum row: the pieces read back. -/
def rowB_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) : Vec F S1x64 .f32 :=
  VR.read (Elt F) (VR.writes (Elt F) VR.junk (kernelRun1_B c i arg1 harg1 arg2 harg2 arg3 harg3 arg4 harg4 arg5 harg5 hc0 hc1 x0 xs0 xs1).1)

/-- A middle point, the sum-of-squares row: its pieces tile the row, so they cover it. -/
theorem coverB_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.1, y ∈ pc.1.set :=
  View.cover_of_tiledL (kernelRun1_B c i arg1 harg1 arg2 harg2 arg3 harg3 arg4 harg4 arg5 harg5 hc0 hc1 x0 xs0 xs1).2.1 S1x64.size (by sl_kernel_rfl) y
/-- A middle point, the sum-of-squares row: the pieces read back. -/
def rowB_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) : Vec F S1x64 .f32 :=
  VR.read (Elt F) (VR.writes (Elt F) VR.junk (kernelRun1_B c i arg1 harg1 arg2 harg2 arg3 harg3 arg4 harg4 arg5 harg5 hc0 hc1 x0 xs0 xs1).2.1)

/-- Last point, the first output: its pieces tile the row, so they cover it. -/
theorem coverC_o1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y
/-- Last point, the first output: the pieces read back. -/
def rowC_o1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).1)

/-- Last point, the second output: its pieces tile the row, so they cover it. -/
theorem coverC_o2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y
/-- Last point, the second output: the pieces read back. -/
def rowC_o2 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.1)

/-- Last point, the sum row: its pieces tile the row, so they cover it. -/
theorem coverC_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y
/-- Last point, the sum row: the pieces read back. -/
def rowC_s0 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.2.1)

/-- Last point, the sum-of-squares row: its pieces tile the row, so they cover it. -/
theorem coverC_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y
/-- Last point, the sum-of-squares row: the pieces read back. -/
def rowC_s1 (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) : Vec F S1x64 .f32 :=
  VR.read (Elt F) (VR.writes (Elt F) VR.junk (kernelRun1_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

/-! ## The input window's blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A row nothing consults: what an idle output is said to hold. -/
def idleRow : Vec F S1x64 .f32 := VR.read (Elt F) VR.junk

/-! ## The running contents -/

/-- After point `n`: the two outputs (idle before the last point) and the two scratch rows. -/
def outsAt1 (c : Dev nD) : (n : ℕ) → n < cfg1.N → Vec F S1x64 .f32 × Vec F S1x64 .f32 × Vec F S1x64 .f32 × Vec F S1x64 .f32
  | 0, hn => (idleRow, idleRow,
      rowA_s0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have := (hcond1_1 ⟨0, hn⟩).mp h; (try dsimp only at this); omega) (iblk1 V c 0 ⟨0, hn⟩),
      rowA_s1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr rfl) (fun h => by have := (hcond1_1 ⟨0, hn⟩).mp h; (try dsimp only at this); omega) (iblk1 V c 0 ⟨0, hn⟩))
  | n + 1, hn =>
    if h9 : n + 1 = 9 then
      (rowC_o1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_o2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2,
       rowC_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) ((hcond1_1 ⟨n + 1, hn⟩).mpr h9) (iblk1 V c 0 ⟨n + 1, hn⟩) (outsAt1 c n (Nat.lt_of_succ_lt hn)).2.2.1 (outsAt1 c n (Nat.lt_of_succ_lt hn)).2.2.2)
    else
      (idleRow, idleRow,
       rowB_s0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) (fun h => h9 ((hcond1_1 ⟨n + 1, hn⟩).mp h)) (iblk1 V c 0 ⟨n + 1, hn⟩) (outsAt1 c n (Nat.lt_of_succ_lt hn)).2.2.1 (outsAt1 c n (Nat.lt_of_succ_lt hn)).2.2.2,
       rowB_s1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => by have := (hcond1_0 ⟨n + 1, hn⟩).mp h; (try dsimp only at this); omega) (fun h => h9 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (hz : t.val = 0) (hc0 : cond1_0 (grid1.coords t)) (hc1 : ¬cond1_1 (grid1.coords t)) :
    outsAt1 V c t.val t.isLt = (idleRow, idleRow,
      rowA_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t),
      rowA_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t)) := by
  obtain ⟨n, hn⟩ := t
  cases n with
  | zero => exact rfl
  | succ n => exact (by exfalso; (try dsimp only at hz); omega)

theorem outsAt1_B (c : Dev nD) (t : Fin cfg1.N) (h0 : ¬t.val = 0) (h9 : ¬t.val = 9) (hc0 : ¬cond1_0 (grid1.coords t)) (hc1 : ¬cond1_1 (grid1.coords t)) :
    outsAt1 V c t.val t.isLt = (idleRow, idleRow,
      rowB_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
      rowB_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h9).trans rfl

theorem outsAt1_C (c : Dev nD) (t : Fin cfg1.N) (h0 : ¬t.val = 0) (h9 : t.val = 9) (hc0 : ¬cond1_0 (grid1.coords t)) (hc1 : cond1_1 (grid1.coords t)) :
    outsAt1 V c t.val t.isLt =
      (rowC_o1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_o2 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_s0 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2,
       rowC_s1 c (grid1.coords t) (ms1_0 t) (hs1_0 t) (ms1_1 t) (hs1_1 t) (ms1_2 t) (hs1_2 t) scM1_0 (Memref.isWhole_whole _) scM1_1 (Memref.isWhole_whole _) hc0 hc1 (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h9).trans rfl

end Cert.KernelIdeal.Hand

end
-- ==== Proof.KIReg1c.lean ====
import proofs.«182249_j77902116815210_2_alg».proof.Proof.KIReg1b

/-!
# The column-sum region: the invariant, the proof data, the body obligation

Between points the region owns, besides the other regions' staging buffers (at anything) and the generator register,
the two scratch rows at exactly what the point before left in them. Before the first point they are at anything.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- The last region's staging buffers, at anything. -/
abbrev rest8 (c : Dev nD) : sProp 𝕄 := iprop(anyAt (F := F) c cc2_stg0_0 ∗ anyAt (F := F) c cc2_stg0_1 ∗ anyAt (F := F) c cc2_stg1_0 ∗ anyAt (F := F) c cc2_stg2_0 ∗ anyAt (F := F) c cc2_stg3_0 ∗ anyAt (F := F) c cc2_stg4_0 ∗ anyAt (F := F) c cc2_stg5_0 ∗ anyAt (F := F) c cc2_stg5_1)

/-- The class invariant spelt out: the other regions' staging buffers and the two scratch rows at anything, the generator
    register at some state. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ (∃ d, owns (c : Thread nD τ) scM1_0 fullShare d) ∗ (∃ d, owns (c : Thread nD τ) scM1_1 fullShare d) ∗ rest8 (F := F) c) ∗ (∃ r, prngReg c r)) := by
  unfold Pipeline.ΦA; rw [scopedRest1_eq]; simp only [scM1_0, scM1_1, owns_whole]; try rfl

variable (V : (c : Dev nD) → (b : Ref sig .tc) → Buf (Elt F) ((c : Thread nD τ).loc b))

/-- The invariant before position `n`. -/
def PhiS (c : Dev nD) : (n : ℕ) → n ≤ cfg1.N → sProp 𝕄
  | 0, _ => Pipeline.ΦA spec1 c
  | n + 1, hn => iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c n hn).2.2.1) ∗ owns (c : Thread nD τ) scM1_1 fullShare ((outsAt1 V c n hn).2.2.2) ∗ rest8 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c n hn).2.2.1) ∗ owns (c : Thread nD τ) scM1_1 fullShare ((outsAt1 V c n hn).2.2.2) ∗ rest8 (F := F) c) ∗ (∃ r, prngReg c r)) := rfl

theorem PhiS_pos (c : Dev nD) (n : ℕ) (h : n ≤ cfg1.N) (hz : n ≠ 0) :
    PhiS V c n h = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ owns (c : Thread nD τ) scM1_0 fullShare ((outsAt1 V c (n - 1) (by omega)).2.2.1) ∗ owns (c : Thread nD τ) scM1_1 fullShare ((outsAt1 V c (n - 1) (by omega)).2.2.2) ∗ rest8 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases the point is in is decided by its position; the invariant hands the
    scratch rows over at what the point before left (at anything at the first point) and takes them back at this point's
    contents; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  have hN : t.val < 10 := lt_of_lt_of_eq t.isLt (show cfg1.N = 10 from N_1)
  by_cases hz : t.val = 0
  · have hc0 : cond1_0 (grid1.coords t) := (hcond1_0 t).mpr hz
    have hc1 : ¬cond1_1 (grid1.coords t) := fun h => by have := (hcond1_1 t).mp h; omega
    rw [Dat.leavesExact_idle (dat1 V c) 1 t (idleAt1_1 t hc1) (noFlush1_1 t hc1),
      Dat.leavesExact_idle (dat1 V c) 2 t (idleAt1_2 t hc1) (noFlush1_2 t hc1)]
    rw [outsAt1_A V c t hz hc0 hc1]
    unfold rowA_s0 rowA_s1; (try dsimp only)
    rw [PhiS_castSucc V c t, PhiS_zero V c _ _ hz, PhiA1_eq]
    iintro ⟨⟨⟨A0, A1, A2, A3, A4, A5, HS0, HS1, HB⟩, Hg⟩, Ho, ⟨%d0, H0⟩, ⟨%d1, H1⟩, ⟨%d2, H2⟩⟩
    iapply ((kernelRun1_A c (grid1.coords t) _ _ _ _ _ _ _ _ _ _ hc0 hc1 (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    -- the invariant after the point: the other scoped buffers as they were, the scratch rows at this point's contents
    isplitl [A0 A1 A2 A3 A4 A5 HS0 HS1 HB Hg]
    · isplitl [A0 A1 A2 A3 A4 A5 HS0 HS1 HB]
      · isplitl [A0]; · iexact A0
        isplitl [A1]; · iexact A1
        isplitl [A2]; · iexact A2
        isplitl [A3]; · iexact A3
        isplitl [A4]; · iexact A4
        isplitl [A5]; · iexact A5
        isplitl [HS0]
        · unfold owns; iexists _; isplitr
          swap; · iexact HS0
          ipureintro; exact View.read_writes_of_cover _ _ _ _ _ (coverA_s0 c _ _ _ _ _ _ _ _ _ _ _ _ _ _)
        isplitl [HS1]
        · unfold owns; iexists _; isplitr
          swap; · iexact HS1
          ipureintro; exact View.read_writes_of_cover _ _ _ _ _ (coverA_s1 c _ _ _ _ _ _ _ _ _ _ _ _ _ _)
        iexact HB
      · iexact Hg
    isplitl [Ho]; · iexact Ho
    isplitl [H0]; · iexact H0
    isplitl [H1]; · iexists _; iexact H1
    iexists _; iexact H2
  · have hc0 : ¬cond1_0 (grid1.coords t) := fun h => hz ((hcond1_0 t).mp h)
    by_cases h9 : t.val = 9
    · have hc1 : cond1_1 (grid1.coords t) := (hcond1_1 t).mpr h9
      rw [show (dat1 V c).leavesExact 1 t = owns (c : Thread nD τ) (ms1_1 t) fullShare ((dat1 V c).after 1 t) from by
          unfold Dat.leavesExact; rw [liveAt1_1 t hc1], after1_1]
      rw [show (dat1 V c).leavesExact 2 t = owns (c : Thread nD τ) (ms1_2 t) fullShare ((dat1 V c).after 2 t) from by
          unfold Dat.leavesExact; rw [liveAt1_2 t hc1], after1_2]
      rw [outsAt1_C V c t hz h9 hc0 hc1]
      unfold rowC_o1 rowC_o2 rowC_s0 rowC_s1; (try dsimp only)
      rw [PhiS_castSucc V c t, PhiS_pos V c _ _ hz]
      iintro ⟨⟨⟨A0, A1, A2, A3, A4, A5, HS0, HS1, HB⟩, Hg⟩, Ho, ⟨%d0, H0⟩, ⟨%d1, H1⟩, ⟨%d2, H2⟩⟩
      iapply ((kernelRun1_C c (grid1.coords t) _ _ _ _ _ _ _ _ _ _ hc0 hc1 (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      -- the invariant after the point: the other scoped buffers as they were, the scratch rows at this point's contents
      isplitl [A0 A1 A2 A3 A4 A5 HS0 HS1 HB Hg]
      · isplitl [A0 A1 A2 A3 A4 A5 HS0 HS1 HB]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverC_s0 c _ _ _ _ _ _ _ _ _ _ _ _ _ _ _ _)
          isplitl [HS1]
          · unfold owns; iexists _; isplitr
            swap; · iexact HS1
            ipureintro; exact View.read_writes_of_cover _ _ _ _ _ (coverC_s1 c _ _ _ _ _ _ _ _ _ _ _ _ _ _ _ _)
          iexact HB
        · iexact Hg
      isplitl [Ho]; · iexact Ho
      isplitl [H0]; · iexact H0
      isplitl [H1]
      · unfold owns; iexists _; isplitr
        swap; · iexact H1
        ipureintro; exact View.read_writes_of_cover _ _ _ _ _ (coverC_o1 c _ _ _ _ _ _ _ _ _ _ _ _ _ _ _ _)
      unfold owns; iexists _; isplitr
      swap; · iexact H2
      ipureintro; exact View.read_writes_of_cover _ _ _ _ _ (coverC_o2 c _ _ _ _ _ _ _ _ _ _ _ _ _ _ _ _)
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      rw [outsAt1_B V c t hz h9 hc0 hc1]
      unfold rowB_s0 rowB_s1; (try dsimp only)
      rw [PhiS_castSucc V c t, PhiS_pos V c _ _ hz]
      iintro ⟨⟨⟨A0, A1, A2, A3, A4, A5, HS0, HS1, HB⟩, Hg⟩, Ho, ⟨%d0, H0⟩, ⟨%d1, H1⟩, ⟨%d2, H2⟩⟩
      iapply ((kernelRun1_B c (grid1.coords t) _ _ _ _ _ _ _ _ _ _ hc0 hc1 (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      -- the invariant after the point: the other scoped buffers as they were, the scratch rows at this point's contents
      isplitl [A0 A1 A2 A3 A4 A5 HS0 HS1 HB Hg]
      · isplitl [A0 A1 A2 A3 A4 A5 HS0 HS1 HB]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (coverB_s0 c _ _ _ _ _ _ _ _ _ _ _ _ _ _ _ _)
          isplitl [HS1]
          · unfold owns; iexists _; isplitr
            swap; · iexact HS1
            ipureintro; exact View.read_writes_of_cover _ _ _ _ _ (coverB_s1 c _ _ _ _ _ _ _ _ _ _ _ _ _ _ _ _)
          iexact HB
        · iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: what the scratch rows hold is forgotten. -/
theorem hout1 (c : Dev nD) : (dat1 V c).Φ (Fin.last cfg1.N) ⊢ Pipeline.ΦA spec1 c := by
  have hN : cfg1.N = 10 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨A0, A1, A2, A3, A4, A5, HS0, HS1, HB⟩, Hg⟩
  isplitl [A0 A1 A2 A3 A4 A5 HS0 HS1 HB]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    isplitl [HS1]; · iexists _; iexact HS1
    iexact HB
  · iexact Hg

end Cert.KernelIdeal.Hand

end
-- ==== Proof.KIReg2.lean ====
/- Region 2 of the idealized kernel program — the normalise-and-ReLU pallas_call `cc2__norm_kernel` —
   stated at a parameter `V`: the TensorCore's buffer contents when the region is entered.

   The region walks ten grid points. At point `t` it stages rows `10000·t … 10000·t + 9999` of the
   scattered sum `out` (window 0) and, once and for all, the four per-column rows `mean`, `var`,
   `gamma`, `beta` (windows 1–4, whole `1×64` arrays whose block index never moves); the body loads
   all five, computes `max((x − mean)·rsqrt(var + ε)·gamma + beta, 0)` entrywise (the skeleton's one
   payload `k2_pay1`), and stores the result over the whole output block (window 5), which the
   pipeline writes back to rows `10000·t …` of the result array.

   This module is generic in the float instance `F`. It gives, per core `c`: each window's block at a
   point (`iblk2`), what the body leaves in the output block as a function of the five input blocks
   (`out2_5`), the body's separation-logic triple (`sound_kernel2`), the pipeline's proof data
   (`dat2`) with its projections (`A_eq2`, `after2_W`, `before2_W`), and the library's body obligation
   at every grid point (`body_obligation2`). -/
import proofs.«182249_j77902116815210_2_alg».proof.Proof.Gen.KernelIdeal.Launch
import proofs.«182249_j77902116815210_2_alg».proof.Proof.Gen.KernelIdeal.Skeleton
import proofs.«182249_j77902116815210_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks of this region have 10000 rows
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers as the region finds them
variable (V : (c : Dev nD) → (b : Ref sig .tc) → Buf (Elt F) ((c : Thread nD τ).loc b))

/-! ## The windows' blocks -/

/-- Window `w`'s block at grid point `t`: the rectangle of its array (as the region finds it) that the
    window's index map selects there — ten thousand rows of `out` or of the result, or a whole `1×64` row. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at EVERY point, whether the pipeline
    fetched it there or not: where it is not fetched (the four `1×64` rows after the first point) the
    block index has not moved since the last fetch and the body left the buffer as it found it. This
    holds for any proof data whose array is `V`'s (`hA`) and whose body leaves the block in place
    (`hafter`); none of these windows is cut or idle. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole `10000×64` block: what the body loads of `out`'s buffer and stores of the result's. -/
abbrev r2_0 : Rect S10000x64 := Rect.unit (s := S10000x64) ![0, 0] S10000x64.size inb_S10000x64_S10000x64_0_0
/-- The whole `1×64` row: what the body loads of each per-column buffer. -/
abbrev r2_1 : Rect S1x64 := Rect.unit (s := S1x64) ![0, 0] S1x64.size inb_S1x64_S1x64_0_0

/-! ## What the body leaves in the output block -/

/-- The result's staging buffer after the body, from the five input blocks: its one store, of the payload
    `k2_pay1` of the five whole-block loads, over the whole block. -/
def out2_5 (x0 : Vec F S10000x64 .f32) (x1 x2 x3 x4 : Vec F S1x64 .f32) : Vec F S10000x64 .f32 :=
  View.canon [⟨r2_0, k2_pay1 (View.ld x0 r2_0) (View.ld x1 r2_1) (View.ld x2 r2_1) (View.ld x3 r2_1) (View.ld x4 r2_1)⟩]

/-- That one store covers the buffer: its rectangle is the whole block. -/
theorem cover2_5 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

/-! ## The body's triple -/

set_option maxHeartbeats 1000000 in
/-- The body on six whole staging memrefs — the five inputs' at contents `x0 … x4`, the result's at
    anything — runs to the continuation with the inputs' as they were and the result's at `out2_5` of
    them. The body also LOADS the result's buffer before storing it; the loaded value is not used, so
    whatever the buffer held does not matter. -/
theorem sound_kernel2 (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them (`V`); after the
    body at point `t` each input's buffer still at its block and the result's at `out2_5` of the five
    input blocks; the invariant is the plain one (the scoped rest and the generator register untouched);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and the six current
    staging memrefs at whatever the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five inputs' memrefs hold their blocks (`before2_W`), so the body's triple
    applies; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
import proofs.«182249_j77902116815210_2_alg».proof.Proof.KIReg0
import proofs.«182249_j77902116815210_2_alg».proof.Proof.KIReg1c
import proofs.«182249_j77902116815210_2_alg».proof.Proof.KIReg2
import proofs.«182249_j77902116815210_2_alg».proof.Proof.Gen.KernelIdeal.Regions

/-!
# The whole run of the kernel program

@main is four stretches of host operations around three pallas_calls. The buffers' contents at each boundary are a fold
from the launch memory: a host stretch applies its operations, a pallas_call replaces its windows' arrays by what its
write-backs leave and keeps every other buffer. The run theorem says every weakly fair execution ends with every
unscoped buffer at the last boundary's contents; the argument arrays walk back through the fold to the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (casts, the mask, the gather). -/
abbrev W1 : Dev nD → Valuation τ sig (Elt F) := fun c => StableHlo.after hostOps0 (W0 m ρ c)
/-- After the masked select: the first pallas_call's entry. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

/-- At the exit of pallas_call 0: its arrays at what the write-backs leave, every other buffer as entered. -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After the scatter-add stretch: the second pallas_call's entry. -/
abbrev W4 : Dev nD → Valuation τ sig (Elt F) := fun c => StableHlo.after hostOps1 (W3 m ρ c)
abbrev V4 : (c : Dev nD) → (b : Ref sig .tc) → Buf (Elt F) ((c : Thread nD τ).loc b) := fun c b => W4 m ρ c b

/-- At the exit of pallas_call 1: its arrays at what the write-backs leave, every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the mean / variance stretch: the third pallas_call's entry. -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b

/-- At the exit of pallas_call 2: its arrays at what the write-backs leave, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (by decide : main_arg0 ∉ hostOps2_W)
    _ = W4 m ρ c (Proc.devRef .tc main_arg0) := W5_of_ne m ρ c main_arg0 (by decide)
    _ = W3 m ρ c (Proc.devRef .tc main_arg0) := StableHlo.after_of_writes_sub hostOps1 _ hostOps1_writes (by decide : main_arg0 ∉ hostOps1_W)
    _ = W2 m ρ c (Proc.devRef .tc main_arg0) := W3_of_ne m ρ c main_arg0 (by decide)
    _ = W1 m ρ c (Proc.devRef .tc main_arg0) := StableHlo.after_of_writes_sub hostOps0_1 _ hostOps0_1_writes (by decide : main_arg0 ∉ hostOps0_1_W)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (by decide : main_arg1 ∉ hostOps2_W)
    _ = W4 m ρ c (Proc.devRef .tc main_arg1) := W5_of_ne m ρ c main_arg1 (by decide)
    _ = W3 m ρ c (Proc.devRef .tc main_arg1) := StableHlo.after_of_writes_sub hostOps1 _ hostOps1_writes (by decide : main_arg1 ∉ hostOps1_W)
    _ = W2 m ρ c (Proc.devRef .tc main_arg1) := W3_of_ne m ρ c main_arg1 (by decide)
    _ = W1 m ρ c (Proc.devRef .tc main_arg1) := StableHlo.after_of_writes_sub hostOps0_1 _ hostOps0_1_writes (by decide : main_arg1 ∉ hostOps0_1_W)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (by decide : main_arg2 ∉ hostOps2_W)
    _ = W4 m ρ c (Proc.devRef .tc main_arg2) := W5_of_ne m ρ c main_arg2 (by decide)
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (by decide : main_arg3 ∉ hostOps2_W)
    _ = W4 m ρ c (Proc.devRef .tc main_arg3) := W5_of_ne m ρ c main_arg3 (by decide)
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (by decide : main_arg4 ∉ hostOps2_W)
    _ = W4 m ρ c (Proc.devRef .tc main_arg4) := W5_of_ne m ρ c main_arg4 (by decide)
    _ = W3 m ρ c (Proc.devRef .tc main_arg4) := StableHlo.after_of_writes_sub hostOps1 _ hostOps1_writes (by decide : main_arg4 ∉ hostOps1_W)
    _ = W2 m ρ c (Proc.devRef .tc main_arg4) := W3_of_ne m ρ c main_arg4 (by decide)
    _ = W1 m ρ c (Proc.devRef .tc main_arg4) := StableHlo.after_of_writes_sub hostOps0_1 _ hostOps0_1_writes (by decide : main_arg4 ∉ hostOps0_1_W)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (by decide : main_arg5 ∉ hostOps2_W)
    _ = W4 m ρ c (Proc.devRef .tc main_arg5) := W5_of_ne m ρ c main_arg5 (by decide)
    _ = W3 m ρ c (Proc.devRef .tc main_arg5) := StableHlo.after_of_writes_sub hostOps1 _ hostOps1_writes (by decide : main_arg5 ∉ hostOps1_W)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The pallas_calls as segments -/

set_option backward.isDefEq.respectTransparency.types false in
/-- The pallas_call number 0 as a segment: entered with every unscoped buffer at `W2`, left with them at `W3`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 as a segment: entered with every unscoped buffer at `W4`, left with them at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V4 m ρ) c).Φ (Fin.last cfg1.N) from rfl]
    have hΦ := hout1 (V4 m ρ) c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 as a segment: entered with every unscoped buffer at `W6`, left with them at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .host (hseg hostOps2 hostOps2_sub hostOps2_fresh (W5 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_main m ρ)

end Cert.KernelIdeal.Hand

end
-- ==== Proof.RefOps.lean ====
/-
  The reference program's @main as one list of its 72 host operations, the three outlined
  functions' operations listed at their call sites over the buffers each call names, and the run of
  that list: every weakly fair execution ends with each buffer at the fold of the operations over
  the launch contents.  The list is cut into three consecutive stretches — up to the scattered sum,
  the two per-channel statistics, and the normalisation — so that each can be read back by itself.
-/
import proofs.«182249_j77902116815210_2_alg».proof.Proof.Gen.ReferenceIdeal
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations up to the scattered sum (the gather's index chain, the gather, the masking
    select, the batched product, the two reshapes, the zero array and the scatter-add). -/
abbrev opsA : List (HloOp τ sig (Elt F)) :=
  [ nullary main_c (constantI S_ 32 100000#32),
    unary main_c main_v0 (broadcastInDim S27x100000 ![] bcast_S_S27x100000 : (⟨S_, .i32⟩ : BufTy).Contents (Elt F) → (⟨S27x100000, .i32⟩ : BufTy).Contents (Elt F)),
    binary main_arg5 main_v0 main_v1 (cmpi .slt : (⟨S27x100000, .i32⟩ : BufTy).Contents (Elt F) → (⟨S27x100000, .i32⟩ : BufTy).Contents (Elt F) → (⟨S27x100000, .i1⟩ : BufTy).Contents (Elt F)),
    unary main_v1 main_v2 (broadcastInDim S27x100000x1 ![0, 1] bcast_S27x100000_S27x100000x1_0_1 : (⟨S27x100000, .i1⟩ : BufTy).Contents (Elt F) → (⟨S27x100000x1, .i1⟩ : BufTy).Contents (Elt F)),
    nullary main_c_0 (constantI S_ 32 0#32),
    unary main_c_0 main_v3 (broadcastInDim S27x100000 ![] bcast_S_S27x100000 : (⟨S_, .i32⟩ : BufTy).Contents (Elt F) → (⟨S27x100000, .i32⟩ : BufTy).Contents (Elt F)),
    binary main_arg4 main_v3 main_v4 (cmpi .slt : (⟨S27x100000, .i32⟩ : BufTy).Contents (Elt F) → (⟨S27x100000, .i32⟩ : BufTy).Contents (Elt F) → (⟨S27x100000, .i1⟩ : BufTy).Contents (Elt F)),
    nullary main_c_1 (constantI S_ 32 100000#32),
    unary main_c_1 main_v5 (broadcastInDim S27x100000 ![] bcast_S_S27x100000 : (⟨S_, .i32⟩ : BufTy).Contents (Elt F) → (⟨S27x100000, .i32⟩ : BufTy).Contents (Elt F)),
    binary main_arg4 main_v5 main_v6 (addi : (⟨S27x100000, .i32⟩ : BufTy).Contents (Elt F) → (⟨S27x100000, .i32⟩ : BufTy).Contents (Elt F) → (⟨S27x100000, .i32⟩ : BufTy).Contents (Elt F)),
    ternary main_v4 main_v6 main_arg4 main_v7 (select : (⟨S27x100000, .i1⟩ : BufTy).Contents (Elt F) → (⟨S27x100000, .i32⟩ : BufTy).Contents (Elt F) → (⟨S27x100000, .i32⟩ : BufTy).Contents (Elt F) → (⟨S27x100000, .i32⟩ : BufTy).Contents (Elt F)),
    unary main_v7 main_v8 (broadcastInDim S27x100000x1 ![0, 1] bcast_S27x100000_S27x100000x1_0_1 : (⟨S27x100000, .i32⟩ : BufTy).Contents (Elt F) → (⟨S27x100000x1, .i32⟩ : BufTy).Contents (Elt F)),
    binary main_arg0 main_v8 main_v9 ((fun x i => Host.gather gather_S100000x64_S27x100000x1_S27x100000x64_2_0_n_n_0_2_164 x i) : (⟨S100000x64, .f32⟩ : BufTy).Contents (Elt F) → (⟨S27x100000x1, .i32⟩ : BufTy).Contents (Elt F) → (⟨S27x100000x64, .f32⟩ : BufTy).Contents (Elt F)),
    nullary main_cst (constant S_ .f32 0x00000000#32),
    TRef.unary (TRef.of main_cst : TRef sig ⟨S_, .f32⟩) main_call0.v0 id,
    TRef.unary (TRef.of main_v2 : TRef sig ⟨S27x100000x1, .i1⟩) main_call0.v1 (broadcastInDim S27x100000x64 ![0, 1, 2] bcast_S27x100000x1_S27x100000x64_0_1_2),
    TRef.unary main_call0.v0 main_call0.v2 (broadcastInDim S27x100000x64 ![] bcast_S_S27x100000x64),
    TRef.ternary main_call0.v1 (TRef.of main_v9 : TRef sig ⟨S27x100000x64, .f32⟩) main_call0.v2 main_call0.v3 select,
    binary main_v10 main_arg1 main_v11 ((fun l r => Host.dotGeneral dot_S27x100000x64_S27x64x64_S27x100000x64_2_1_1_2_0_0 none l r) : (⟨S27x100000x64, .f32⟩ : BufTy).Contents (Elt F) → (⟨S27x64x64, .f32⟩ : BufTy).Contents (Elt F) → (⟨S27x100000x64, .f32⟩ : BufTy).Contents (Elt F)),
    reshape main_v11 main_v12 rfl shapeCasts_S27x100000x64_S2700000x64,
    reshape main_arg5 main_v13 rfl shapeCasts_S27x100000_S2700000,
    nullary main_cst_2 (constant S_ .f32 0x00000000#32),
    unary main_cst_2 main_v14 (broadcastInDim S100000x64 ![] bcast_S_S100000x64 : (⟨S_, .f32⟩ : BufTy).Contents (Elt F) → (⟨S100000x64, .f32⟩ : BufTy).Contents (Elt F)),
    unary main_v13 main_v15 (broadcastInDim S2700000x1 ![0] bcast_S2700000_S2700000x1_0 : (⟨S2700000, .i32⟩ : BufTy).Contents (Elt F) → (⟨S2700000x1, .i32⟩ : BufTy).Contents (Elt F)),
    ternary main_v14 main_v15 main_v12 main_v16 ((fun x i u => Host.scatterAdd scatter_S100000x64_S2700000x1_S2700000x64_1_0_0_1 x i u) : (⟨S100000x64, .f32⟩ : BufTy).Contents (Elt F) → (⟨S2700000x1, .i32⟩ : BufTy).Contents (Elt F) → (⟨S2700000x64, .f32⟩ : BufTy).Contents (Elt F) → (⟨S100000x64, .f32⟩ : BufTy).Contents (Elt F)) ]

/-- The per-channel mean and the outlined variance (a second mean inside it, the centred squares'
    sum, the divisor and the guard on it). -/
abbrev opsB : List (HloOp τ sig (Elt F)) :=
  [ nullary main_cst_3 (constant S_ .f32 0x00000000#32),
    binary main_v16 main_cst_3 main_v17 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v18 (broadcastInDim S64 ![] bcast_S_S64 : (⟨S_, .f32⟩ : BufTy).Contents (Elt F) → (⟨S64, .f32⟩ : BufTy).Contents (Elt F)),
    binary main_v17 main_v18 main_v19 (Host.divf : (⟨S64, .f32⟩ : BufTy).Contents (Elt F) → (⟨S64, .f32⟩ : BufTy).Contents (Elt F) → (⟨S64, .f32⟩ : BufTy).Contents (Elt F)),
    nullary main_c_5 (constantI S_ 32 0#32),
    TRef.nullary main_call1.cst (constant S_ .f32 0x00000000#32),
    TRef.binary (TRef.of main_v16 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (TRef.of main_v16 : TRef sig ⟨S100000x64, .f32⟩) main_call1.v4 main_call1.v5 subf,
    TRef.binary main_call1.v5 main_call1.v5 main_call1.v6 mulf,
    TRef.unary (TRef.of main_c_5 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The normalisation: centre, scale by the reciprocal root, the affine map, the maximum with zero. -/
abbrev opsC : List (HloOp τ sig (Elt F)) :=
  [ unary main_v19 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v16 main_v22 main_v23 (subf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x3727C5AC#32),
    unary main_cst_6 main_v24 (broadcastInDim S64 ![] bcast_S_S64 : (⟨S_, .f32⟩ : BufTy).Contents (Elt F) → (⟨S64, .f32⟩ : BufTy).Contents (Elt F)),
    binary main_v20 main_v24 main_v25 (addf : (⟨S64, .f32⟩ : BufTy).Contents (Elt F) → (⟨S64, .f32⟩ : BufTy).Contents (Elt F) → (⟨S64, .f32⟩ : BufTy).Contents (Elt F)),
    unary main_v25 main_v26 (Host.rsqrt : (⟨S64, .f32⟩ : BufTy).Contents (Elt F) → (⟨S64, .f32⟩ : BufTy).Contents (Elt F)),
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S100000x64 ![0, 1] bcast_S1x64_S100000x64_0_1 : (⟨S1x64, .f32⟩ : BufTy).Contents (Elt F) → (⟨S100000x64, .f32⟩ : BufTy).Contents (Elt F)),
    binary main_v23 main_v28 main_v29 (mulf : (⟨S100000x64, .f32⟩ : BufTy).Contents (Elt F) → (⟨S100000x64, .f32⟩ : BufTy).Contents (Elt F) → (⟨S100000x64, .f32⟩ : BufTy).Contents (Elt F)),
    unary main_arg2 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (mulf : (⟨S100000x64, .f32⟩ : BufTy).Contents (Elt F) → (⟨S100000x64, .f32⟩ : BufTy).Contents (Elt F) → (⟨S100000x64, .f32⟩ : BufTy).Contents (Elt F)),
    unary main_arg3 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (TRef.of main_v35 : TRef sig ⟨S100000x64, .f32⟩) main_call2.v0 main_call2.v1 maximumf ]

/-- @main's 72 operations, in order. -/
abbrev ops : List (HloOp τ sig (Elt F)) := opsA ++ (opsB ++ opsC)

set_option maxRecDepth 4096 in
/-- @main is that straight line: the outlined functions unfolded at their calls, sequencing reassociated. -/
theorem main_eq (c : Dev nD) : main (F := F) c = seq ops := by
  simp only [main, fn_where.body, fn_where_0.body, fn_var.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., binary_bufs_sub .., reshape_bufs_sub .., reshape_bufs_sub .., nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The fold over the whole list is the three stretches' folds in order. -/
theorem after_ops (V : Valuation τ sig (Elt F)) : after ops V = after opsC (after opsB (after opsA V)) := by
  rw [ops, StableHlo.after_append, StableHlo.after_append]

/-- From any memory with zero counters every weakly fair execution of @main terminates, and every
    buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefDefs.lean ====
/-
  The reference's result as composed pure terms of its argument arrays, one named function per
  mathematical stage: the masked gather, the batched product, the flattening, the scatter-add into
  the zero array; then the per-channel mean, the two-pass variance with its guarded divisor, and the
  normalisation followed by the maximum with zero.
-/
import proofs.«182249_j77902116815210_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The gathered rows `a0[a4[k, r]]` (a negative index wrapped by the row count), replaced by zero
    wherever the destination index `a5[k, r]` is not below the row count. -/
def gsel (a0 : FVec F S100000x64 .f32) (a4 a5 : IVec S27x100000 32) : FVec F S27x100000x64 .f32 :=
  select
    (broadcastInDim S27x100000x64 ![0, 1, 2] bcast_S27x100000x1_S27x100000x64_0_1_2
      (broadcastInDim S27x100000x1 ![0, 1] bcast_S27x100000_S27x100000x1_0_1
        (cmpi .slt a5 (broadcastInDim S27x100000 ![] bcast_S_S27x100000 (constantI S_ 32 100000#32)))))
    (Host.gather gather_S100000x64_S27x100000x1_S27x100000x64_2_0_n_n_0_2_164 a0
      (broadcastInDim S27x100000x1 ![0, 1] bcast_S27x100000_S27x100000x1_0_1
        (select (cmpi .slt a4 (broadcastInDim S27x100000 ![] bcast_S_S27x100000 (constantI S_ 32 0#32)))
          (addi a4 (broadcastInDim S27x100000 ![] bcast_S_S27x100000 (constantI S_ 32 100000#32)))
          a4)))
    (broadcastInDim S27x100000x64 ![] bcast_S_S27x100000x64 (constant (F := F) S_ .f32 0x00000000#32))

/-- The batched product: for each of the 27 offsets, the gathered rows times that offset's 64×64 matrix. -/
def dotg (g : FVec F S27x100000x64 .f32) (w : FVec F S27x64x64 .f32) : FVec F S27x100000x64 .f32 :=
  Host.dotGeneral dot_S27x100000x64_S27x64x64_S27x100000x64_2_1_1_2_0_0 none g w

/-- The 27 × 100000 rows laid out as one run of 2700000 rows. -/
def flat (u : FVec F S27x100000x64 .f32) : FVec F S2700000x64 .f32 :=
  shapeCast S2700000x64 u shapeCasts_S27x100000x64_S2700000x64

/-- The rows `u` added into the zero array at the rows the flattened destination indices `a5` name. -/
def scat (a5 : IVec S27x100000 32) (u : FVec F S2700000x64 .f32) : FVec F S100000x64 .f32 :=
  Host.scatterAdd scatter_S100000x64_S2700000x1_S2700000x64_1_0_0_1
    (broadcastInDim S100000x64 ![] bcast_S_S100000x64 (constant (F := F) S_ .f32 0x00000000#32))
    (broadcastInDim S2700000x1 ![0] bcast_S2700000_S2700000x1_0 (shapeCast S2700000 a5 shapeCasts_S27x100000_S2700000))
    u

/-- The scattered sum: what the normalisation is applied to. -/
def refOut (a0 : FVec F S100000x64 .f32) (a1 : FVec F S27x64x64 .f32) (a4 a5 : IVec S27x100000 32) : FVec F S100000x64 .f32 :=
  scat a5 (flat (dotg (gsel a0 a4 a5) a1))

/-- The per-channel mean: the column sums over the 100000 rows divided by 100000. -/
def meanF (out : FVec F S100000x64 .f32) : FVec F S64 .f32 :=
  Host.divf (Host.reduceAdd out (constant (F := F) S_ .f32 0x00000000#32) reducesTo_S100000x64_S64_d0 h_S_)
    (broadcastInDim S64 ![] bcast_S_S64 (constant (F := F) S_ .f32 0x47C35000#32))

/-- The divisor of the variance: 100000 minus the (zero) correction, as a float. -/
def varDen : FVec F S_ .f32 :=
  subf (constant (F := F) S_ .f32 0x47C35000#32) (sitofp .f32 (constantI S_ 32 0#32))

/-- The two-pass variance: the mean (kept with a unit leading axis) subtracted, the squares summed per
    channel and divided by the divisor; replaced by the not-a-number word when the divisor is not positive. -/
def varF (out : FVec F S100000x64 .f32) : FVec F S64 .f32 :=
  select (broadcastInDim S64 ![] bcast_S_S64 (cmpf .ogt (varDen (F := F)) (constant (F := F) S_ .f32 0x00000000#32)))
    (Host.divf
      (Host.reduceAdd
        (mulf
          (subf out (broadcastInDim S100000x64 ![0, 1] bcast_S1x64_S100000x64_0_1
            (Host.divf
              (broadcastInDim S1x64 ![1] bcast_S64_S1x64_1
                (Host.reduceAdd out (constant (F := F) S_ .f32 0x00000000#32) reducesTo_S100000x64_S64_d0 h_S_))
              (broadcastInDim S1x64 ![] bcast_S_S1x64 (constant (F := F) S_ .f32 0x47C35000#32)))))
          (subf out (broadcastInDim S100000x64 ![0, 1] bcast_S1x64_S100000x64_0_1
            (Host.divf
              (broadcastInDim S1x64 ![1] bcast_S64_S1x64_1
                (Host.reduceAdd out (constant (F := F) S_ .f32 0x00000000#32) reducesTo_S100000x64_S64_d0 h_S_))
              (broadcastInDim S1x64 ![] bcast_S_S1x64 (constant (F := F) S_ .f32 0x47C35000#32))))))
        (constant (F := F) S_ .f32 0x00000000#32) reducesTo_S100000x64_S64_d0 h_S_)
      (broadcastInDim S64 ![] bcast_S_S64 (varDen (F := F))))
    (broadcastInDim S64 ![] bcast_S_S64 (constant (F := F) S_ .f32 0x7FC00000#32))

/-- A per-channel vector repeated down the 100000 rows. -/
def rows (v : FVec F S64 .f32) : FVec F S100000x64 .f32 :=
  broadcastInDim S100000x64 ![0, 1] bcast_S1x64_S100000x64_0_1 (broadcastInDim S1x64 ![1] bcast_S64_S1x64_1 v)

/-- The normalisation from given statistics: centred, scaled by the reciprocal root of the variance
    plus the small constant, scaled and shifted per channel, and cut below at zero. -/
def normF (out : FVec F S100000x64 .f32) (mean var a2 a3 : FVec F S64 .f32) : FVec F S100000x64 .f32 :=
  maximumf
    (addf
      (mulf
        (mulf (subf out (rows mean))
          (rows (Host.rsqrt (addf var (broadcastInDim S64 ![] bcast_S_S64 (constant (F := F) S_ .f32 0x3727C5AC#32))))))
        (rows a2))
      (rows a3))
    (broadcastInDim S100000x64 ![] bcast_S_S100000x64 (constant (F := F) S_ .f32 0x00000000#32))

/-- Everything after the scattered sum. -/
def refTail (out : FVec F S100000x64 .f32) (a2 a3 : FVec F S64 .f32) : FVec F S100000x64 .f32 :=
  normF out (meanF out) (varF out) a2 a3

/-- The reference's result as one function of its six argument arrays. -/
def result (a0 : FVec F S100000x64 .f32) (a1 : FVec F S27x64x64 .f32) (a2 a3 : FVec F S64 .f32)
    (a4 a5 : IVec S27x100000 32) : FVec F S100000x64 .f32 :=
  refTail (refOut a0 a1 a4 a5) a2 a3

end Cert.ReferenceIdeal.RefValue

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.RefRunA.lean ====
/-
  The first stretch read back: after the operations up to the scatter-add, the scattered sum's buffer
  holds the composed term `refOut` of the four arrays it depends on, and no argument array has changed.
  The outlined select's operations carry their values to and from their buffers' types; the carriers
  of consecutive operations cancel.
-/
import proofs.«182249_j77902116815210_2_alg».proof.Proof.RefOps
import proofs.«182249_j77902116815210_2_alg».proof.Proof.RefDefs
import proofs.«182249_j77902116815210_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The scattered sum after the first stretch, as a function of the launch contents. -/
theorem readA (V : Valuation τ sig (Elt F)) :
    after opsA V (main_v16 : DevRef τ sig)
      = refOut (V (main_arg0 : DevRef τ sig)) (V (main_arg1 : DevRef τ sig)) (V (main_arg4 : DevRef τ sig)) (V (main_arg5 : DevRef τ sig)) := by
  after_results_simp
  simp only [Cert.LibTypedRef.ofBuf_toBuf]
  rfl

theorem keepA_main_arg0 (V : Valuation τ sig (Elt F)) :
    after opsA V (main_arg0 : DevRef τ sig) = V (main_arg0 : DevRef τ sig) := by
  after_results_simp

theorem keepA_main_arg1 (V : Valuation τ sig (Elt F)) :
    after opsA V (main_arg1 : DevRef τ sig) = V (main_arg1 : DevRef τ sig) := by
  after_results_simp

theorem keepA_main_arg2 (V : Valuation τ sig (Elt F)) :
    after opsA V (main_arg2 : DevRef τ sig) = V (main_arg2 : DevRef τ sig) := by
  after_results_simp

theorem keepA_main_arg3 (V : Valuation τ sig (Elt F)) :
    after opsA V (main_arg3 : DevRef τ sig) = V (main_arg3 : DevRef τ sig) := by
  after_results_simp

theorem keepA_main_arg4 (V : Valuation τ sig (Elt F)) :
    after opsA V (main_arg4 : DevRef τ sig) = V (main_arg4 : DevRef τ sig) := by
  after_results_simp

theorem keepA_main_arg5 (V : Valuation τ sig (Elt F)) :
    after opsA V (main_arg5 : DevRef τ sig) = V (main_arg5 : DevRef τ sig) := by
  after_results_simp

end Cert.ReferenceIdeal.RefValue

end
-- ==== Proof.RefRunB.lean ====
/-
  The second stretch read back: after the operations of the mean and of the outlined variance, the
  mean's buffer holds `meanF` and the variance's `varF` of the scattered sum, and the scattered sum
  and the argument arrays have not changed.  As in the first stretch the carriers between the
  outlined function's consecutive operations cancel.
-/
import proofs.«182249_j77902116815210_2_alg».proof.Proof.RefOps
import proofs.«182249_j77902116815210_2_alg».proof.Proof.RefDefs
import proofs.«182249_j77902116815210_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The mean after the second stretch. -/
theorem readB_mean (V : Valuation τ sig (Elt F)) :
    after opsB V (main_v19 : DevRef τ sig) = meanF (V (main_v16 : DevRef τ sig)) := by
  after_results_simp
  rfl

/-- The variance after the second stretch. -/
theorem readB_var (V : Valuation τ sig (Elt F)) :
    after opsB V (main_v20 : DevRef τ sig) = varF (V (main_v16 : DevRef τ sig)) := by
  after_results_simp
  simp only [Cert.LibTypedRef.ofBuf_toBuf]
  rfl

theorem keepB_main_v16 (V : Valuation τ sig (Elt F)) :
    after opsB V (main_v16 : DevRef τ sig) = V (main_v16 : DevRef τ sig) := by
  after_results_simp

theorem keepB_main_arg0 (V : Valuation τ sig (Elt F)) :
    after opsB V (main_arg0 : DevRef τ sig) = V (main_arg0 : DevRef τ sig) := by
  after_results_simp

theorem keepB_main_arg1 (V : Valuation τ sig (Elt F)) :
    after opsB V (main_arg1 : DevRef τ sig) = V (main_arg1 : DevRef τ sig) := by
  after_results_simp

theorem keepB_main_arg2 (V : Valuation τ sig (Elt F)) :
    after opsB V (main_arg2 : DevRef τ sig) = V (main_arg2 : DevRef τ sig) := by
  after_results_simp

theorem keepB_main_arg3 (V : Valuation τ sig (Elt F)) :
    after opsB V (main_arg3 : DevRef τ sig) = V (main_arg3 : DevRef τ sig) := by
  after_results_simp

theorem keepB_main_arg4 (V : Valuation τ sig (Elt F)) :
    after opsB V (main_arg4 : DevRef τ sig) = V (main_arg4 : DevRef τ sig) := by
  after_results_simp

theorem keepB_main_arg5 (V : Valuation τ sig (Elt F)) :
    after opsB V (main_arg5 : DevRef τ sig) = V (main_arg5 : DevRef τ sig) := by
  after_results_simp

end Cert.ReferenceIdeal.RefValue

end
-- ==== Proof.RefRunC.lean ====
/-
  The third stretch read back: after the normalisation's operations the result buffer holds
  `normF` of the scattered sum, the two statistics and the two per-channel parameter arrays, and the
  argument arrays have not changed.
-/
import proofs.«182249_j77902116815210_2_alg».proof.Proof.RefOps
import proofs.«182249_j77902116815210_2_alg».proof.Proof.RefDefs
import proofs.«182249_j77902116815210_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The result after the third stretch. -/
theorem readC (V : Valuation τ sig (Elt F)) :
    after opsC V (main_v36 : DevRef τ sig)
      = normF (V (main_v16 : DevRef τ sig)) (V (main_v19 : DevRef τ sig)) (V (main_v20 : DevRef τ sig))
          (V (main_arg2 : DevRef τ sig)) (V (main_arg3 : DevRef τ sig)) := by
  after_results_simp
  simp only [Cert.LibTypedRef.ofBuf_toBuf]
  rfl

theorem keepC_main_arg0 (V : Valuation τ sig (Elt F)) :
    after opsC V (main_arg0 : DevRef τ sig) = V (main_arg0 : DevRef τ sig) := by
  after_results_simp

theorem keepC_main_arg1 (V : Valuation τ sig (Elt F)) :
    after opsC V (main_arg1 : DevRef τ sig) = V (main_arg1 : DevRef τ sig) := by
  after_results_simp

theorem keepC_main_arg2 (V : Valuation τ sig (Elt F)) :
    after opsC V (main_arg2 : DevRef τ sig) = V (main_arg2 : DevRef τ sig) := by
  after_results_simp

theorem keepC_main_arg3 (V : Valuation τ sig (Elt F)) :
    after opsC V (main_arg3 : DevRef τ sig) = V (main_arg3 : DevRef τ sig) := by
  after_results_simp

theorem keepC_main_arg4 (V : Valuation τ sig (Elt F)) :
    after opsC V (main_arg4 : DevRef τ sig) = V (main_arg4 : DevRef τ sig) := by
  after_results_simp

theorem keepC_main_arg5 (V : Valuation τ sig (Elt F)) :
    after opsC V (main_arg5 : DevRef τ sig) = V (main_arg5 : DevRef τ sig) := by
  after_results_simp

end Cert.ReferenceIdeal.RefValue

end
-- ==== Proof.RefRun.lean ====
/-
  The reference's run: every weakly fair execution of @main terminates with the result buffer at
  `result` of the six argument arrays' launch contents and the argument arrays unchanged.  The fold
  over the whole list is the three stretches' folds in order; each stretch's read-back is substituted
  into the next.
-/
import proofs.«182249_j77902116815210_2_alg».proof.Proof.RefRunA
import proofs.«182249_j77902116815210_2_alg».proof.Proof.RefRunB
import proofs.«182249_j77902116815210_2_alg».proof.Proof.RefRunC

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The result buffer after the whole list, as a function of the launch contents. -/
theorem read_result (V : Valuation τ sig (Elt F)) :
    after ops V (main_v36 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [after_ops, readC, readB_mean, readB_var, keepB_main_v16, keepB_main_arg2, keepB_main_arg3, readA,
    keepA_main_arg2, keepA_main_arg3]
  rfl

theorem keep_main_arg0 (V : Valuation τ sig (Elt F)) :
    after ops V (main_arg0 : DevRef τ sig) = V (main_arg0 : DevRef τ sig) := by
  rw [after_ops, keepC_main_arg0, keepB_main_arg0, keepA_main_arg0]

theorem keep_main_arg1 (V : Valuation τ sig (Elt F)) :
    after ops V (main_arg1 : DevRef τ sig) = V (main_arg1 : DevRef τ sig) := by
  rw [after_ops, keepC_main_arg1, keepB_main_arg1, keepA_main_arg1]

theorem keep_main_arg2 (V : Valuation τ sig (Elt F)) :
    after ops V (main_arg2 : DevRef τ sig) = V (main_arg2 : DevRef τ sig) := by
  rw [after_ops, keepC_main_arg2, keepB_main_arg2, keepA_main_arg2]

theorem keep_main_arg3 (V : Valuation τ sig (Elt F)) :
    after ops V (main_arg3 : DevRef τ sig) = V (main_arg3 : DevRef τ sig) := by
  rw [after_ops, keepC_main_arg3, keepB_main_arg3, keepA_main_arg3]

theorem keep_main_arg4 (V : Valuation τ sig (Elt F)) :
    after ops V (main_arg4 : DevRef τ sig) = V (main_arg4 : DevRef τ sig) := by
  rw [after_ops, keepC_main_arg4, keepB_main_arg4, keepA_main_arg4]

theorem keep_main_arg5 (V : Valuation τ sig (Elt F)) :
    after ops V (main_arg5 : DevRef τ sig) = V (main_arg5 : DevRef τ sig) := by
  rw [after_ops, keepC_main_arg5, keepB_main_arg5, keepA_main_arg5]

/-- From any memory with zero counters, on every device: every weakly fair execution of @main
    terminates, the result buffer ends at `result` of the arguments' launch contents, and the
    argument arrays end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v36).trans (read_result _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _)⟩)
    (run_main m ρ)

end Cert.ReferenceIdeal.RefValue

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KIVal0.lean ====
/- Region 0 of the kernel program, read as a value on the extended reals.

   The array the region writes is, index by index, the batched matrix product of the two arrays it reads: entry
   (k, r, q) of the contributions is the sum over the 64 input channels c of the gathered feature (k, r, c) times the
   weight (k, c, q).  The proof goes from one grid point to the whole array: at the point (k, m) the body's store is
   the product of rows 10000 m .. 10000 m + 9999 of offset k with the weight matrix of offset k, which is the block
   (k, m, 0) of that one function; the 270 blocks tile the array, so after the last point the array is the function. -/
import proofs.«182249_j77902116815210_2_alg».proof.Proof.KIReg0
import proofs.«182249_j77902116815210_2_alg».proof.Proof.LibMatmulPlain
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The function -/

/-- The batched product: for each of the 27 offsets, the 100000 x 64 matrix of gathered features times the 64 x 64
    weight matrix of that offset. -/
def G0 (g : S27x100000x64.Idx → EReal) (w : S27x64x64.Idx → EReal) : S27x100000x64.Idx → EReal :=
  fun i => ∑ c : Fin 64, g (ix3 (i 0 : Fin 27) (i 1 : Fin 100000) c) * w (ix3 (i 0 : Fin 27) c (i 2 : Fin 64))

/-- The same at an index given by its coordinates. -/
theorem G0_ix3 (g : S27x100000x64.Idx → EReal) (w : S27x64x64.Idx → EReal) (k : Fin 27) (r : Fin 100000) (q : Fin 64) :
    G0 g w (ix3 k r q) = ∑ c : Fin 64, g (ix3 k r c) * w (ix3 k c q) := rfl

/-! ## One grid point -/

/-- What the body stores, at an entry: the row of the features' block times the column of the weights' block.  The
    leading unit axis of either block is dropped before the product and put back after it. -/
theorem pay1_ix3 (x0 : FVec Ideal S1x10000x64 .bf16) (x1 : FVec Ideal S1x64x64 .bf16) (u : Fin 1) (r : Fin 10000) (q : Fin 64) :
    k0_pay1 (F := Ideal) x0 x1 (ix3 u r q) = ∑ c : Fin 64, x0 (ix3 (0 : Fin 1) r c) * x1 (ix3 (0 : Fin 1) c q) := by
  unfold k0_pay1
  refine (shapeCast_ab_1ab_apply _ _ u r q).trans ?_
  refine (Cert.LibMatmulPlain.matmul_zero_apply dot_S10000x64_S64x64_S10000x64_1_0_0_1_n_n rfl rfl rfl rfl rfl rfl _ _ r q).trans ?_
  refine Finset.sum_congr rfl fun c _ => ?_
  rw [shapeCast_1ab_ab_apply, shapeCast_1ab_ab_apply]

/-- The same at any index of the block. -/
theorem pay1_apply (x0 : FVec Ideal S1x10000x64 .bf16) (x1 : FVec Ideal S1x64x64 .bf16) (j : S1x10000x64.Idx) :
    k0_pay1 (F := Ideal) x0 x1 j = ∑ c : Fin 64, x0 (ix3 (0 : Fin 1) (j 1 : Fin 10000) c) * x1 (ix3 (0 : Fin 1) c (j 2 : Fin 64)) := by
  obtain ⟨u, r, q, rfl⟩ : ∃ (u : Fin 1) (r : Fin 10000) (q : Fin 64), j = ix3 u r q := ⟨j 0, j 1, j 2, eq_ix3 j⟩
  exact pay1_ix3 x0 x1 u r q

/-! ## From the blocks to the array -/

theorem hz3 : (![0, 0, 0] : Fin 3 → Nat) = fun _ => 0 := funext fun a => by fin_cases a <;> rfl

/-- The three index maps at the point `t`, which is the pair (t / 10, t % 10): the features' block and the output's block
    are (t / 10, t % 10, 0), the weights' block is (t / 10, 0, 0). -/
theorem idx_facts0 : ∀ t : Fin cfg0.N,
    win0_2.index t (0 : Fin 3) = t.val / 10 ∧ win0_2.index t (1 : Fin 3) = t.val % 10 ∧ win0_2.index t (2 : Fin 3) = 0
    ∧ win0_0.index t (0 : Fin 3) = t.val / 10 ∧ win0_0.index t (1 : Fin 3) = t.val % 10 ∧ win0_0.index t (2 : Fin 3) = 0
    ∧ win0_1.index t (0 : Fin 3) = t.val / 10 ∧ win0_1.index t (1 : Fin 3) = 0 ∧ win0_1.index t (2 : Fin 3) = 0 :=
  (by decide +kernel : ∀ t : Fin grid0.N, _)

/-- The features' block at the point `t`, at the entry (0, r, c): the array at (t / 10, 10000 (t % 10) + r, c). -/
theorem iblk0_0_apply (V : (c : Dev nD) → (b : Ref sig .tc) → Buf (Elt Ideal) ((c : Thread nD τ).loc b)) (c : Dev nD) (t : Fin cfg0.N)
    (r : Fin 10000) (cc : Fin 64) (i : S27x100000x64.Idx)
    (h0 : (i 0).val = t.val / 10) (h1 : (i 1).val = t.val % 10 * 10000 + r.val) (h2 : (i 2).val = cc.val) :
    (iblk0 V c 0 t : FVec Ideal S1x10000x64 .bf16) (ix3 (0 : Fin 1) r cc) = (V c main_v12 : S27x100000x64.Idx → EReal) i := by
  obtain ⟨-, -, -, e0, e1, e2, -, -, -⟩ := idx_facts0 t
  unfold iblk0
  rw [View.read_apply]
  show V c main_v12 _ = V c main_v12 _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 10000 + 1 * r.val = (i 1).val; rw [e1, h1]; omega
  | ⟨2, _⟩ => show win0_0.index t (2 : Fin 3) * 64 + 1 * cc.val = (i 2).val; rw [e2, h2]; omega

/-- The weights' block at the point `t`, at the entry (0, cc, q): the array at (t / 10, cc, q). -/
theorem iblk0_1_apply (V : (c : Dev nD) → (b : Ref sig .tc) → Buf (Elt Ideal) ((c : Thread nD τ).loc b)) (c : Dev nD) (t : Fin cfg0.N)
    (cc : Fin 64) (q : Fin 64) (i : S27x64x64.Idx)
    (h0 : (i 0).val = t.val / 10) (h1 : (i 1).val = cc.val) (h2 : (i 2).val = q.val) :
    (iblk0 V c 1 t : FVec Ideal S1x64x64 .bf16) (ix3 (0 : Fin 1) cc q) = (V c main_v1 : S27x64x64.Idx → EReal) i := by
  obtain ⟨-, -, -, -, -, -, e0, e1, e2⟩ := idx_facts0 t
  unfold iblk0
  rw [View.read_apply]
  show V c main_v1 _ = V c main_v1 _
  congr 1
  funext a
  apply Fin.ext
  match a with
  | ⟨0, _⟩ => show win0_1.index t (0 : Fin 3) * 1 + 1 * 0 = (i 0).val; rw [e0, h0]; omega
  | ⟨1, _⟩ => show win0_1.index t (1 : Fin 3) * 64 + 1 * cc.val = (i 1).val; rw [e1, h1]; omega
  | ⟨2, _⟩ => show win0_1.index t (2 : Fin 3) * 64 + 1 * q.val = (i 2).val; rw [e2, h2]; omega

/-- What the point `t` writes back is the block of `G0` it is responsible for. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (G0 (V c main_v12) (V c main_v1)) := by
  show (cfg0.win 2).cut (grid0.coords t) ((dat0 V c).after 2 t) = _
  rw [after0_2]
  unfold out0_2
  rw [View.canon_unit_zero hz3]
  simp only [View.ld_unit_zero (S := S1x10000x64) hz3, View.ld_unit_zero (S := S1x64x64) hz3]
  obtain ⟨e0, e1, e2, -, -, -, -, -, -⟩ := idx_facts0 t
  funext j
  show k0_pay1 (F := Ideal) (iblk0 V c 0 t) (iblk0 V c 1 t) j = G0 (V c main_v12) (V c main_v1) (((cfg0.win 2).blk t).view.emb j)
  refine (pay1_apply _ _ j).trans ?_
  have hj0 : (j 0).val < 1 := (j 0).isLt
  have hj1 : (j 1).val < 10000 := (j 1).isLt
  have hj2 : (j 2).val < 64 := (j 2).isLt
  have k0 : ((((cfg0.win 2).blk t).view.emb j) 0).val = t.val / 10 := by
    show win0_2.index t (0 : Fin 3) * 1 + 1 * (j 0).val = _; rw [e0]; omega
  have k1 : ((((cfg0.win 2).blk t).view.emb j) 1).val = t.val % 10 * 10000 + (j 1).val := by
    show win0_2.index t (1 : Fin 3) * 10000 + 1 * (j 1).val = _; rw [e1]; omega
  have k2 : ((((cfg0.win 2).blk t).view.emb j) 2).val = (j 2).val := by
    show win0_2.index t (2 : Fin 3) * 64 + 1 * (j 2).val = _; rw [e2]; omega
  unfold G0
  refine Finset.sum_congr rfl fun cc _ => ?_
  rw [iblk0_0_apply V c t (j 1) cc (ix3 ((((cfg0.win 2).blk t).view.emb j) 0 : Fin 27) ((((cfg0.win 2).blk t).view.emb j) 1 : Fin 100000) cc) k0 k1 rfl,
    iblk0_1_apply V c t cc (j 2) (ix3 ((((cfg0.win 2).blk t).view.emb j) 0 : Fin 27) cc ((((cfg0.win 2).blk t).view.emb j) 2 : Fin 64)) k0 rfl k2]

/-- An index of the array lies in the block of the point `t` when each coordinate lies in the block's range. -/
theorem mem_blk0 (t : Fin cfg0.N) (i : S27x100000x64.Idx) :
    i ∈ ((cfg0.win 2).blk t).view.set ↔ ∀ a : Fin 3, win0_2.index t a * S1x10000x64.size a ≤ (i a).val ∧ (i a).val < win0_2.index t a * S1x10000x64.size a + S1x10000x64.size a := by
  show i ∈ ((View.whole main_v13).slice (win0_2.rect t)).set ↔ _
  rw [View.set_slice_whole, Rect.mem_set_unit]
  exact Iff.rfl

/-- The blocks tile the array: the entry (k, r, q) lies in the block of the point 10 k + r / 10000. -/
theorem cover0 (i : S27x100000x64.Idx) : ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  have hN : cfg0.N = 270 := N_0
  let t : Fin cfg0.N := ⟨(i 0).val * 10 + (i 1).val / 10000, by rw [hN]; omega⟩
  have ht : t.val = (i 0).val * 10 + (i 1).val / 10000 := rfl
  obtain ⟨e0, e1, e2, -, -, -, -, -, -⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 10000 ≤ (i 1).val ∧ (i 1).val < win0_2.index t (1 : Fin 3) * 10000 + 10000; rw [e1, ht]; omega
  | ⟨2, _⟩ => show win0_2.index t (2 : Fin 3) * 64 ≤ (i 2).val ∧ (i 2).val < win0_2.index t (2 : Fin 3) * 64 + 64; rw [e2]; omega

/-- The array the region writes, after its last point: the batched product of the two arrays it reads. -/
theorem final0 (V : (c : Dev nD) → (b : Ref sig .tc) → Buf (Elt Ideal) ((c : Thread nD τ).loc b)) (c : Dev nD) :
    (dat0 (F := Ideal) V c).arrAt 2 cfg0.N = G0 (V c main_v12) (V c main_v1) :=
  (dat0 (F := Ideal) V c).arrAt_eq_of_cover 2 (G0 (V c main_v12) (V c main_v1)) (fun t _ => flushed0_eq V c t) cover0

end Cert.KernelIdeal.HandValue

end
-- ==== Proof.Spec.lean ====
/-
  The mathematics of the sparse-convolution + batch-norm + relu computation, stated over the
  extended reals, index by index, with no program in sight.

  * `contrib`   : the per-offset matrix product, gathered rows times that offset's weights.
  * `colSum`    : the sum of a column over all 100000 rows.
  * `mean`      : the column sum divided by the literal 100000.0.
  * `varK`      : the one-pass variance, E[x²] - (E[x])², clamped below at 0.
  * `varR`      : the two-pass variance, E[(x - E[x])²].
  * `norm`      : the normalisation, scale, shift and rectification of one entry.
-/
import Idealize.ShloMosaic.PureOps.Ideal

noncomputable section

namespace Cert.Spec

open Idealize.ShloMosaic
open scoped BigOperators

/-- One offset's contribution: row `r` of the gathered features of offset `k` against column `d`
    of that offset's weight matrix. -/
def contrib (g : Fin 27 → Fin 100000 → Fin 64 → EReal) (w : Fin 27 → Fin 64 → Fin 64 → EReal)
    (k : Fin 27) (r : Fin 100000) (d : Fin 64) : EReal :=
  ∑ c : Fin 64, g k r c * w k c d

/-- The float literal `100000.0`, the number of rows. -/
def nF : EReal := Ideal.ofBits .f32 0x47C35000#32

/-- The float literal added to the variance before the reciprocal square root. -/
def eps : EReal := Ideal.ofBits .f32 0x3727C5AC#32

/-- The sum of column `d` over all rows. -/
def colSum (x : Fin 100000 → Fin 64 → EReal) (d : Fin 64) : EReal := ∑ r : Fin 100000, x r d

/-- The mean of column `d`. -/
def mean (x : Fin 100000 → Fin 64 → EReal) (d : Fin 64) : EReal := Ideal.div (colSum x d) nF

/-- The one-pass variance of column `d`: the mean of the squares less the square of the mean,
    clamped below at zero. -/
def varK (x : Fin 100000 → Fin 64 → EReal) (d : Fin 64) : EReal :=
  max (Ideal.div (colSum (fun r d => x r d * x r d) d) nF - mean x d * mean x d) 0

/-- The two-pass variance of column `d`: the mean of the squared deviations from the mean. -/
def varR (x : Fin 100000 → Fin 64 → EReal) (d : Fin 64) : EReal :=
  Ideal.div (colSum (fun r d => (x r d - mean x d) * (x r d - mean x d)) d) nF

/-- One entry normalised by the column's mean and a given variance `v`, scaled by `γ`, shifted
    by `β` and rectified. -/
def norm (x : Fin 100000 → Fin 64 → EReal) (v γ β : Fin 64 → EReal) (r : Fin 100000) (d : Fin 64) :
    EReal :=
  max ((x r d - mean x d) * Ideal.rsqrt (v d + eps) * γ d + β d) 0

end Cert.Spec

end
-- ==== Proof.KIVal2.lean ====
/- Region 2 of the idealized kernel program (normalise and ReLU) read at the extended reals: the
   result array the region leaves is ONE function `G2` of the five arrays it stages —

     `G2 x mean var γ β (r, d) = max ((x (r, d) − mean (0, d)) · rsqrt (var (0, d) + ε) · γ (0, d) + β (0, d), 0)`

   — whatever those arrays hold. The body's payload is entrywise but for four broadcasts of a
   `1×64` row down the block's rows; block `t` of the result is computed from block `t` of `x` (rows
   `10000·t …`) and the whole per-column rows, so it is block `t` of `G2`; the ten blocks tile the
   `100000×64` result. -/
import proofs.«182249_j77902116815210_2_alg».proof.Proof.KIReg2
import proofs.«182249_j77902116815210_2_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-- The region's result as one function of the arrays it reads: entry `(r, d)` is `x (r, d)` centred by the
    column's `mean`, scaled by the reciprocal square root of the column's `var` plus `ε` and by `gam`, shifted
    by `bet`, and rectified. -/
def G2 (x : S100000x64.Idx → EReal) (mean var gam bet : S1x64.Idx → EReal) : S100000x64.Idx → EReal := fun i =>
  max ((x i - mean (ix2 0 (i 1))) * Ideal.rsqrt (var (ix2 0 (i 1)) + Cert.Spec.eps) * gam (ix2 0 (i 1)) + bet (ix2 0 (i 1))) 0

/-! ## The body's arithmetic at one entry -/

/-- A `1×64` row broadcast down ten thousand rows, read at `(p, q)`, is the row's entry `q`. -/
theorem bcast_row (x : FVec Ideal S1x64 .f32) (p : Fin 10000) (q : Fin 64) :
    broadcastTo S10000x64 x broadcasts_S1x64_S10000x64 (ix2 p q) = x (ix2 0 q) :=
  broadcastTo_apply x _ (ix2 p q) (ix2 0 q) (fun a => by match a with | ⟨0, _⟩ => rfl | ⟨1, _⟩ => rfl)

/-- The body's one payload at entry `(p, q)` of the block: the block's entry less the mean of column `q`, times
    the reciprocal square root of that column's variance plus `ε`, times its scale, plus its shift,
    and the larger of that and zero. (The shape casts are to the same shape; every other operation
    is entrywise; the zero the maximum is taken against is the float `+0.0`.) -/
theorem pay2_apply (x0 : Vec Ideal S10000x64 .f32) (x1 x2 x3 x4 : Vec Ideal S1x64 .f32) (p : Fin 10000) (q : Fin 64) :
    k2_pay1 x0 x1 x2 x3 x4 (ix2 p q)
      = max ((x0 (ix2 p q) - x1 (ix2 0 q)) * Ideal.rsqrt (x2 (ix2 0 q) + Cert.Spec.eps) * x3 (ix2 0 q) + x4 (ix2 0 q)) 0 := by
  unfold k2_pay1
  simp only [shapeCast_self]
  simp only [maximumf_apply, addf_apply, mulf_apply, subf_apply, bcast_row, broadcast_apply, Ideal.ofBits_def, Ideal.ofBits_zero_f32]
  rfl

/-- So the payload of five blocks that are, entry by entry, entries of whole arrays `X` (at `i`) and `M`, `Vr`,
    `Gm`, `B` (at column `i 1`) is `G2` of those arrays at `i`. -/
theorem pay2_eq_G2 (x0 : Vec Ideal S10000x64 .f32) (x1 x2 x3 x4 : Vec Ideal S1x64 .f32)
    (X : S100000x64.Idx → EReal) (M Vr Gm B : S1x64.Idx → EReal) (p : Fin 10000) (q : Fin 64) (i : S100000x64.Idx)
    (h0 : x0 (ix2 p q) = X i) (h1 : x1 (ix2 0 q) = M (ix2 0 (i 1))) (h2 : x2 (ix2 0 q) = Vr (ix2 0 (i 1)))
    (h3 : x3 (ix2 0 q) = Gm (ix2 0 (i 1))) (h4 : x4 (ix2 0 q) = B (ix2 0 (i 1))) :
    k2_pay1 x0 x1 x2 x3 x4 (ix2 p q) = G2 X M Vr Gm B i := by
  rw [pay2_apply, h0, h1, h2, h3, h4]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: `out`'s window and the result's both sit at block row
    `t`, column block 0; the four per-column rows always at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `G2` of the five arrays as the region finds them: entry
    `(p, q)` of the block is row `10000·t + p` of `out` and column `q` of each per-column row, which is
    exactly where the result's block puts it. -/
theorem flushed_eq (c : Dev nD) (t : Fin cfg2.N) :
    (dat2 V c).flushed 5 t = ((cfg2.win 5).blk t).view.read (Elt Ideal)
      (G2 (V c main_v18) (V c main_v21) (V c main_v27) (V c main_v28) (V c main_v29)) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz]
  obtain ⟨e00, e01, e10, e11, e20, e21, e30, e31, e40, e41, e50, e51⟩ := idx_facts t
  funext j
  have hj : (j : S10000x64.Idx) = ix2 (j 0) (j 1) := eq_ix2 j
  refine (congrArg (k2_pay1 (iblk2 V c 0 t) (iblk2 V c 1 t) (iblk2 V c 2 t) (iblk2 V c 3 t) (iblk2 V c 4 t)) hj).trans ?_
  refine pay2_eq_G2 (iblk2 V c 0 t) (iblk2 V c 1 t) (iblk2 V c 2 t) (iblk2 V c 3 t) (iblk2 V c 4 t)
    (V c main_v18) (V c main_v21) (V c main_v27) (V c main_v28) (V c main_v29) (j 0) (j 1)
    (((cfg2.win 5).blk t).view.emb j) ?_ ?_ ?_ ?_ ?_
  · show V c main_v18 (((cfg2.win 0).blk t).view.emb (ix2 (j 0) (j 1))) = V c main_v18 (((cfg2.win 5).blk t).view.emb j)
    refine congrArg (V c main_v18) (funext fun a => Fin.ext ?_)
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * (j 1).val = win2_5.index t (1 : Fin 2) * 64 + 1 * (j 1).val; omega
  · show V c main_v21 (((cfg2.win 1).blk t).view.emb (ix2 0 (j 1))) = V c main_v21 (ix2 0 ((((cfg2.win 5).blk t).view.emb j) 1))
    refine congrArg (V c main_v21) (funext fun a => Fin.ext ?_)
    match a with
    | ⟨0, _⟩ => show win2_1.index t (0 : Fin 2) * 1 + 1 * 0 = 0; omega
    | ⟨1, _⟩ => show win2_1.index t (1 : Fin 2) * 64 + 1 * (j 1).val = win2_5.index t (1 : Fin 2) * 64 + 1 * (j 1).val; omega
  · show V c main_v27 (((cfg2.win 2).blk t).view.emb (ix2 0 (j 1))) = V c main_v27 (ix2 0 ((((cfg2.win 5).blk t).view.emb j) 1))
    refine congrArg (V c main_v27) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_5.index t (1 : Fin 2) * 64 + 1 * (j 1).val; omega
  · show V c main_v28 (((cfg2.win 3).blk t).view.emb (ix2 0 (j 1))) = V c main_v28 (ix2 0 ((((cfg2.win 5).blk t).view.emb j) 1))
    refine congrArg (V c main_v28) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega
  · show V c main_v29 (((cfg2.win 4).blk t).view.emb (ix2 0 (j 1))) = V c main_v29 (ix2 0 ((((cfg2.win 5).blk t).view.emb j) 1))
    refine congrArg (V c main_v29) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- An index of the result array is in point `t`'s block iff each coordinate is in the block's range. -/
theorem mem_blk (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v30).slice (win2_5.rect t)).set ↔ _
  rw [View.set_slice_whole, Rect.mem_set_unit]
  exact Iff.rfl

/-- The ten blocks cover the result array: row `r` is in the block of point `r / 10000`. -/
theorem covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨-, -, -, -, -, -, -, -, -, -, e50, e51⟩ := idx_facts ⟨(i 0).val / 10000, ht⟩
  refine ⟨⟨(i 0).val / 10000, ht⟩, flush2_5 _, ?_⟩
  rw [mem_blk]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e51]; omega

/-- THE RESULT ARRAY when the region ends: `G2` of `out`, `mean`, `var`, `gamma`, `beta` as the region found
    them — every point writes back its block of `G2`, and the blocks cover the array. -/
theorem final2 (c : Dev nD) :
    (dat2 (F := Ideal) V c).arrAt 5 cfg2.N = G2 (V c main_v18) (V c main_v21) (V c main_v27) (V c main_v28) (V c main_v29) :=
  (dat2 V c).arrAt_eq_of_cover 5 (G2 (V c main_v18) (V c main_v21) (V c main_v27) (V c main_v28) (V c main_v29))
    (fun t _ => flushed_eq V c t) covered

end Cert.KernelIdeal.HandValue

end
-- ==== Proof.LibEReal.lean ====
/-
  General lemmas on finite sums and on the extended reals, with no program in sight.

  * `sum_blocks`: a sum over `T · B` indices is the sum over `T` blocks of the sums over the `B` indices of each
    block (index `t · B + r`).
  * `IsReal`: an extended real that is a real number; sums, products, differences, the rectifier `max · 0`, finite
    sums, a quotient by a nonzero real (the ideal float division) and the ideal inverse square root of a positive
    real keep it.  `coe_sum`: the coercion of a finite sum of reals is the sum of the coercions.
  * `var_real`: for finitely many reals and `N` their number, the mean of the squares minus the square of the mean
    is the mean of the squared deviations from the mean — the identity between the two ways a batch normalization
    takes a variance.
-/
import Idealize.ShloMosaic.PureOps.Ideal

noncomputable section

namespace Cert.Spec

open Idealize.ShloMosaic

/-! ## Blocks of rows -/

/-- Row `r` of block `t` among `T` blocks of `B` rows: row `t · B + r`. -/
def blockIdx {T B n : ℕ} (h : T * B = n) (t : Fin T) (r : Fin B) : Fin n :=
  ⟨t.val * B + r.val, by
    have ht := t.isLt
    have hr := r.isLt
    calc t.val * B + r.val < t.val * B + B := by omega
      _ = (t.val + 1) * B := by ring
      _ ≤ T * B := Nat.mul_le_mul_right B ht
      _ = n := h⟩

@[simp] theorem blockIdx_val {T B n : ℕ} (h : T * B = n) (t : Fin T) (r : Fin B) :
    (blockIdx h t r).val = t.val * B + r.val := rfl

/-- A sum over all rows, block by block. -/
theorem sum_blocks {M : Type*} [AddCommMonoid M] {T B n : ℕ} (h : T * B = n) (f : Fin n → M) :
    ∑ i : Fin n, f i = ∑ t : Fin T, ∑ r : Fin B, f (blockIdx h t r) := by
  subst h
  rw [← Fintype.sum_prod_type' (f := fun t r => f (blockIdx rfl t r))]
  refine (Fintype.sum_equiv finProdFinEquiv _ _ fun x => ?_).symm
  congr 1
  apply Fin.ext
  rw [finProdFinEquiv_apply_val, blockIdx_val]
  ring

/-! ## Finite extended reals -/

/-- An extended real that is a real number. -/
def IsReal (x : EReal) : Prop := ∃ a : ℝ, x = (a : EReal)

theorem IsReal.coe (a : ℝ) : IsReal (a : EReal) := ⟨a, rfl⟩
theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max_zero {x : EReal} (hx : IsReal x) : IsReal (max x 0) := by
  obtain ⟨a, rfl⟩ := hx
  refine ⟨max a 0, ?_⟩
  rcases le_total a 0 with h | h
  · rw [max_eq_right h, max_eq_right (EReal.coe_nonpos.mpr h), EReal.coe_zero]
  · rw [max_eq_left h, max_eq_left (EReal.coe_nonneg.mpr h)]

/-- The coercion of a finite sum of reals is the sum of the coercions. -/
theorem coe_sum {ι : Type*} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A quotient by a nonzero real is the product with its reciprocal. -/
theorem div_real (x : EReal) {N : ℝ} (hN : N ≠ 0) : Ideal.div x (N : EReal) = x * ((1 / N : ℝ) : EReal) :=
  Ideal.div_coe hN x

theorem IsReal.div_real {x : EReal} (hx : IsReal x) {N : ℝ} (hN : N ≠ 0) : IsReal (Ideal.div x (N : EReal)) := by
  rw [Cert.Spec.div_real x hN]; exact hx.mul (IsReal.coe _)

/-- The inverse square root of a positive real is a real. -/
theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-! ## The two variances -/

/-- Over the reals: the mean of the squares minus the square of the mean is the mean of the squared deviations. -/
theorem var_real {ι : Type*} [Fintype ι] (g : ι → ℝ) (N : ℝ) (hN : N ≠ 0) (hcard : (Fintype.card ι : ℝ) = N) :
    (∑ r, g r * g r) * (1 / N) - ((∑ r, g r) * (1 / N)) * ((∑ r, g r) * (1 / N))
      = (∑ r, (g r - (∑ r, g r) * (1 / N)) * (g r - (∑ r, g r) * (1 / N))) * (1 / N) := by
  have key : ∀ μ : ℝ, ∑ r, (g r - μ) * (g r - μ) = (∑ r, g r * g r) - 2 * μ * (∑ r, g r) + N * (μ * μ) := by
    intro μ
    have e : ∀ r, (g r - μ) * (g r - μ) = g r * g r - 2 * μ * g r + μ * μ := fun r => by ring
    simp only [e, Finset.sum_add_distrib, Finset.sum_sub_distrib, ← Finset.mul_sum, Finset.sum_const, Finset.card_univ,
      nsmul_eq_mul, hcard]
    ring
  rw [key]
  field_simp
  ring

end Cert.Spec

end
-- ==== Proof.SpecLaws.lean ====
/-
  The laws that join the two ways of taking a column's variance.

  * The float literal `100000.0` denotes the real number 100000, so dividing by it is multiplying by a real.
  * For a table of REAL entries, the mean of the squares less the square of the mean is the mean of the squared
    deviations from the mean; the latter is a sum of squares over a positive number, hence nonnegative, and clamping it
    below at zero changes nothing. So the one-pass variance `varK` and the two-pass variance `varR` agree, and so do the
    normalised results built on them.
  * The constants one side evaluates around its divisor: the signed integer `0` converted to a float is `0`, the
    divisor `100000.0 - 0` is `100000.0`, and it is strictly above zero, so a comparison "greater than zero" answers
    the bit `1` and a selection on it takes its first branch.
-/
import Idealize.ShloMosaic.PureOps.Ideal
import Idealize.ShloMosaic.PureOps.Ideal.Laws
import proofs.«182249_j77902116815210_2_alg».proof.Proof.Spec
import proofs.«182249_j77902116815210_2_alg».proof.Proof.LibEReal

noncomputable section

namespace Cert.Spec

open Idealize.ShloMosaic
open scoped BigOperators

/-! ## The literal `100000.0` -/

/-- The pattern `0x47C35000` denotes the real number `100000`. -/
theorem nF_eq : nF = ((100000 : ℝ) : EReal) := by
  unfold nF
  simp [Ideal.ofBits, Ideal.ieee, -EReal.coe_mul]; norm_num

/-- Dividing by the literal is multiplying by the real `1 / 100000`. -/
theorem div_nF (x : EReal) : Ideal.div x nF = x * (((1 / 100000 : ℝ) : ℝ) : EReal) := by
  rw [nF_eq]; exact div_real x (by norm_num)

theorem nF_pos : (0 : EReal) < nF := by
  rw [nF_eq]; exact EReal.coe_pos.mpr (by norm_num)

/-! ## Column sums of real tables -/

/-- A column sum of real entries is the real column sum. -/
theorem colSum_coe (g : Fin 100000 → Fin 64 → ℝ) (d : Fin 64) :
    colSum (fun r d => (g r d : EReal)) d = ((∑ r : Fin 100000, g r d : ℝ) : EReal) := by
  simp only [colSum]; exact (coe_sum Finset.univ _).symm

/-- With the zero initial value a host sum adds nothing to the column sum. -/
theorem zero_add_colSum (x : Fin 100000 → Fin 64 → EReal) (d : Fin 64) : (0 : EReal) + colSum x d = colSum x d :=
  zero_add _

/-- The mean of a column of real entries is real. -/
theorem mean_coe (g : Fin 100000 → Fin 64 → ℝ) (d : Fin 64) :
    mean (fun r d => (g r d : EReal)) d = (((∑ r : Fin 100000, g r d) * (1 / 100000) : ℝ) : EReal) := by
  simp only [mean]; rw [div_nF, colSum_coe, ← EReal.coe_mul]

/-! ## The two variances agree on real tables -/

theorem varK_eq_varR (x : Fin 100000 → Fin 64 → EReal) (hx : ∀ r d, ∃ a : ℝ, x r d = (a : EReal)) (d : Fin 64) :
    varK x d = varR x d := by
  choose g hg using hx
  obtain rfl : x = fun r d => (g r d : EReal) := funext fun r => funext fun d => hg r d
  have hsq : colSum (fun r d => (g r d : EReal) * (g r d : EReal)) d
      = ((∑ r : Fin 100000, g r d * g r d : ℝ) : EReal) := by
    simp only [colSum]; rw [coe_sum]
    exact Finset.sum_congr rfl fun r _ => (EReal.coe_mul _ _).symm
  have hdev : colSum (fun r d' => ((g r d' : EReal) - mean (fun r d => (g r d : EReal)) d')
        * ((g r d' : EReal) - mean (fun r d => (g r d : EReal)) d')) d
      = ((∑ r : Fin 100000, (g r d - (∑ r : Fin 100000, g r d) * (1 / 100000))
          * (g r d - (∑ r : Fin 100000, g r d) * (1 / 100000)) : ℝ) : EReal) := by
    simp only [colSum]; rw [coe_sum]
    refine Finset.sum_congr rfl fun r _ => ?_
    rw [mean_coe, ← EReal.coe_sub, ← EReal.coe_mul]
  have key := var_real (fun r : Fin 100000 => g r d) 100000 (by norm_num) (by simp)
  simp only [varK, varR]
  rw [hsq, hdev, mean_coe, div_nF, div_nF, ← EReal.coe_mul, ← EReal.coe_mul, ← EReal.coe_mul, ← EReal.coe_sub, key]
  refine max_eq_left (EReal.coe_nonneg.mpr ?_)
  exact mul_nonneg (Finset.sum_nonneg fun r _ => mul_self_nonneg _) (by norm_num)

/-- Hence the normalised results built on the two variances agree. -/
theorem norm_varK_eq_norm_varR (x : Fin 100000 → Fin 64 → EReal) (hx : ∀ r d, ∃ a : ℝ, x r d = (a : EReal))
    (γ β : Fin 64 → EReal) : norm x (varK x) γ β = norm x (varR x) γ β := by
  rw [show varK x = varR x from funext (varK_eq_varR x hx)]

/-! ## The constants around one side's divisor -/

/-- The signed 32-bit integer `0` converted to a float is `0`. -/
theorem sitofp_zero : FloatOps.sitofp (F := Ideal) .f32 (0#32 : BitVec 32) = (0 : EReal) := by
  show (((0#32 : BitVec 32).toInt : ℝ) : EReal) = 0
  simp

/-- The divisor `100000.0 - float 0` is `100000.0`. -/
theorem nF_sub_sitofp_zero :
    FloatOps.subf (F := Ideal) (φ := .f32) (FloatOps.ofBits .f32 0x47C35000#32) (FloatOps.sitofp .f32 (0#32 : BitVec 32)) = nF := by
  show Ideal.ofBits .f32 0x47C35000#32 - FloatOps.sitofp (F := Ideal) .f32 (0#32 : BitVec 32) = nF
  rw [sitofp_zero, sub_zero]; rfl

/-- The divisor is above the zero constant: the comparison answers the bit `1`. -/
theorem cmpf_ogt_divisor_zero :
    FloatOps.cmpf (F := Ideal) (φ := .f32) .ogt
      (FloatOps.subf (FloatOps.ofBits .f32 0x47C35000#32) (FloatOps.sitofp .f32 (0#32 : BitVec 32)))
      (FloatOps.ofBits .f32 0x00000000#32) = 1#1 := by
  rw [nF_sub_sitofp_zero]
  show Ideal.cmp .ogt nF (Ideal.ofBits .f32 0x00000000#32) = 1#1
  rw [Ideal.ofBits_zero_f32]
  simp only [Ideal.cmp, nF_pos, decide_true]; rfl

/-- The same comparison against `nF` directly. -/
theorem cmp_ogt_nF_zero : Ideal.cmp .ogt nF 0 = 1#1 := by
  simp only [Ideal.cmp, nF_pos, decide_true]; rfl

/-- A selection on the bit `1` takes its first branch. -/
theorem select_one {α : Type} (a b : α) : Scalar.select (1#1) a b = a := by
  simp [Scalar.select]

end Cert.Spec

end
-- ==== Proof.RefRead.lean ====
/-
  The reference's stages read at an index, over the extended reals.

  * The batched product at (k, r, d) is the sum over the 64 contracted coordinates c of the left
    operand at (k, r, c) times the right operand at (k, c, d): the offset k is a batch axis of both
    operands and is read from the result's index, the contracted coordinate from the sum's index.
  * A per-channel vector repeated down the rows reads its channel's entry; a scalar constant reads
    its value everywhere.
  * The host's column sum from the zero constant is the plain sum over the 100000 rows.
  * The variance's divisor 100000 - 0 is the literal 100000 and is positive, so the guard on it takes
    the quotient branch: the variance is the mean of the squared deviations from the mean.
  Together: everything after the scattered sum is, entry by entry, the specification's `norm` taken
  with the two-pass variance `varR`.
-/
import proofs.«182249_j77902116815210_2_alg».proof.Proof.RefDefs
import proofs.«182249_j77902116815210_2_alg».proof.Proof.Spec
import proofs.«182249_j77902116815210_2_alg».proof.Proof.SpecLaws
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Layout operations at an index -/

/-- A scalar broadcast to any shape reads the scalar's one entry. -/
theorem bcast_scalar_apply {α : Type} {t : Shape} (h : S_.BroadcastsInDim t (![] : Fin 0 → Fin t.rank))
    (x : S_.Idx → α) (j : t.Idx) : broadcastInDim t ![] h x j = x ix0 :=
  broadcastInDim_apply _ h x j ix0 (fun a => a.elim0)

/-- A per-channel vector given a unit leading axis reads its channel's entry. -/
theorem bcast_lead_apply {α : Type} (v : S64.Idx → α) (d : Fin 64) :
    broadcastInDim S1x64 ![1] bcast_S64_S1x64_1 v (ix2 (0 : Fin 1) d) = v (ix1 d) :=
  broadcastInDim_apply _ _ v _ (ix1 d) (fun a => by match a with | ⟨0, _⟩ => rfl)

/-- A one-row array repeated down the 100000 rows reads the one row. -/
theorem bcast_rows_apply {α : Type} (w : S1x64.Idx → α) (r : Fin 100000) (d : Fin 64) :
    broadcastInDim S100000x64 ![0, 1] bcast_S1x64_S100000x64_0_1 w (ix2 r d) = w (ix2 (0 : Fin 1) d) :=
  broadcastInDim_apply _ _ w _ (ix2 (0 : Fin 1) d) (fun a => by match a with | ⟨0, _⟩ => rfl | ⟨1, _⟩ => rfl)

/-- A per-channel vector repeated down the rows reads its channel's entry. -/
theorem rows_apply (v : FVec Ideal S64 .f32) (r : Fin 100000) (d : Fin 64) : rows v (ix2 r d) = v (ix1 d) := by
  unfold rows
  rw [bcast_rows_apply, bcast_lead_apply]

/-- The host's quotient at an index. -/
theorem hostDivf_apply {s : Shape} (a b : FVec Ideal s .f32) (i : s.Idx) : Host.divf a b i = Ideal.div (a i) (b i) := rfl

/-- The host's reciprocal square root at an index. -/
theorem hostRsqrt_apply {s : Shape} (a : FVec Ideal s .f32) (i : s.Idx) : Host.rsqrt a i = Ideal.rsqrt (a i) := rfl

/-! ## The column sum -/

/-- The host's sum over the rows, from the zero constant, at channel `d`: the plain sum of the column. -/
theorem colsum_apply (x : FVec Ideal S100000x64 .f32) (d : Fin 64) :
    Host.reduceAdd x (constant (F := Ideal) S_ .f32 0x00000000#32) reducesTo_S100000x64_S64_d0 h_S_ (ix1 d)
      = ∑ r : Fin 100000, x (ix2 r d) := by
  have h : S100000x64.Reduces [0] S64 := by decide
  show Ideal.hostReduceAdd reducesTo_S100000x64_S64_d0 x (Ideal.ofBits .f32 0x00000000#32) (ix1 d) = _
  rw [Ideal.hostReduceAdd_single _ h, Ideal.ofBits_zero_f32, zero_add]
  refine Finset.sum_congr rfl fun r _ => congrArg x ?_
  funext a
  apply Fin.ext
  match a with
  | ⟨0, _⟩ => rfl
  | ⟨1, _⟩ => rfl

/-! ## The statistics -/

/-- The mean at channel `d` is the specification's. -/
theorem meanF_apply (out : FVec Ideal S100000x64 .f32) (d : Fin 64) :
    meanF out (ix1 d) = Cert.Spec.mean (fun r d => out (ix2 r d)) d := by
  unfold meanF
  rw [hostDivf_apply, colsum_apply, bcast_scalar_apply]
  rfl

/-- The divisor of the variance is the literal 100000. -/
theorem varDen_apply : varDen (F := Ideal) ix0 = Cert.Spec.nF := Cert.Spec.nF_sub_sitofp_zero

/-- The mean inside the variance, kept with a unit leading axis and repeated down the rows, at (r, d). -/
theorem varMean_apply (out : FVec Ideal S100000x64 .f32) (r : Fin 100000) (d : Fin 64) :
    broadcastInDim S100000x64 ![0, 1] bcast_S1x64_S100000x64_0_1
        (Host.divf
          (broadcastInDim S1x64 ![1] bcast_S64_S1x64_1
            (Host.reduceAdd out (constant (F := Ideal) S_ .f32 0x00000000#32) reducesTo_S100000x64_S64_d0 h_S_))
          (broadcastInDim S1x64 ![] bcast_S_S1x64 (constant (F := Ideal) S_ .f32 0x47C35000#32))) (ix2 r d)
      = Cert.Spec.mean (fun r d => out (ix2 r d)) d := by
  rw [bcast_rows_apply, hostDivf_apply, bcast_lead_apply, colsum_apply, bcast_scalar_apply]
  rfl

/-- The variance at channel `d` is the specification's two-pass variance: the guard on the divisor
    takes the quotient branch. -/
theorem varF_apply (out : FVec Ideal S100000x64 .f32) (d : Fin 64) :
    varF out (ix1 d) = Cert.Spec.varR (fun r d => out (ix2 r d)) d := by
  unfold varF
  rw [select_apply, bcast_scalar_apply]
  rw [show cmpf .ogt (varDen (F := Ideal)) (constant (F := Ideal) S_ .f32 0x00000000#32) ix0 = 1#1
    from Cert.Spec.cmpf_ogt_divisor_zero, Cert.Spec.select_one]
  rw [hostDivf_apply, colsum_apply, bcast_scalar_apply, varDen_apply]
  unfold Cert.Spec.varR Cert.Spec.colSum
  refine congrArg (fun s => Ideal.div s Cert.Spec.nF) (Finset.sum_congr rfl fun r _ => ?_)
  rw [mulf_apply, subf_apply, varMean_apply]

/-! ## The normalisation -/

/-- Everything after the scattered sum, entry by entry: the specification's normalisation with the
    two-pass variance. -/
theorem refTail_apply (out : FVec Ideal S100000x64 .f32) (a2 a3 : FVec Ideal S64 .f32) (r : Fin 100000) (d : Fin 64) :
    refTail out a2 a3 (ix2 r d)
      = Cert.Spec.norm (fun r d => out (ix2 r d)) (Cert.Spec.varR (fun r d => out (ix2 r d)))
          (fun d => a2 (ix1 d)) (fun d => a3 (ix1 d)) r d := by
  unfold refTail normF
  rw [maximumf_apply, addf_apply, mulf_apply, mulf_apply, subf_apply, rows_apply, rows_apply, rows_apply, rows_apply,
    hostRsqrt_apply, addf_apply, bcast_scalar_apply, bcast_scalar_apply, meanF_apply, varF_apply]
  unfold Cert.Spec.norm
  rw [constant_apply, constant_apply, Ideal.ofBits_zero_f32]
  rfl

/-! ## The batched product -/

theorem dot_contr_rank : (dot_S27x100000x64_S27x64x64_S27x100000x64_2_1_1_2_0_0).contr.rank = 1 := rfl
theorem dot_contr_size : (dot_S27x100000x64_S27x64x64_S27x100000x64_2_1_1_2_0_0).contr.size ⟨0, by rw [dot_contr_rank]; exact Nat.one_pos⟩ = 64 := rfl

/-- The left operand's index at result index (k, r, d) and contracted coordinate c is (k, r, c). -/
theorem dot_lhsIdx (k : Fin 27) (r : Fin 100000) (d c : Fin 64) :
    (dot_S27x100000x64_S27x64x64_S27x100000x64_2_1_1_2_0_0).lhsIdx (ix3 k r d) ((contrEquiv1 dot_S27x100000x64_S27x64x64_S27x100000x64_2_1_1_2_0_0 64 dot_contr_rank dot_contr_size).symm c) = ix3 k r c := by
  funext a
  apply Fin.ext
  match a with
  | ⟨0, _⟩ => rfl
  | ⟨1, _⟩ => rfl
  | ⟨2, _⟩ =>
    exact ((dot_S27x100000x64_S27x64x64_S27x100000x64_2_1_1_2_0_0).lhsIdx_val_of_single rfl _ _).trans (contrEquiv1_symm_val _ 64 dot_contr_rank dot_contr_size c)

/-- The right operand's index at result index (k, r, d) and contracted coordinate c is (k, c, d). -/
theorem dot_rhsIdx (k : Fin 27) (r : Fin 100000) (d c : Fin 64) :
    (dot_S27x100000x64_S27x64x64_S27x100000x64_2_1_1_2_0_0).rhsIdx (ix3 k r d) ((contrEquiv1 dot_S27x100000x64_S27x64x64_S27x100000x64_2_1_1_2_0_0 64 dot_contr_rank dot_contr_size).symm c) = ix3 k c d := by
  funext a
  apply Fin.ext
  match a with
  | ⟨0, _⟩ => rfl
  | ⟨1, _⟩ =>
    exact ((dot_S27x100000x64_S27x64x64_S27x100000x64_2_1_1_2_0_0).rhsIdx_val_of_single rfl _ _).trans (contrEquiv1_symm_val _ 64 dot_contr_rank dot_contr_size c)
  | ⟨2, _⟩ => rfl

/-- The batched product at (k, r, d): the specification's per-offset contribution. -/
theorem dotg_apply (g : FVec Ideal S27x100000x64 .f32) (w : FVec Ideal S27x64x64 .f32) (k : Fin 27) (r : Fin 100000) (d : Fin 64) :
    dotg g w (ix3 k r d) = Cert.Spec.contrib (fun k r c => g (ix3 k r c)) (fun k c d => w (ix3 k c d)) k r d := by
  unfold dotg Cert.Spec.contrib
  simp only [Host.dotGeneral]
  rw [Ideal.dotGeneral_apply, ← Equiv.sum_comp (contrEquiv1 dot_S27x100000x64_S27x64x64_S27x100000x64_2_1_1_2_0_0 64 dot_contr_rank dot_contr_size).symm]
  refine Finset.sum_congr rfl fun c _ => ?_
  rw [dot_lhsIdx, dot_rhsIdx]

end Cert.ReferenceIdeal.RefValue

end
-- ==== Proof.Finite.lean ====
/-
  Finiteness passes through the host operations of a gather / matrix product / scatter-add chain.

  An extended real is called real (`IsReal`) when it is a real number. None of the operations below can make an
  infinity out of real entries:
  * a gather reads, at every result index, SOME entry of its operand (the start index is clamped into the operand), so
    its result is real whatever the indices are;
  * a broadcast and a reshape only re-index;
  * a selection returns one of its two branches, and the zero constant is real;
  * a product contracted over finitely many indices is a finite sum of products of reals;
  * an accumulating scatter is, at every index, the operand's entry plus a finite sum of update entries (those whose
    target lands there), whatever the indices are;
  * a sum over an axis, a quotient by the row count, a difference, a product.
-/
import Idealize.ShloMosaic.PureOps.Ideal
import Idealize.ShloMosaic.PureOps.Ideal.Laws
import proofs.«182249_j77902116815210_2_alg».proof.Proof.Spec
import proofs.«182249_j77902116815210_2_alg».proof.Proof.LibEReal
import proofs.«182249_j77902116815210_2_alg».proof.Proof.SpecLaws

noncomputable section

namespace Cert.Spec

open Idealize.ShloMosaic
open scoped BigOperators

/-! ## Re-indexing operations -/

/-- A gather of a real array is real, whatever the indices. -/
theorem gather_real {s si t : Shape} {w : Nat} (d : GatherDims s si t) (x : s.Idx → EReal) (idx : IVec si w)
    (hx : ∀ i, IsReal (x i)) (j : t.Idx) : IsReal (Host.gather d x idx j) :=
  hx _

/-- A broadcast along new or unit axes of a real array is real. -/
theorem broadcastInDim_real {s : Shape} (t : Shape) (dims : Fin s.rank → Fin t.rank) (h : s.BroadcastsInDim t dims)
    (x : s.Idx → EReal) (hx : ∀ i, IsReal (x i)) (j : t.Idx) : IsReal (broadcastInDim t dims h x j) :=
  hx _

theorem broadcastTo_real {s : Shape} (t : Shape) (x : s.Idx → EReal) (h : s.Broadcasts t)
    (hx : ∀ i, IsReal (x i)) (j : t.Idx) : IsReal (broadcastTo t x h j) :=
  hx _

/-- A reshape of a real array is real. -/
theorem shapeCast_real {s : Shape} (t : Shape) (x : s.Idx → EReal) (h : s.ShapeCasts t)
    (hx : ∀ i, IsReal (x i)) (j : t.Idx) : IsReal (shapeCast t x h j) :=
  hx _

/-! ## Constants and selection -/

/-- The f32 zero constant is real at every index. -/
theorem constant_zero_f32_real (s : Shape) (i : s.Idx) : IsReal (constant (F := Ideal) s .f32 0x00000000#32 i) := by
  show IsReal (Ideal.ofBits .f32 0x00000000#32)
  rw [Ideal.ofBits_zero_f32]; exact IsReal.zero

/-- The bf16 zero pattern denotes `0`. -/
theorem ofBits_zero_bf16 : Ideal.ofBits .bf16 0x0000#16 = 0 := by simp [Ideal.ofBits, Ideal.ieee]

/-- The bf16 zero constant is real at every index. -/
theorem constant_zero_bf16_real (s : Shape) (i : s.Idx) : IsReal (constant (F := Ideal) s .bf16 0x0000#16 i) := by
  show IsReal (Ideal.ofBits .bf16 0x0000#16)
  rw [ofBits_zero_bf16]; exact IsReal.zero

/-- A selection between two real arrays is real, whatever the condition. -/
theorem select_real {s : Shape} (c : IVec s 1) (a b : s.Idx → EReal) (ha : ∀ i, IsReal (a i)) (hb : ∀ i, IsReal (b i))
    (i : s.Idx) : IsReal (select c a b i) := by
  show IsReal (if c i = 1 then a i else b i)
  split
  · exact ha i
  · exact hb i

/-! ## Contractions -/

/-- One offset's contribution of real gathered features and real weights is real. -/
theorem contrib_real (g : Fin 27 → Fin 100000 → Fin 64 → EReal) (w : Fin 27 → Fin 64 → Fin 64 → EReal)
    (hg : ∀ k r c, IsReal (g k r c)) (hw : ∀ k c d, IsReal (w k c d)) (k : Fin 27) (r : Fin 100000) (d : Fin 64) :
    IsReal (contrib g w k r d) :=
  IsReal.sum _ _ fun c => (hg k r c).mul (hw k c d)

/-- A host product of real arrays is real. -/
theorem dotGeneral_real {sl sr so : Shape} {φ₁ φ₂ : FTy} (d : DotDims sl sr so) (prec : Option ContractPrecision)
    (sched : HostSchedule) (lhs : FVec Ideal sl φ₁) (rhs : FVec Ideal sr φ₂) (hl : ∀ i, IsReal (lhs i))
    (hr : ∀ i, IsReal (rhs i)) (j : so.Idx) : IsReal (FloatOps.dotGeneral d prec sched lhs rhs j) := by
  rw [Ideal.dotGeneral_apply]
  exact IsReal.sum _ _ fun k => (hl _).mul (hr _)

/-- A kernel's matrix product of real arrays onto a real accumulator is real. -/
theorem matmul_real {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) :
    IsReal (FloatOps.matmul d prec lhs rhs acc j) := by
  rw [Ideal.matmul_apply]
  exact (ha j).add (IsReal.sum _ _ fun k => (hl _).mul (hr _))

/-! ## The accumulating scatter -/

/-- An accumulating scatter of real updates into a real operand is real at every index, whatever the indices. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (IsReal.sum _ _ hu)

/-! ## Sums over an axis, the mean and the variances -/

/-- A host sum of a real array from a real initial value is real. -/
theorem reduceAdd_real {s t u : Shape} {φ : FTy} {axes : List (Fin s.rank)} (x : FVec Ideal s φ) (init : u.Idx → Ideal φ)
    (h : s.ReducesTo axes t) (hu : 0 < u.numel) (hx : ∀ i, IsReal (x i)) (hi : ∀ i, IsReal (init i)) (j : t.Idx) :
    IsReal (Host.reduceAdd x init h hu j) := by
  unfold Host.reduceAdd
  rw [Ideal.hostReduceAdd_def]
  unfold Ideal.hostReduceAdd
  exact (hi _).add (IsReal.sum _ _ hx)

theorem colSum_real (x : Fin 100000 → Fin 64 → EReal) (hx : ∀ r d, IsReal (x r d)) (d : Fin 64) : IsReal (colSum x d) :=
  IsReal.sum _ _ fun r => hx r d

theorem div_nF_real {x : EReal} (hx : IsReal x) : IsReal (Ideal.div x nF) := by
  rw [nF_eq]; exact hx.div_real (by norm_num)

theorem mean_real (x : Fin 100000 → Fin 64 → EReal) (hx : ∀ r d, IsReal (x r d)) (d : Fin 64) : IsReal (mean x d) :=
  div_nF_real (colSum_real x hx d)

theorem varR_real (x : Fin 100000 → Fin 64 → EReal) (hx : ∀ r d, IsReal (x r d)) (d : Fin 64) : IsReal (varR x d) :=
  div_nF_real (colSum_real _ (fun r d => ((hx r d).sub (mean_real x hx d)).mul ((hx r d).sub (mean_real x hx d))) d)

theorem varK_real (x : Fin 100000 → Fin 64 → EReal) (hx : ∀ r d, IsReal (x r d)) (d : Fin 64) : IsReal (varK x d) :=
  ((div_nF_real (colSum_real _ (fun r d => (hx r d).mul (hx r d)) d)).sub
    ((mean_real x hx d).mul (mean_real x hx d))).max_zero

end Cert.Spec

end
-- ==== Proof.KIHost.lean ====
/- The host operations of the kernel program, between and around its three regions, read on the extended reals.

   Each stretch of operations is applied to an arbitrary assignment `W` of contents to the buffers, and each buffer the
   stretch writes is given as a named function of the contents `W` has at the buffers the stretch reads:
   * before the first region: the features and the weights recast, the gathered rows (a negative source index wrapped
     by the row count) replaced by zero where the destination index is not below the row count;
   * between the first and the second region: the contributions laid out as one run of 2700000 rows and added into the
     zero array at the rows the destination indices name;
   * between the second and the third region: the column sums divided by the row count, the mean of the squares less
     the square of the mean cut below at zero, and the scale and the shift given a unit leading axis.
   Then the same functions in the spelling of the reference program and of the specification: on the extended reals a
   change of float format is the identity and the zero of either format is the number 0, so the masked gather is the
   reference's; the batched product agrees with the reference's contraction entry by entry, so the scattered sum is
   the reference's; and the third region's result, fed the column sums and the column sums of squares, is entry by
   entry the specification's normalisation with the one-pass variance. -/
import proofs.«182249_j77902116815210_2_alg».proof.Proof.Gen.KernelIdeal.Launch
import proofs.«182249_j77902116815210_2_alg».proof.Proof.LibTypedRef
import proofs.«182249_j77902116815210_2_alg».proof.Proof.KIVal0
import proofs.«182249_j77902116815210_2_alg».proof.Proof.KIVal2
import proofs.«182249_j77902116815210_2_alg».proof.Proof.RefRead
import proofs.«182249_j77902116815210_2_alg».proof.Proof.Finite
import Idealize.ShloMosaic.Lib.StableHlo.Run
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.StableHlo Idealize.ShloMosaic.ValueIdx

/-! ## The stretches' results as functions -/

/-- The weights recast to the narrow format. -/
def hostCastW (a1 : FVec Ideal S27x64x64 .f32) : FVec Ideal S27x64x64 .bf16 := truncf .bf16 a1 bitsLt_bf16_f32

/-- Where the destination index `a5[k, r]` is below the row count, with a unit trailing axis. -/
def hostMask (a5 : IVec S27x100000 32) : IVec S27x100000x1 1 :=
  broadcastInDim S27x100000x1 ![0, 1] bcast_S27x100000_S27x100000x1_0_1
    (cmpi .slt a5 (broadcastInDim S27x100000 ![] bcast_S_S27x100000 (constantI S_ 32 100000#32)))

/-- The rows `a0[a4[k, r]]` of the recast features, a negative index wrapped by the row count. -/
def hostGather (a0 : FVec Ideal S100000x64 .f32) (a4 : IVec S27x100000 32) : FVec Ideal S27x100000x64 .bf16 :=
  Host.gather gather_S100000x64_S27x100000x1_S27x100000x64_2_0_n_n_0_2_164 (truncf .bf16 a0 bitsLt_bf16_f32)
    (broadcastInDim S27x100000x1 ![0, 1] bcast_S27x100000_S27x100000x1_0_1
      (select (cmpi .slt a4 (broadcastInDim S27x100000 ![] bcast_S_S27x100000 (constantI S_ 32 0#32)))
        (addi a4 (broadcastInDim S27x100000 ![] bcast_S_S27x100000 (constantI S_ 32 100000#32)))
        a4))

/-- The masked gather: the gathered rows, replaced by the zero of the narrow format wherever the destination index is
    not below the row count. -/
def gselK (a0 : FVec Ideal S100000x64 .f32) (a4 a5 : IVec S27x100000 32) : FVec Ideal S27x100000x64 .bf16 :=
  select (broadcastInDim S27x100000x64 ![0, 1, 2] bcast_S27x100000x1_S27x100000x64_0_1_2 (hostMask a5))
    (hostGather a0 a4)
    (broadcastInDim S27x100000x64 ![] bcast_S_S27x100000x64 (constant (F := Ideal) S_ .bf16 0x0000#16))

/-- The scattered sum: the contributions `u`, laid out as one run of 2700000 rows, added into the zero array at the rows
    the flattened destination indices name. -/
def scatK (a5 : IVec S27x100000 32) (u : FVec Ideal S27x100000x64 .f32) : FVec Ideal S100000x64 .f32 :=
  Host.scatterAdd scatter_S100000x64_S2700000x1_S2700000x64_1_0_0_1
    (broadcastInDim S100000x64 ![] bcast_S_S100000x64 (constant (F := Ideal) S_ .f32 0x00000000#32))
    (broadcastInDim S2700000x1 ![0] bcast_S2700000_S2700000x1_0 (shapeCast S2700000 a5 shapeCasts_S27x100000_S2700000))
    (shapeCast S2700000x64 u shapeCasts_S27x100000x64_S2700000x64)

/-- A row of column sums divided by the row count. -/
def hostMean (s : FVec Ideal S1x64 .f32) : FVec Ideal S1x64 .f32 :=
  Host.divf s (broadcastInDim S1x64 ![] bcast_S_S1x64 (constant (F := Ideal) S_ .f32 0x47C35000#32))

/-- The one-pass variance from the column sums `s1` and the column sums of squares `s2`: the mean of the squares less
    the square of the mean, cut below at zero. -/
def hostVar (s1 s2 : FVec Ideal S1x64 .f32) : FVec Ideal S1x64 .f32 :=
  maximumf (subf (hostMean s2) (mulf (hostMean s1) (hostMean s1)))
    (broadcastInDim S1x64 ![] bcast_S_S1x64 (constant (F := Ideal) S_ .f32 0x00000000#32))

/-- A per-channel vector given a unit leading axis. -/
def hostRow (a : FVec Ideal S64 .f32) : FVec Ideal S1x64 .f32 := shapeCast S1x64 a shapeCasts_S64_S1x64

/-! ## The stretch before the first region -/

variable (W : Valuation τ sig (Elt Ideal))

/-- The outlined selection by itself: the mask repeated along the channels chooses between the gathered rows and the
    repeated zero. -/
theorem where_v12 (W' : Valuation τ sig (Elt Ideal)) :
    after hostOps0_1 W' (Proc.devRef .tc main_v12)
      = select (broadcastInDim S27x100000x64 ![0, 1, 2] bcast_S27x100000x1_S27x100000x64_0_1_2 (W' (Proc.devRef .tc main_v4)))
          (W' (Proc.devRef .tc main_v11))
          (broadcastInDim S27x100000x64 ![] bcast_S_S27x100000x64 (W' (Proc.devRef .tc main_cst))) := by
  dsimp only [hostOps0_1]
  after_results
  simp only [Cert.LibTypedRef.ofBuf_toBuf]
  rfl

/-- The outlined selection writes none of the buffers before it. -/
theorem where_v1 (W' : Valuation τ sig (Elt Ideal)) :
    after hostOps0_1 W' (Proc.devRef .tc main_v1) = W' (Proc.devRef .tc main_v1) := by
  dsimp only [hostOps0_1]
  after_results
  first | done | rfl

theorem pre_v4 : after hostOps0 W (Proc.devRef .tc main_v4) = hostMask (W (Proc.devRef .tc main_arg5)) := by
  dsimp only [hostOps0]
  after_results
  first | done | rfl

theorem pre_cst : after hostOps0 W (Proc.devRef .tc main_cst) = constant (F := Ideal) S_ .bf16 0x0000#16 := by
  dsimp only [hostOps0]
  after_results
  first | done | rfl

theorem pre_v11 :
    after hostOps0 W (Proc.devRef .tc main_v11) = hostGather (W (Proc.devRef .tc main_arg0)) (W (Proc.devRef .tc main_arg4)) := by
  dsimp only [hostOps0]
  after_results
  first | done | rfl

theorem pre_v1 : after hostOps0 W (Proc.devRef .tc main_v1) = hostCastW (W (Proc.devRef .tc main_arg1)) := by
  dsimp only [hostOps0]
  after_results
  first | done | rfl

/-- The gathered, masked features, which the first region reads. -/
theorem hostA_v12 :
    after hostOps0_1 (after hostOps0 W) (Proc.devRef .tc main_v12)
      = gselK (W (Proc.devRef .tc main_arg0)) (W (Proc.devRef .tc main_arg4)) (W (Proc.devRef .tc main_arg5)) := by
  rw [where_v12, pre_v4, pre_cst, pre_v11]
  rfl

/-- The recast weights, which the first region reads. -/
theorem hostA_v1 :
    after hostOps0_1 (after hostOps0 W) (Proc.devRef .tc main_v1) = hostCastW (W (Proc.devRef .tc main_arg1)) := by
  rw [where_v1, pre_v1]

/-! ## The stretch between the first and the second region -/

/-- The scattered sum, which the second and the third region read. -/
theorem hostB_v18 :
    after hostOps1 W (Proc.devRef .tc main_v18) = scatK (W (Proc.devRef .tc main_arg5)) (W (Proc.devRef .tc main_v13)) := by
  dsimp only [hostOps1]
  after_results
  first | done | rfl

/-! ## The stretch between the second and the third region -/

theorem hostC_v21 : after hostOps2 W (Proc.devRef .tc main_v21) = hostMean (W (Proc.devRef .tc main_v19_0)) := by
  dsimp only [hostOps2]
  after_results
  first | done | rfl

theorem hostC_v27 :
    after hostOps2 W (Proc.devRef .tc main_v27) = hostVar (W (Proc.devRef .tc main_v19_0)) (W (Proc.devRef .tc main_v19_1)) := by
  dsimp only [hostOps2]
  after_results
  first | done | rfl

theorem hostC_v28 : after hostOps2 W (Proc.devRef .tc main_v28) = hostRow (W (Proc.devRef .tc main_arg2)) := by
  dsimp only [hostOps2]
  after_results
  first | done | rfl

theorem hostC_v29 : after hostOps2 W (Proc.devRef .tc main_v29) = hostRow (W (Proc.devRef .tc main_arg3)) := by
  dsimp only [hostOps2]
  after_results
  first | done | rfl

/-- The stretch leaves the scattered sum, which the third region reads, as it found it. -/
theorem hostC_v18 : after hostOps2 W (Proc.devRef .tc main_v18) = W (Proc.devRef .tc main_v18) := by
  dsimp only [hostOps2]
  after_results
  first | done | rfl

/-! ## The same functions in the reference program's spelling -/

/-- The zero of the narrow format and the zero of the wide format are the same extended real. -/
theorem zero_bf16_eq_zero_f32 :
    (constant (F := Ideal) S_ .bf16 0x0000#16 : S_.Idx → EReal) = constant (F := Ideal) S_ .f32 0x00000000#32 :=
  funext fun i => by
    rw [constant_apply, constant_apply, Cert.Spec.ofBits_zero_bf16, Ideal.ofBits_zero_f32]

/-- The masked gather is the reference's: the recast of the features is the identity on the extended reals, and the
    two zeros are the same number. -/
theorem gselK_eq (a0 : FVec Ideal S100000x64 .f32) (a4 a5 : IVec S27x100000 32) :
    (gselK a0 a4 a5 : S27x100000x64.Idx → EReal) = Cert.ReferenceIdeal.RefValue.gsel (F := Ideal) a0 a4 a5 := by
  unfold gselK hostMask hostGather Cert.ReferenceIdeal.RefValue.gsel
  rw [zero_bf16_eq_zero_f32]
  rfl

/-- The recast of the weights is the identity on the extended reals. -/
theorem hostCastW_eq (a1 : FVec Ideal S27x64x64 .f32) : (hostCastW a1 : S27x64x64.Idx → EReal) = a1 := rfl

/-- The batched product of the first region is the reference's contraction, entry by entry. -/
theorem G0_eq_dotg (g : S27x100000x64.Idx → EReal) (w : S27x64x64.Idx → EReal) :
    G0 g w = Cert.ReferenceIdeal.RefValue.dotg (F := Ideal) g w := by
  funext i
  obtain ⟨k, r, q, rfl⟩ : ∃ (k : Fin 27) (r : Fin 100000) (q : Fin 64), i = ix3 k r q := ⟨i 0, i 1, i 2, eq_ix3 i⟩
  rw [G0_ix3]
  exact (Cert.ReferenceIdeal.RefValue.dotg_apply g w k r q).symm

/-- The scattered sum of the first region's result is the reference's scattered sum. -/
theorem scatK_G0_eq (a5 : IVec S27x100000 32) (g : S27x100000x64.Idx → EReal) (w : S27x64x64.Idx → EReal) :
    (scatK a5 (G0 g w) : S100000x64.Idx → EReal)
      = Cert.ReferenceIdeal.RefValue.scat (F := Ideal) a5 (Cert.ReferenceIdeal.RefValue.flat (Cert.ReferenceIdeal.RefValue.dotg g w)) := by
  rw [G0_eq_dotg]
  rfl

/-! ## The third region's result in the specification's spelling -/

/-- The mean row at a channel: the column sum over the row count. -/
theorem hostMean_apply (s : FVec Ideal S1x64 .f32) (d : Fin 64) :
    hostMean s (ix2 (0 : Fin 1) d) = Ideal.div (s (ix2 (0 : Fin 1) d)) Cert.Spec.nF := by
  unfold hostMean
  rw [Cert.ReferenceIdeal.RefValue.hostDivf_apply, Cert.ReferenceIdeal.RefValue.bcast_scalar_apply]
  rfl

/-- The variance row at a channel. -/
theorem hostVar_apply (s1 s2 : FVec Ideal S1x64 .f32) (d : Fin 64) :
    hostVar s1 s2 (ix2 (0 : Fin 1) d)
      = max (Ideal.div (s2 (ix2 (0 : Fin 1) d)) Cert.Spec.nF
          - Ideal.div (s1 (ix2 (0 : Fin 1) d)) Cert.Spec.nF * Ideal.div (s1 (ix2 (0 : Fin 1) d)) Cert.Spec.nF) 0 := by
  unfold hostVar
  rw [maximumf_apply, subf_apply, mulf_apply, hostMean_apply, hostMean_apply,
    Cert.ReferenceIdeal.RefValue.bcast_scalar_apply, constant_apply, Ideal.ofBits_zero_f32]

/-- A per-channel vector with a unit leading axis reads its channel's entry. -/
theorem hostRow_apply (a : FVec Ideal S64 .f32) (d : Fin 64) : hostRow a (ix2 (0 : Fin 1) d) = a (ix1 d) := by
  unfold hostRow
  exact shapeCast_a_1a_apply a _ (0 : Fin 1) d

/-- The third region's result, fed the mean and the variance the host computes from the column sums `s1` and the
    column sums of squares `s2` of `out`, is entry by entry the specification's normalisation of `out` with the one-pass
    variance. -/
theorem tail_apply (out : S100000x64.Idx → EReal) (s1 s2 : FVec Ideal S1x64 .f32) (a2 a3 : FVec Ideal S64 .f32)
    (h1 : ∀ d : Fin 64, s1 (ix2 (0 : Fin 1) d) = Cert.Spec.colSum (fun r d => out (ix2 r d)) d)
    (h2 : ∀ d : Fin 64, s2 (ix2 (0 : Fin 1) d) = Cert.Spec.colSum (fun r d => out (ix2 r d) * out (ix2 r d)) d)
    (r : Fin 100000) (d : Fin 64) :
    G2 out (hostMean s1) (hostVar s1 s2) (hostRow a2) (hostRow a3) (ix2 r d)
      = Cert.Spec.norm (fun r d => out (ix2 r d)) (Cert.Spec.varK (fun r d => out (ix2 r d)))
          (fun d => a2 (ix1 d)) (fun d => a3 (ix1 d)) r d := by
  show max ((out (ix2 r d) - hostMean s1 (ix2 (0 : Fin 1) d)) * Ideal.rsqrt (hostVar s1 s2 (ix2 (0 : Fin 1) d) + Cert.Spec.eps)
      * hostRow a2 (ix2 (0 : Fin 1) d) + hostRow a3 (ix2 (0 : Fin 1) d)) 0 = _
  rw [hostMean_apply, hostVar_apply, hostRow_apply, hostRow_apply, h1, h2]
  rfl

end Cert.KernelIdeal.HandValue

end
-- ==== Proof.KIVal1Pieces.lean ====
/- The column-sum region: what each case of its body leaves in the two carried rows and in the two outputs, as the
   body's arithmetic applied to the values it loaded.

   At a middle point the sum row becomes the row found there plus the block's column sums, and the sum-of-squares row
   the row found there plus the block's column sums of squares.  At the first point the rows are first reset to zero,
   so the same update starts from the zero row.  At the last point the same update is made and the two updated rows are
   then copied into the two outputs.  Every store covers its whole row, so what is read back is the last store's value. -/
import proofs.«182249_j77902116815210_2_alg».proof.Proof.KIReg1b
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]

theorem hz2 : (![0, 0] : Fin 2 → Nat) = fun _ => 0 := funext fun a => by fin_cases a <;> rfl

/-! ## What each case's pieces are, as payloads of the values the body loaded -/

/-- A middle point leaves in the sum row the row it found plus the block's column sums. -/
theorem rowB_s0_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) :
    rowB_s0 c i arg1 harg1 arg2 harg2 arg3 harg3 arg4 harg4 arg5 harg5 hc0 hc1 x0 xs0 xs1 = k1_pay4 x0 xs0 := by
  unfold rowB_s0
  rw [View.read_writes_eq_canon _ _ _ (coverB_s0 c i arg1 harg1 arg2 harg2 arg3 harg3 arg4 harg4 arg5 harg5 hc0 hc1 x0 xs0 xs1)]
  unfold kernelRun1_B
  dsimp only
  rw [View.canon_unit_zero hz2]
  simp only [View.readAt_eq_ld, harg1.read_unread, harg4.read_unread, harg5.read_unread, View.ld_unit_zero (S := S10000x64) hz2, View.ld_unit_zero (S := S1x64) hz2]

/-- A middle point leaves in the sum-of-squares row the row it found plus the block's column sums of squares. -/
theorem rowB_s1_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i) (x0 : Vec F S10000x64 .f32) (xs0 xs1 : Vec F S1x64 .f32) :
    rowB_s1 c i arg1 harg1 arg2 harg2 arg3 harg3 arg4 harg4 arg5 harg5 hc0 hc1 x0 xs0 xs1 = k1_pay5 x0 xs1 := by
  unfold rowB_s1
  rw [View.read_writes_eq_canon _ _ _ (coverB_s1 c i arg1 harg1 arg2 harg2 arg3 harg3 arg4 harg4 arg5 harg5 hc0 hc1 x0 xs0 xs1)]
  unfold kernelRun1_B
  dsimp only
  rw [View.canon_unit_zero hz2]
  simp only [View.readAt_eq_ld, harg1.read_unread, harg4.read_unread, harg5.read_unread, View.ld_unit_zero (S := S10000x64) hz2, View.ld_unit_zero (S := S1x64) hz2]

/-- The first point resets the sum row to the zero row and then adds the block's column sums. -/
theorem rowA_s0_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) :
    rowA_s0 c i arg1 harg1 arg2 harg2 arg3 harg3 arg4 harg4 arg5 harg5 hc0 hc1 x0 = k1_pay4 x0 (k1_pay1 (F := F)) := by
  unfold rowA_s0
  rw [View.read_writes_eq_canon _ _ _ (coverA_s0 c i arg1 harg1 arg2 harg2 arg3 harg3 arg4 harg4 arg5 harg5 hc0 hc1 x0)]
  unfold kernelRun1_A
  dsimp only
  sl_unfold_words
  rw [View.canon_cons_unit_zero (S := S1x64) hz2, View.readCov_unit_zero (S := S1x64) _ hz2]
  simp only [View.readAt_eq_ld, harg1.read_unread, harg4.read_unread, harg5.read_unread, View.ld_unit_zero (S := S10000x64) hz2, View.ld_unit_zero (S := S1x64) hz2]

/-- The first point resets the sum-of-squares row to the zero row and then adds the block's column sums of squares. -/
theorem rowA_s1_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i) (x0 : Vec F S10000x64 .f32) :
    rowA_s1 c i arg1 harg1 arg2 harg2 arg3 harg3 arg4 harg4 arg5 harg5 hc0 hc1 x0 = k1_pay5 x0 (k1_pay2 (F := F)) := by
  unfold rowA_s1
  rw [View.read_writes_eq_canon _ _ _ (coverA_s1 c i arg1 harg1 arg2 harg2 arg3 harg3 arg4 harg4 arg5 harg5 hc0 hc1 x0)]
  unfold kernelRun1_A
  dsimp only
  sl_unfold_words
  rw [View.canon_cons_unit_zero (S := S1x64) hz2, View.readCov_unit_zero (S := S1x64) _ hz2]
  simp only [View.readAt_eq_ld, harg1.read_unread, harg4.read_unread, harg5.read_unread, View.ld_unit_zero (S := S10000x64) hz2, View.ld_unit_zero (S := S1x64) hz2]

/-- The last point updates the sum row as a middle point does. -/
theorem rowC_s0_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) :
    rowC_s0 c i arg1 harg1 arg2 harg2 arg3 harg3 arg4 harg4 arg5 harg5 hc0 hc1 x0 xs0 xs1 = k1_pay4 x0 xs0 := by
  unfold rowC_s0
  rw [View.read_writes_eq_canon _ _ _ (coverC_s0 c i arg1 harg1 arg2 harg2 arg3 harg3 arg4 harg4 arg5 harg5 hc0 hc1 x0 xs0 xs1)]
  unfold kernelRun1_C
  dsimp only
  sl_unfold_words
  rw [View.canon_unit_zero hz2]
  simp only [View.readAt_eq_ld, harg1.read_unread, harg4.read_unread, harg5.read_unread, View.ld_unit_zero (S := S10000x64) hz2, View.ld_unit_zero (S := S1x64) hz2]

/-- The last point updates the sum-of-squares row as a middle point does. -/
theorem rowC_s1_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) :
    rowC_s1 c i arg1 harg1 arg2 harg2 arg3 harg3 arg4 harg4 arg5 harg5 hc0 hc1 x0 xs0 xs1 = k1_pay5 x0 xs1 := by
  unfold rowC_s1
  rw [View.read_writes_eq_canon _ _ _ (coverC_s1 c i arg1 harg1 arg2 harg2 arg3 harg3 arg4 harg4 arg5 harg5 hc0 hc1 x0 xs0 xs1)]
  unfold kernelRun1_C
  dsimp only
  sl_unfold_words
  rw [View.canon_unit_zero hz2]
  simp only [View.readAt_eq_ld, harg1.read_unread, harg4.read_unread, harg5.read_unread, View.ld_unit_zero (S := S10000x64) hz2, View.ld_unit_zero (S := S1x64) hz2]

/-- The last point copies the updated sum row into the first output. -/
theorem rowC_o1_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) :
    rowC_o1 c i arg1 harg1 arg2 harg2 arg3 harg3 arg4 harg4 arg5 harg5 hc0 hc1 x0 xs0 xs1 = k1_pay4 x0 xs0 := by
  unfold rowC_o1
  rw [View.read_writes_eq_canon _ _ _ (coverC_o1 c i arg1 harg1 arg2 harg2 arg3 harg3 arg4 harg4 arg5 harg5 hc0 hc1 x0 xs0 xs1)]
  unfold kernelRun1_C
  dsimp only
  sl_unfold_words
  rw [View.canon_unit_zero hz2, View.readCov_unit_zero (S := S1x64) _ hz2]
  simp only [View.readAt_eq_ld, harg1.read_unread, harg4.read_unread, harg5.read_unread, View.ld_unit_zero (S := S10000x64) hz2, View.ld_unit_zero (S := S1x64) hz2]

/-- The last point copies the updated sum-of-squares row into the second output. -/
theorem rowC_o2_eq (c : Dev nD) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i) (x0 : Vec F S10000x64 .f32) (xs0 xs1 : Vec F S1x64 .f32) :
    rowC_o2 c i arg1 harg1 arg2 harg2 arg3 harg3 arg4 harg4 arg5 harg5 hc0 hc1 x0 xs0 xs1 = k1_pay5 x0 xs1 := by
  unfold rowC_o2
  rw [View.read_writes_eq_canon _ _ _ (coverC_o2 c i arg1 harg1 arg2 harg2 arg3 harg3 arg4 harg4 arg5 harg5 hc0 hc1 x0 xs0 xs1)]
  unfold kernelRun1_C
  dsimp only
  sl_unfold_words
  rw [View.canon_unit_zero hz2, View.readCov_unit_zero (S := S1x64) _ hz2]
  simp only [View.readAt_eq_ld, harg1.read_unread, harg4.read_unread, harg5.read_unread, View.ld_unit_zero (S := S10000x64) hz2, View.ld_unit_zero (S := S1x64) hz2]

end Cert.KernelIdeal.HandValue

end
-- ==== Proof.KIVal1Pay.lean ====
/- The column-sum region's arithmetic read at one entry on the extended reals: the reset row is zero; the sum row's
   update at column d is the given row's entry plus the sum over the block's 10000 rows of column d; the
   sum-of-squares row's update is the given row's entry plus the sum of the squares of that column.  The reduction over
   the row axis inserts the row coordinate in front of the column coordinate; the reshape of the 64 sums to a 1 x 64 row
   only adds a unit coordinate. -/
import proofs.«182249_j77902116815210_2_alg».proof.Proof.Gen.KernelIdeal.Skeleton
import Idealize.ShloMosaic.PureOps.Ideal.Laws
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! ## The payloads read at an entry, on the extended reals -/

/-- The reset row is zero everywhere. -/
theorem pay1_ix2 (u : Fin 1) (d : Fin 64) : k1_pay1 (F := Ideal) (ix2 u d) = 0 := by
  unfold k1_pay1
  refine (congrFun (shapeCast_self _ _) _).trans ?_
  show Ideal.ofBits .f32 0x00000000#32 = 0
  exact Ideal.ofBits_zero_f32

theorem pay2_ix2 (u : Fin 1) (d : Fin 64) : k1_pay2 (F := Ideal) (ix2 u d) = 0 := by
  unfold k1_pay2
  refine (congrFun (shapeCast_self _ _) _).trans ?_
  show Ideal.ofBits .f32 0x00000000#32 = 0
  exact Ideal.ofBits_zero_f32

/-- The index that the reduction over the row axis inserts: row `r` of column `d`. -/
theorem lift_ix1 (h : S10000x64.Reduces [0] S64) (d : Fin 64) (r : Fin 10000) :
    h.lift (ix1 d) r = ix2 r d := by
  funext a
  match a with
  | ⟨0, _⟩ => rfl
  | ⟨1, _⟩ => rfl

/-- The sum row's update at column `d`: the row it was given plus the sum of the block's column `d`. -/
theorem pay4_ix2 (x : FVec Ideal S10000x64 .f32) (acc : FVec Ideal S1x64 .f32) (u : Fin 1) (d : Fin 64) :
    k1_pay4 (F := Ideal) x acc (ix2 u d) = acc (ix2 u d) + ∑ r : Fin 10000, x (ix2 r d) := by
  unfold k1_pay4 k1_pay3
  refine (congrFun (shapeCast_self _ _) _).trans ?_
  refine congrArg (acc (ix2 u d) + ·) ?_
  refine (shapeCast_a_1a_apply _ _ u d).trans ?_
  refine (Ideal.multiReduction_add_single _ 0x00000000#32 reduces_S10000x64_S64 (.inl rfl) rfl (ix1 d)).trans ?_
  refine Finset.sum_congr rfl (fun (r : Fin 10000) _ => ?_)
  refine (congrFun (shapeCast_self x _) _).trans ?_
  exact congrArg x (lift_ix1 _ d r)

/-- The sum-of-squares row's update at column `d`: the row it was given plus the sum of the squares of the block's
    column `d`. -/
theorem pay5_ix2 (x : FVec Ideal S10000x64 .f32) (acc : FVec Ideal S1x64 .f32) (u : Fin 1) (d : Fin 64) :
    k1_pay5 (F := Ideal) x acc (ix2 u d) = acc (ix2 u d) + ∑ r : Fin 10000, x (ix2 r d) * x (ix2 r d) := by
  unfold k1_pay5 k1_pay3
  refine (congrFun (shapeCast_self _ _) _).trans ?_
  refine congrArg (acc (ix2 u d) + ·) ?_
  refine (shapeCast_a_1a_apply _ _ u d).trans ?_
  refine (Ideal.multiReduction_add_single _ 0x00000000#32 reduces_S10000x64_S64 (.inl rfl) rfl (ix1 d)).trans ?_
  refine Finset.sum_congr rfl (fun (r : Fin 10000) _ => ?_)
  have e : shapeCast S10000x64 x shapeCasts_S10000x64_S10000x64 (reduces_S10000x64_S64.lift (ix1 d) r) = x (ix2 r d) :=
    (congrFun (shapeCast_self x _) _).trans (congrArg x (lift_ix1 _ d r))
  exact congrArg₂ (· * ·) e e

end Cert.KernelIdeal.HandValue

end
-- ==== Proof.KIVal1Inv.lean ====
/- The column-sum region: what the two carried rows hold after each grid point, on the extended reals.

   The region walks the 100000 rows of the array it reads in ten blocks of 10000 rows.  The block the body sees at the
   point t is rows 10000 t .. 10000 t + 9999 of the array.  The first point resets the rows to zero and adds the first
   block's column sums (of the entries, and of their squares); every later point adds its own block's.  So after the
   point n the sum row holds, at column d, the sum of column d over the first n + 1 blocks, and the sum-of-squares row
   the sum of the squares over the same rows: an induction over the points.  Ten block sums make the whole column sum. -/
import proofs.«182249_j77902116815210_2_alg».proof.Proof.KIReg1c
import proofs.«182249_j77902116815210_2_alg».proof.Proof.KIVal1Pieces
import proofs.«182249_j77902116815210_2_alg».proof.Proof.KIVal1Pay
import proofs.«182249_j77902116815210_2_alg».proof.Proof.Spec
import proofs.«182249_j77902116815210_2_alg».proof.Proof.LibEReal
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Blocks of rows -/

/-- Row `y` of block `t` of the 100000 rows, ten blocks of 10000. -/
def blkRow (t : ℕ) (ht : t < 10) (y : Fin 10000) : Fin 100000 := ⟨t * 10000 + y.val, by have := y.isLt; omega⟩

/-- The sum of column `d` over block `t` (zero past the last block). -/
def bs (f : Fin 100000 → Fin 64 → EReal) (d : Fin 64) (t : ℕ) : EReal :=
  if ht : t < 10 then ∑ y : Fin 10000, f (blkRow t ht y) d else 0

/-- The ten block sums add up to the column sum. -/
theorem sum_bs (f : Fin 100000 → Fin 64 → EReal) (d : Fin 64) :
    ∑ t ∈ Finset.range 10, bs f d t = Cert.Spec.colSum f d := by
  rw [Finset.sum_range]
  unfold Cert.Spec.colSum
  rw [Cert.Spec.sum_blocks (show 10 * 10000 = 100000 from rfl) (fun r => f r d)]
  refine Finset.sum_congr rfl fun t _ => ?_
  unfold bs
  rw [dif_pos t.isLt]
  rfl

/-! ## The input block at a point -/

variable (V : (c : Dev nD) → (b : Ref sig .tc) → Buf (Elt Ideal) ((c : Thread nD τ).loc b))

/-- The array the region sums, by row and column. -/
def arr18 (c : Dev nD) : Fin 100000 → Fin 64 → EReal := fun r d => (V c main_v18 : S100000x64.Idx → EReal) (ix2 r d)

theorem arr18_apply (c : Dev nD) (r : Fin 100000) (d : Fin 64) :
    arr18 V c r d = (V c main_v18 : S100000x64.Idx → EReal) (ix2 r d) := rfl

/-- The input block at the point `t`, as a 10000 x 64 array of extended reals. -/
abbrev blk1 (c : Dev nD) (t : Fin cfg1.N) : S10000x64.Idx → EReal := iblk1 V c 0 t

/-- The input's index map at the point `t`: block `(t, 0)`. -/
theorem idx_facts1 : ∀ t : Fin cfg1.N, win1_0.index t (0 : Fin 2) = t.val ∧ win1_0.index t (1 : Fin 2) = 0 :=
  (by decide +kernel : ∀ t : Fin grid1.N, _)

/-- The input block at the point `t`, at the entry (y, d): the array at (10000 t + y, d). -/
theorem iblk1_0_apply (c : Dev nD) (t : Fin cfg1.N) (y : Fin 10000) (d : Fin 64) (i : S100000x64.Idx)
    (h0 : (i 0).val = t.val * 10000 + y.val) (h1 : (i 1).val = d.val) :
    blk1 V c t (ix2 y d) = (V c main_v18 : S100000x64.Idx → EReal) i := by
  obtain ⟨e0, e1⟩ := idx_facts1 t
  unfold blk1 iblk1
  rw [View.read_apply]
  show V c main_v18 _ = V c main_v18 _
  congr 1
  funext a
  apply Fin.ext
  match a with
  | ⟨0, _⟩ => show win1_0.index t (0 : Fin 2) * 10000 + 1 * y.val = (i 0).val; rw [e0, h0]; omega
  | ⟨1, _⟩ => show win1_0.index t (1 : Fin 2) * 64 + 1 * d.val = (i 1).val; rw [e1, h1]; omega

/-- The column sums of the block at the point `t` are the block sums of the array. -/
theorem blk_sum (c : Dev nD) (t : Fin cfg1.N) (d : Fin 64) :
    ∑ y : Fin 10000, blk1 V c t (ix2 y d) = bs (arr18 V c) d t.val := by
  have ht : t.val < 10 := lt_of_lt_of_eq t.isLt N_1
  unfold bs
  rw [dif_pos ht]
  refine Finset.sum_congr rfl fun y _ => ?_
  exact iblk1_0_apply V c t y d (ix2 (blkRow t.val ht y) d) rfl rfl

/-- The same for the squares. -/
theorem blk_sumsq (c : Dev nD) (t : Fin cfg1.N) (d : Fin 64) :
    ∑ y : Fin 10000, blk1 V c t (ix2 y d) * blk1 V c t (ix2 y d)
      = bs (fun r d => arr18 V c r d * arr18 V c r d) d t.val := by
  have ht : t.val < 10 := lt_of_lt_of_eq t.isLt N_1
  unfold bs
  rw [dif_pos ht]
  refine Finset.sum_congr rfl fun y _ => ?_
  have e := iblk1_0_apply V c t y d (ix2 (blkRow t.val ht y) d) rfl rfl
  exact congrArg₂ (· * ·) e e

/-! ## The carried rows, point by point -/

theorem s0_zero (c : Dev nD) (h0 : 0 < cfg1.N) :
    (outsAt1 V c 0 h0).2.2.1 = k1_pay4 (F := Ideal) (blk1 V c ⟨0, h0⟩) (k1_pay1 (F := Ideal)) := by
  have hc0 : cond1_0 (grid1.coords (⟨0, h0⟩ : Fin cfg1.N)) := (hcond1_0 ⟨0, h0⟩).mpr rfl
  have hc1 : ¬cond1_1 (grid1.coords (⟨0, h0⟩ : Fin cfg1.N)) := fun h => by have := (hcond1_1 ⟨0, h0⟩).mp h; (try dsimp only at this); omega
  refine (congrArg (fun p => p.2.2.1) (outsAt1_A V c ⟨0, h0⟩ rfl hc0 hc1)).trans ?_
  exact rowA_s0_eq c (grid1.coords (⟨0, h0⟩ : Fin cfg1.N)) (ms1_0 (⟨0, h0⟩ : Fin cfg1.N)) (hs1_0 (⟨0, h0⟩ : Fin cfg1.N)) (ms1_1 (⟨0, h0⟩ : Fin cfg1.N)) (hs1_1 (⟨0, h0⟩ : Fin cfg1.N)) (ms1_2 (⟨0, h0⟩ : Fin cfg1.N)) (hs1_2 (⟨0, h0⟩ : Fin cfg1.N)) scM1_0 (Memref.isWhole_whole _) scM1_1 (Memref.isWhole_whole _) hc0 hc1 (iblk1 V c 0 ⟨0, h0⟩)

theorem s1_zero (c : Dev nD) (h0 : 0 < cfg1.N) :
    (outsAt1 V c 0 h0).2.2.2 = k1_pay5 (F := Ideal) (blk1 V c ⟨0, h0⟩) (k1_pay2 (F := Ideal)) := by
  have hc0 : cond1_0 (grid1.coords (⟨0, h0⟩ : Fin cfg1.N)) := (hcond1_0 ⟨0, h0⟩).mpr rfl
  have hc1 : ¬cond1_1 (grid1.coords (⟨0, h0⟩ : Fin cfg1.N)) := fun h => by have := (hcond1_1 ⟨0, h0⟩).mp h; (try dsimp only at this); omega
  refine (congrArg (fun p => p.2.2.2) (outsAt1_A V c ⟨0, h0⟩ rfl hc0 hc1)).trans ?_
  exact rowA_s1_eq c (grid1.coords (⟨0, h0⟩ : Fin cfg1.N)) (ms1_0 (⟨0, h0⟩ : Fin cfg1.N)) (hs1_0 (⟨0, h0⟩ : Fin cfg1.N)) (ms1_1 (⟨0, h0⟩ : Fin cfg1.N)) (hs1_1 (⟨0, h0⟩ : Fin cfg1.N)) (ms1_2 (⟨0, h0⟩ : Fin cfg1.N)) (hs1_2 (⟨0, h0⟩ : Fin cfg1.N)) scM1_0 (Memref.isWhole_whole _) scM1_1 (Memref.isWhole_whole _) hc0 hc1 (iblk1 V c 0 ⟨0, h0⟩)

/-- Every later point adds its block's column sums to the sum row the point before left. -/
theorem s0_succ (c : Dev nD) (n : ℕ) (hn : n + 1 < cfg1.N) :
    (outsAt1 V c (n + 1) hn).2.2.1
      = k1_pay4 (F := Ideal) (blk1 V c ⟨n + 1, hn⟩) (outsAt1 V c n (Nat.lt_of_succ_lt hn)).2.2.1 := by
  have hz : ¬(⟨n + 1, hn⟩ : Fin cfg1.N).val = 0 := Nat.succ_ne_zero n
  have hc0 : ¬cond1_0 (grid1.coords (⟨n + 1, hn⟩ : Fin cfg1.N)) := fun h => hz ((hcond1_0 ⟨n + 1, hn⟩).mp h)
  by_cases h9 : n + 1 = 9
  · have hc1 : cond1_1 (grid1.coords (⟨n + 1, hn⟩ : Fin cfg1.N)) := (hcond1_1 ⟨n + 1, hn⟩).mpr h9
    refine (congrArg (fun p => p.2.2.1) (outsAt1_C V c ⟨n + 1, hn⟩ hz h9 hc0 hc1)).trans ?_
    exact rowC_s0_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2
  · have hc1 : ¬cond1_1 (grid1.coords (⟨n + 1, hn⟩ : Fin cfg1.N)) := fun h => h9 ((hcond1_1 ⟨n + 1, hn⟩).mp h)
    refine (congrArg (fun p => p.2.2.1) (outsAt1_B V c ⟨n + 1, hn⟩ hz h9 hc0 hc1)).trans ?_
    exact rowB_s0_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2

/-- Every later point adds its block's column sums of squares to the row the point before left. -/
theorem s1_succ (c : Dev nD) (n : ℕ) (hn : n + 1 < cfg1.N) :
    (outsAt1 V c (n + 1) hn).2.2.2
      = k1_pay5 (F := Ideal) (blk1 V c ⟨n + 1, hn⟩) (outsAt1 V c n (Nat.lt_of_succ_lt hn)).2.2.2 := by
  have hz : ¬(⟨n + 1, hn⟩ : Fin cfg1.N).val = 0 := Nat.succ_ne_zero n
  have hc0 : ¬cond1_0 (grid1.coords (⟨n + 1, hn⟩ : Fin cfg1.N)) := fun h => hz ((hcond1_0 ⟨n + 1, hn⟩).mp h)
  by_cases h9 : n + 1 = 9
  · have hc1 : cond1_1 (grid1.coords (⟨n + 1, hn⟩ : Fin cfg1.N)) := (hcond1_1 ⟨n + 1, hn⟩).mpr h9
    refine (congrArg (fun p => p.2.2.2) (outsAt1_C V c ⟨n + 1, hn⟩ hz h9 hc0 hc1)).trans ?_
    exact rowC_s1_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2
  · have hc1 : ¬cond1_1 (grid1.coords (⟨n + 1, hn⟩ : Fin cfg1.N)) := fun h => h9 ((hcond1_1 ⟨n + 1, hn⟩).mp h)
    refine (congrArg (fun p => p.2.2.2) (outsAt1_B V c ⟨n + 1, hn⟩ hz h9 hc0 hc1)).trans ?_
    exact rowB_s1_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2

/-- After the point `n` the sum row holds, at column `d`, the sum of the first `n + 1` blocks of column `d`. -/
theorem s0_inv (c : Dev nD) : ∀ (n : ℕ) (hn : n < cfg1.N) (u : Fin 1) (d : Fin 64),
    (outsAt1 V c n hn).2.2.1 (ix2 u d) = ∑ t ∈ Finset.range (n + 1), bs (arr18 V c) d t
  | 0, hn, u, d => by
    refine (congrFun (s0_zero V c hn) _).trans ?_
    rw [pay4_ix2, pay1_ix2, zero_add, blk_sum, Finset.sum_range_one]
  | n + 1, hn, u, d => by
    refine (congrFun (s0_succ V c n hn) _).trans ?_
    rw [pay4_ix2, s0_inv c n (Nat.lt_of_succ_lt hn) u d, blk_sum, Finset.sum_range_succ _ (n + 1)]

/-- After the point `n` the sum-of-squares row holds the sum of the squares over the first `n + 1` blocks. -/
theorem s1_inv (c : Dev nD) : ∀ (n : ℕ) (hn : n < cfg1.N) (u : Fin 1) (d : Fin 64),
    (outsAt1 V c n hn).2.2.2 (ix2 u d) = ∑ t ∈ Finset.range (n + 1), bs (fun r d => arr18 V c r d * arr18 V c r d) d t
  | 0, hn, u, d => by
    refine (congrFun (s1_zero V c hn) _).trans ?_
    rw [pay5_ix2, pay2_ix2, zero_add, blk_sumsq, Finset.sum_range_one]
  | n + 1, hn, u, d => by
    refine (congrFun (s1_succ V c n hn) _).trans ?_
    rw [pay5_ix2, s1_inv c n (Nat.lt_of_succ_lt hn) u d, blk_sumsq, Finset.sum_range_succ _ (n + 1)]

end Cert.KernelIdeal.HandValue

end
-- ==== Proof.KIVal1.lean ====
/- The column-sum region read as a value on the extended reals: after its last point the first output row holds, at
   column d, the sum of column d of the array the region read, and the second output row the sum of the squares of
   column d.

   The two outputs are written only at the last point, where the body copies into them the two carried rows it has
   just updated; the carried rows then hold the sums over all ten blocks, which is the sum over all 100000 rows.  Each
   output's one write-back carries its whole 1 x 64 row (block (0, 0) of an array that is one block), so the array
   after the region is exactly that row. -/
import proofs.«182249_j77902116815210_2_alg».proof.Proof.KIVal1Inv
import Idealize.ShloMosaic.Lib.Pipeline.Value
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The outputs: the last point's copies of the two rows -/

/-- At the last point the first output takes the updated sum row. -/
theorem o1_last (c : Dev nD) (n : ℕ) (hn : n + 1 < cfg1.N) (h9 : n + 1 = 9) :
    (outsAt1 V c (n + 1) hn).1
      = k1_pay4 (F := Ideal) (blk1 V c ⟨n + 1, hn⟩) (outsAt1 V c n (Nat.lt_of_succ_lt hn)).2.2.1 := by
  have hz : ¬(⟨n + 1, hn⟩ : Fin cfg1.N).val = 0 := Nat.succ_ne_zero n
  have hc0 : ¬cond1_0 (grid1.coords (⟨n + 1, hn⟩ : Fin cfg1.N)) := fun h => hz ((hcond1_0 ⟨n + 1, hn⟩).mp h)
  have hc1 : cond1_1 (grid1.coords (⟨n + 1, hn⟩ : Fin cfg1.N)) := (hcond1_1 ⟨n + 1, hn⟩).mpr h9
  refine (congrArg (fun p => p.1) (outsAt1_C V c ⟨n + 1, hn⟩ hz h9 hc0 hc1)).trans ?_
  exact rowC_o1_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2

/-- At the last point the second output takes the updated sum-of-squares row. -/
theorem o2_last (c : Dev nD) (n : ℕ) (hn : n + 1 < cfg1.N) (h9 : n + 1 = 9) :
    (outsAt1 V c (n + 1) hn).2.1
      = k1_pay5 (F := Ideal) (blk1 V c ⟨n + 1, hn⟩) (outsAt1 V c n (Nat.lt_of_succ_lt hn)).2.2.2 := by
  have hz : ¬(⟨n + 1, hn⟩ : Fin cfg1.N).val = 0 := Nat.succ_ne_zero n
  have hc0 : ¬cond1_0 (grid1.coords (⟨n + 1, hn⟩ : Fin cfg1.N)) := fun h => hz ((hcond1_0 ⟨n + 1, hn⟩).mp h)
  have hc1 : cond1_1 (grid1.coords (⟨n + 1, hn⟩ : Fin cfg1.N)) := (hcond1_1 ⟨n + 1, hn⟩).mpr h9
  refine (congrArg (fun p => p.2.1) (outsAt1_C V c ⟨n + 1, hn⟩ hz h9 hc0 hc1)).trans ?_
  exact rowC_o2_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) scM1_0 (Memref.isWhole_whole _) scM1_1 (Memref.isWhole_whole _) hc0 hc1 (iblk1 V c 0 ⟨n + 1, hn⟩) (outsAt1 V c n (Nat.lt_of_succ_lt hn)).2.2.1 (outsAt1 V c n (Nat.lt_of_succ_lt hn)).2.2.2

/-- The first output after the last point: the column sums of the array. -/
theorem out1_eq (c : Dev nD) (h9 : 9 < cfg1.N) :
    (outsAt1 V c 9 h9).1 = fun j => Cert.Spec.colSum (arr18 V c) (j 1 : Fin 64) := by
  funext j
  obtain ⟨u, d, rfl⟩ : ∃ (u : Fin 1) (d : Fin 64), j = ix2 u d := ⟨j 0, j 1, eq_ix2 j⟩
  refine (congrFun (o1_last V c 8 h9 rfl) _).trans ?_
  rw [pay4_ix2, s0_inv V c 8 (Nat.lt_of_succ_lt h9) u d, blk_sum]
  show ∑ t ∈ Finset.range 9, bs (arr18 V c) d t + bs (arr18 V c) d 9 = Cert.Spec.colSum (arr18 V c) d
  rw [← Finset.sum_range_succ _ 9, sum_bs]

/-- The second output after the last point: the column sums of the squares. -/
theorem out2_eq (c : Dev nD) (h9 : 9 < cfg1.N) :
    (outsAt1 V c 9 h9).2.1 = fun j => Cert.Spec.colSum (fun r d => arr18 V c r d * arr18 V c r d) (j 1 : Fin 64) := by
  funext j
  obtain ⟨u, d, rfl⟩ : ∃ (u : Fin 1) (d : Fin 64), j = ix2 u d := ⟨j 0, j 1, eq_ix2 j⟩
  refine (congrFun (o2_last V c 8 h9 rfl) _).trans ?_
  rw [pay5_ix2, s1_inv V c 8 (Nat.lt_of_succ_lt h9) u d, blk_sumsq]
  show ∑ t ∈ Finset.range 9, bs (fun r d => arr18 V c r d * arr18 V c r d) d t + bs (fun r d => arr18 V c r d * arr18 V c r d) d 9
    = Cert.Spec.colSum (fun r d => arr18 V c r d * arr18 V c r d) d
  rw [← Finset.sum_range_succ _ 9, sum_bs]

/-! ## From the one write-back to the arrays -/

/-- The one write-back of the first output, at the last point, writes the column sums: its block is the whole row. -/
theorem flushed1_1_eq (c : Dev nD) (t : Fin cfg1.N) (hf : (cfg1.win 1).flush t = true) :
    (dat1 (F := Ideal) V c).flushed 1 t
      = ((cfg1.win 1).blk t).view.read (Elt Ideal) (fun j => Cert.Spec.colSum (arr18 V c) (j 1 : Fin 64)) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  have e : (outsAt1 V c t1_9.val t1_9.isLt).1 = fun j => Cert.Spec.colSum (arr18 V c) (j 1 : Fin 64) := out1_eq V c t1_9.isLt
  rw [after1_1, e]
  have hz' : (fun a => win1_1.index t1_9 a * main_v19_0.ty.shape.size a) = fun _ => 0 := funext fun a => by fin_cases a <;> decide
  exact (Memref.read_access_unit_zero (Elt Ideal) main_v19_0 hz' (fun a => by rw [congrFun hz' a]; simp) _).symm

theorem flushed1_2_eq (c : Dev nD) (t : Fin cfg1.N) (hf : (cfg1.win 2).flush t = true) :
    (dat1 (F := Ideal) V c).flushed 2 t
      = ((cfg1.win 2).blk t).view.read (Elt Ideal) (fun j => Cert.Spec.colSum (fun r d => arr18 V c r d * arr18 V c r d) (j 1 : Fin 64)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  have e : (outsAt1 V c t1_9.val t1_9.isLt).2.1 = fun j => Cert.Spec.colSum (fun r d => arr18 V c r d * arr18 V c r d) (j 1 : Fin 64) := out2_eq V c t1_9.isLt
  rw [after1_2, e]
  have hz' : (fun a => win1_2.index t1_9 a * main_v19_1.ty.shape.size a) = fun _ => 0 := funext fun a => by fin_cases a <;> decide
  exact (Memref.read_access_unit_zero (Elt Ideal) main_v19_1 hz' (fun a => by rw [congrFun hz' a]; simp) _).symm

/-- After the region's last point its first output holds, at column `d`, the sum of column `d` of the array it read. -/
theorem final1_sum (c : Dev nD) :
    (dat1 (F := Ideal) V c).arrAt 1 cfg1.N
      = fun j => Cert.Spec.colSum (arr18 V c) (j 1 : Fin 64) :=
  (dat1 (F := Ideal) V c).arrAt_eq_of_cover 1 _ (flushed1_1_eq V c) fun i =>
    ⟨t1_9, (flush1_1 t1_9).mpr rfl, by
      show i ∈ ((View.whole main_v19_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 64 from by decide +kernel]; omega⟩

/-- After the region's last point its second output holds, at column `d`, the sum of the squares of column `d`. -/
theorem final1_sumsq (c : Dev nD) :
    (dat1 (F := Ideal) V c).arrAt 2 cfg1.N
      = fun j => Cert.Spec.colSum (fun r d => arr18 V c r d * arr18 V c r d) (j 1 : Fin 64) :=
  (dat1 (F := Ideal) V c).arrAt_eq_of_cover 2 _ (flushed1_2_eq V c) fun i =>
    ⟨t1_9, (flush1_2 t1_9).mpr rfl, by
      show i ∈ ((View.whole main_v19_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 64 from by decide +kernel]; omega⟩

end Cert.KernelIdeal.HandValue

end
-- ==== Proof.RefFinite.lean ====
/-
  Finiteness of the scattered sum, and the reference's result in the one-pass form.

  When the feature and weight arrays are real, so is every entry of the scattered sum: a gather reads
  entries of its operand, the masking select picks between such an entry and zero, the batched product
  is a finite sum of products, the flattening re-indexes, and the accumulating scatter adds finitely
  many of those to zero.  On a real table the two-pass variance equals the one-pass variance clamped
  at zero, so the reference's result is also the specification's normalisation taken with the one-pass
  variance.  Last, two arrays over the 100000 × 64 index set that agree at every pair of coordinates
  are equal.
-/
import proofs.«182249_j77902116815210_2_alg».proof.Proof.RefRead
import proofs.«182249_j77902116815210_2_alg».proof.Proof.Finite
import proofs.«182249_j77902116815210_2_alg».proof.Proof.SpecLaws

noncomputable section

namespace Cert.ReferenceIdeal.RefValue

open Cert.ReferenceIdeal Cert.ReferenceIdeal.Gen Idealize.ShloMosaic Idealize.ShloMosaic.ValueIdx
open scoped BigOperators

/-- The masked gather of a real array is real, whatever the indices. -/
theorem gsel_real (a0 : FVec Ideal S100000x64 .f32) (a4 a5 : IVec S27x100000 32)
    (h0 : ∀ i, Cert.Spec.IsReal (a0 i)) (i : S27x100000x64.Idx) : Cert.Spec.IsReal (gsel (F := Ideal) a0 a4 a5 i) := by
  unfold gsel
  exact Cert.Spec.select_real _ _ _ (fun i => Cert.Spec.gather_real _ a0 _ h0 i)
    (fun i => Cert.Spec.broadcastInDim_real _ _ _ _ (fun i => Cert.Spec.constant_zero_f32_real _ i) i) i

/-- The batched product of real arrays is real. -/
theorem dotg_real (g : FVec Ideal S27x100000x64 .f32) (w : FVec Ideal S27x64x64 .f32)
    (hg : ∀ i, Cert.Spec.IsReal (g i)) (hw : ∀ i, Cert.Spec.IsReal (w i)) (j : S27x100000x64.Idx) :
    Cert.Spec.IsReal (dotg (F := Ideal) g w j) := by
  unfold dotg
  exact Cert.Spec.dotGeneral_real _ _ _ g w hg hw j

/-- The scattered sum of real feature and weight arrays is real at every index, whatever the index arrays. -/
theorem refOut_real (a0 : FVec Ideal S100000x64 .f32) (a1 : FVec Ideal S27x64x64 .f32) (a4 a5 : IVec S27x100000 32)
    (h0 : ∀ i, Cert.Spec.IsReal (a0 i)) (h1 : ∀ i, Cert.Spec.IsReal (a1 i)) :
    ∀ i, Cert.Spec.IsReal (refOut (F := Ideal) a0 a1 a4 a5 i) := by
  intro i
  unfold refOut scat flat
  exact Cert.Spec.scatterAdd_real _ _ _ _
    (fun i => Cert.Spec.broadcastInDim_real _ _ _ _ (fun i => Cert.Spec.constant_zero_f32_real _ i) i)
    (fun j => Cert.Spec.shapeCast_real _ _ _ (fun j => dotg_real _ _ (gsel_real a0 a4 a5 h0) h1 j) j) i

/-- The reference's result, entry by entry, as the specification's normalisation of the scattered sum
    taken with the ONE-pass variance: on the real scattered sum the two variances agree. -/
theorem result_apply_varK (a0 : FVec Ideal S100000x64 .f32) (a1 : FVec Ideal S27x64x64 .f32) (a2 a3 : FVec Ideal S64 .f32)
    (a4 a5 : IVec S27x100000 32) (h0 : ∀ i, Cert.Spec.IsReal (a0 i)) (h1 : ∀ i, Cert.Spec.IsReal (a1 i))
    (r : Fin 100000) (d : Fin 64) :
    result (F := Ideal) a0 a1 a2 a3 a4 a5 (ix2 r d)
      = Cert.Spec.norm (fun r d => refOut (F := Ideal) a0 a1 a4 a5 (ix2 r d))
          (Cert.Spec.varK (fun r d => refOut (F := Ideal) a0 a1 a4 a5 (ix2 r d)))
          (fun d => a2 (ix1 d)) (fun d => a3 (ix1 d)) r d := by
  unfold result
  rw [refTail_apply]
  exact (congrFun (congrFun (Cert.Spec.norm_varK_eq_norm_varR (fun r d => refOut (F := Ideal) a0 a1 a4 a5 (ix2 r d))
    (fun r d => refOut_real a0 a1 a4 a5 h0 h1 (ix2 r d)) (fun d => a2 (ix1 d)) (fun d => a3 (ix1 d))) r) d).symm

/-- Two arrays over the 100000 × 64 index set that agree at every pair of coordinates are equal. -/
theorem idx2_ext {α : Type} (f g : S100000x64.Idx → α)
    (h : ∀ (r : Fin 100000) (d : Fin 64), f (ix2 r d) = g (ix2 r d)) : f = g := by
  funext j
  rw [eq_ix2 j]
  exact h (j 0) (j 1)

/-- An array that agrees with the reference's result at every pair of coordinates is the result. -/
theorem result_ext (a0 : FVec Ideal S100000x64 .f32) (a1 : FVec Ideal S27x64x64 .f32) (a2 a3 : FVec Ideal S64 .f32)
    (a4 a5 : IVec S27x100000 32) (f : S100000x64.Idx → EReal)
    (h : ∀ (r : Fin 100000) (d : Fin 64), f (ix2 r d) = result (F := Ideal) a0 a1 a2 a3 a4 a5 (ix2 r d)) :
    f = result (F := Ideal) a0 a1 a2 a3 a4 a5 :=
  idx2_ext f _ h

end Cert.ReferenceIdeal.RefValue

end
-- ==== Proof.KIValue.lean ====
/- The kernel program's result array is the reference's result, at the extended reals.

   The run leaves the result buffer at the last boundary of a fold through @main: host stretches apply
   their operations, each pallas_call replaces its output arrays by what its write-backs leave. Read
   backwards from the result:

   * the last pallas_call writes `G2` of the scattered sum `out`, of `mean` and `var` (computed on the host
     from the two column sums the middle pallas_call wrote), and of the scale and shift rows (reshapes of
     two arguments);
   * the middle pallas_call's two results are the column sums of `out` and of its squares, and `out` itself
     passes through it unchanged (an input window is never written back);
   * `out` is the host's scatter-add of the first pallas_call's result, which is the batched product of the
     masked gather of the features with the weights — entry by entry the reference's `dot_general`;
   * the masked gather and the cast weights are host operations on the arguments, which nobody writes.

   So `out` is the reference's scattered sum, the kernel's statistics are the one-pass mean and variance
   of it, and the result is the specification's normalisation with the ONE-pass variance. The inputs
   being finite, `out` is finite, the one-pass variance is the reference's two-pass one, and the two
   results agree at every index.

   Every boundary value is named by a lemma with its defining equation and only ever rewritten: no two
   full-size terms are compared by unfolding. -/
import proofs.«182249_j77902116815210_2_alg».proof.Proof.KIRun
import proofs.«182249_j77902116815210_2_alg».proof.Proof.KIHost
import proofs.«182249_j77902116815210_2_alg».proof.Proof.KIVal0
import proofs.«182249_j77902116815210_2_alg».proof.Proof.KIVal1
import proofs.«182249_j77902116815210_2_alg».proof.Proof.KIVal2
import proofs.«182249_j77902116815210_2_alg».proof.Proof.RefFinite

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Buffers nobody has written yet hold the launch memory

An argument array is written by no host operation and is no pallas_call's output, so at any boundary it
still holds what it was launched with: step back through the fold, one boundary at a time. -/

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps1 _ hostOps1_writes (by decide : main_arg2 ∉ hostOps1_W)
    _ = W2 m ρ c (Proc.devRef .tc main_arg2) := W3_of_ne m ρ c main_arg2 (by decide)
    _ = W1 m ρ c (Proc.devRef .tc main_arg2) := StableHlo.after_of_writes_sub hostOps0_1 _ hostOps0_1_writes (by decide : main_arg2 ∉ hostOps0_1_W)
    _ = W0 m ρ c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps1 _ hostOps1_writes (by decide : main_arg3 ∉ hostOps1_W)
    _ = W2 m ρ c (Proc.devRef .tc main_arg3) := W3_of_ne m ρ c main_arg3 (by decide)
    _ = W1 m ρ c (Proc.devRef .tc main_arg3) := StableHlo.after_of_writes_sub hostOps0_1 _ hostOps0_1_writes (by decide : main_arg3 ∉ hostOps0_1_W)
    _ = W0 m ρ c (Proc.devRef .tc main_arg3) := StableHlo.after_of_writes_sub hostOps0 _ hostOps0_writes (by decide : main_arg3 ∉ hostOps0_W)
    _ = m ((c : Thread nD τ).loc main_arg3) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_writes_sub hostOps0_1 _ hostOps0_1_writes (by decide : main_arg5 ∉ hostOps0_1_W)
    _ = W0 m ρ c (Proc.devRef .tc main_arg5) := StableHlo.after_of_writes_sub hostOps0 _ hostOps0_writes (by decide : main_arg5 ∉ hostOps0_W)
    _ = m ((c : Thread nD τ).loc main_arg5) := rfl

/-! ## The pallas_calls' arrays at their exits -/

/-- The first pallas_call's result array when it ends. -/
theorem W3_main_v13 (c : Dev nD) : W3 m ρ c (Proc.devRef .tc main_v13) = (dat0 (V2 m ρ) c).arrAt 2 cfg0.N :=
  W3_arr m ρ c 2

/-- The middle pallas_call's two result arrays when it ends, -/
theorem W5_main_v19_0 (c : Dev nD) : W5 m ρ c (Proc.devRef .tc main_v19_0) = (dat1 (V4 m ρ) c).arrAt 1 cfg1.N :=
  W5_arr m ρ c 1
theorem W5_main_v19_1 (c : Dev nD) : W5 m ρ c (Proc.devRef .tc main_v19_1) = (dat1 (V4 m ρ) c).arrAt 2 cfg1.N :=
  W5_arr m ρ c 2

/-- and its input array, which it stages and never writes back: as it was entered. -/
theorem W5_main_v18 (c : Dev nD) : W5 m ρ c (Proc.devRef .tc main_v18) = V4 m ρ c main_v18 :=
  (W5_arr m ρ c 0).trans (((dat1 (V4 m ρ) c).arrAt_in 0 rfl _).trans (A_eq1 (V4 m ρ) c 0))

/-- The last pallas_call's result array when it ends. -/
theorem W7_main_v30 (c : Dev nD) : W7 m ρ c (Proc.devRef .tc main_v30) = (dat2 (V6 m ρ) c).arrAt 5 cfg2.N :=
  W7_arr m ρ c 5

/-! ## The boundary values, one by one, from the launch memory forwards -/

/-- The first pallas_call reads the masked gather of the features and the cast weights. -/
theorem V2_main_v12 (c : Dev nD) :
    V2 m ρ c main_v12 = gselK (m ((c : Thread nD τ).loc main_arg0)) (m ((c : Thread nD τ).loc main_arg4)) (m ((c : Thread nD τ).loc main_arg5)) :=
  hostA_v12 (W0 m ρ c)
theorem V2_main_v1 (c : Dev nD) : V2 m ρ c main_v1 = hostCastW (m ((c : Thread nD τ).loc main_arg1)) :=
  hostA_v1 (W0 m ρ c)

/-- So it leaves their batched product. -/
theorem W3_main_v13_eq (c : Dev nD) :
    W3 m ρ c (Proc.devRef .tc main_v13) = G0 (gselK (m ((c : Thread nD τ).loc main_arg0)) (m ((c : Thread nD τ).loc main_arg4)) (m ((c : Thread nD τ).loc main_arg5))) (hostCastW (m ((c : Thread nD τ).loc main_arg1))) := by
  rw [W3_main_v13, final0 (V2 m ρ) c, V2_main_v12, V2_main_v1]

/-- The middle pallas_call reads the scatter-add of that product by the destination indices: entry by entry
    the reference's scattered sum (its `dot_general` is the same finite sum; the cast is the identity). -/
theorem V4_main_v18 (c : Dev nD) : V4 m ρ c main_v18 = (Cert.ReferenceIdeal.RefValue.refOut (F := Ideal) (m ((c : Thread nD τ).loc main_arg0)) (m ((c : Thread nD τ).loc main_arg1)) (m ((c : Thread nD τ).loc main_arg4)) (m ((c : Thread nD τ).loc main_arg5))) := by
  have h := hostB_v18 (W3 m ρ c)
  rw [W3_main_arg5, W3_main_v13_eq] at h
  refine h.trans ?_
  rw [scatK_G0_eq, gselK_eq, hostCastW_eq]
  rfl

/-- The scattered sum as the middle pallas_call finds it, coordinate by coordinate. -/
theorem arr18_V4 (c : Dev nD) : arr18 (V4 m ρ) c = fun r d => (Cert.ReferenceIdeal.RefValue.refOut (F := Ideal) (m ((c : Thread nD τ).loc main_arg0)) (m ((c : Thread nD τ).loc main_arg1)) (m ((c : Thread nD τ).loc main_arg4)) (m ((c : Thread nD τ).loc main_arg5))) (ix2 r d) := by
  funext r d
  exact (arr18_apply (V4 m ρ) c r d).trans (congrFun (V4_main_v18 m ρ c) (ix2 r d))

/-- Its two results, at column `d`: the column sums of the scattered sum and of its squares. -/
theorem W5_main_v19_0_apply (c : Dev nD) (d : Fin 64) :
    (W5 m ρ c (Proc.devRef .tc main_v19_0) : S1x64.Idx → EReal) (ix2 (0 : Fin 1) d)
      = Cert.Spec.colSum (fun r d => (Cert.ReferenceIdeal.RefValue.refOut (F := Ideal) (m ((c : Thread nD τ).loc main_arg0)) (m ((c : Thread nD τ).loc main_arg1)) (m ((c : Thread nD τ).loc main_arg4)) (m ((c : Thread nD τ).loc main_arg5))) (ix2 r d)) d := by
  refine (congrFun (W5_main_v19_0 m ρ c) (ix2 (0 : Fin 1) d)).trans ?_
  refine (congrFun (final1_sum (V4 m ρ) c) (ix2 (0 : Fin 1) d)).trans ?_
  exact congrArg (fun X : Fin 100000 → Fin 64 → EReal => Cert.Spec.colSum X d) (arr18_V4 m ρ c)
theorem W5_main_v19_1_apply (c : Dev nD) (d : Fin 64) :
    (W5 m ρ c (Proc.devRef .tc main_v19_1) : S1x64.Idx → EReal) (ix2 (0 : Fin 1) d)
      = Cert.Spec.colSum (fun r d => (Cert.ReferenceIdeal.RefValue.refOut (F := Ideal) (m ((c : Thread nD τ).loc main_arg0)) (m ((c : Thread nD τ).loc main_arg1)) (m ((c : Thread nD τ).loc main_arg4)) (m ((c : Thread nD τ).loc main_arg5))) (ix2 r d) * (Cert.ReferenceIdeal.RefValue.refOut (F := Ideal) (m ((c : Thread nD τ).loc main_arg0)) (m ((c : Thread nD τ).loc main_arg1)) (m ((c : Thread nD τ).loc main_arg4)) (m ((c : Thread nD τ).loc main_arg5))) (ix2 r d)) d := by
  refine (congrFun (W5_main_v19_1 m ρ c) (ix2 (0 : Fin 1) d)).trans ?_
  refine (congrFun (final1_sumsq (V4 m ρ) c) (ix2 (0 : Fin 1) d)).trans ?_
  exact congrArg (fun X : Fin 100000 → Fin 64 → EReal => Cert.Spec.colSum (fun r d => X r d * X r d) d) (arr18_V4 m ρ c)

/-- The last pallas_call reads the scattered sum (untouched since the middle one entered), the host's mean
    and clamped one-pass variance of the two column sums, and the scale and shift arguments as rows. -/
theorem V6_main_v18 (c : Dev nD) : V6 m ρ c main_v18 = (Cert.ReferenceIdeal.RefValue.refOut (F := Ideal) (m ((c : Thread nD τ).loc main_arg0)) (m ((c : Thread nD τ).loc main_arg1)) (m ((c : Thread nD τ).loc main_arg4)) (m ((c : Thread nD τ).loc main_arg5))) :=
  (hostC_v18 (W5 m ρ c)).trans ((W5_main_v18 m ρ c).trans (V4_main_v18 m ρ c))
theorem V6_main_v21 (c : Dev nD) : V6 m ρ c main_v21 = hostMean (W5 m ρ c (Proc.devRef .tc main_v19_0)) :=
  hostC_v21 (W5 m ρ c)
theorem V6_main_v27 (c : Dev nD) :
    V6 m ρ c main_v27 = hostVar (W5 m ρ c (Proc.devRef .tc main_v19_0)) (W5 m ρ c (Proc.devRef .tc main_v19_1)) :=
  hostC_v27 (W5 m ρ c)
theorem V6_main_v28 (c : Dev nD) : V6 m ρ c main_v28 = hostRow (m ((c : Thread nD τ).loc main_arg2)) :=
  (hostC_v28 (W5 m ρ c)).trans (congrArg hostRow (W5_main_arg2 m ρ c))
theorem V6_main_v29 (c : Dev nD) : V6 m ρ c main_v29 = hostRow (m ((c : Thread nD τ).loc main_arg3)) :=
  (hostC_v29 (W5 m ρ c)).trans (congrArg hostRow (W5_main_arg3 m ρ c))

/-! ## The result -/

/-- THE KERNEL PROGRAM'S RESULT, on a core whose feature and weight arrays are finite, is the reference's
    result of the six argument arrays: at every index both are the specification's normalisation of the
    scattered sum with the one-pass variance — the kernel by what its three pallas_calls and the host
    operations between them compute, the reference because on a finite scattered sum its two-pass variance
    is the one-pass one. -/
theorem result_eq (c : Dev nD)
    (h0 : ∀ i, Cert.Spec.IsReal ((m ((c : Thread nD τ).loc main_arg0)) i)) (h1 : ∀ i, Cert.Spec.IsReal ((m ((c : Thread nD τ).loc main_arg1)) i)) :
    W7 (F := Ideal) m ρ c (Proc.devRef .tc main_v30)
      = Cert.ReferenceIdeal.RefValue.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W7_main_v30, final2 (V6 m ρ) c, V6_main_v18, V6_main_v21, V6_main_v27, V6_main_v28, V6_main_v29]
  refine Cert.ReferenceIdeal.RefValue.result_ext _ _ _ _ _ _ _ fun r d => ?_
  rw [Cert.ReferenceIdeal.RefValue.result_apply_varK _ _ _ _ _ _ h0 h1 r d]
  exact tail_apply (Cert.ReferenceIdeal.RefValue.refOut (F := Ideal) (m ((c : Thread nD τ).loc main_arg0)) (m ((c : Thread nD τ).loc main_arg1)) (m ((c : Thread nD τ).loc main_arg4)) (m ((c : Thread nD τ).loc main_arg5))) (W5 m ρ c (Proc.devRef .tc main_v19_0)) (W5 m ρ c (Proc.devRef .tc main_v19_1))
    (m ((c : Thread nD τ).loc main_arg2)) (m ((c : Thread nD τ).loc main_arg3)) (W5_main_v19_0_apply m ρ c) (W5_main_v19_1_apply m ρ c) r d

end Cert.KernelIdeal.HandValue

end
-- ==== Proof.PreFinite.lean ====
/-
  From the precondition to finiteness of the float inputs.

  The precondition is the conjunction, over the four float inputs, of "every entry's absolute value is below
  +infinity". An extended real whose absolute value `max x (-x)` is below the top element is neither infinity, so it is
  a real number. The conjunction is a chain of bitwise `and`s on one-bit words, each conjunct a reduction by `and`
  over all axes, which is `1` only if every entry compared is `1`.
-/
import Idealize.ShloMosaic.Lib.ReduceAll
import Idealize.ShloMosaic.PureOps.Ideal
import proofs.«182249_j77902116815210_2_alg».proof.Pre_finite_inputs

noncomputable section

namespace Cert.PreFinite

open Idealize.ShloMosaic Cert.Pre_finite_inputs

instance : Subsingleton S_.Idx := ⟨fun a b => funext fun d => d.elim0⟩

/-- The pattern `0x7F800000` denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ a : ℝ, x = (a : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- Under the precondition every entry of each of the four float inputs is a real number. -/
theorem real_of_pre [Facts] (a0 : FVec Ideal S100000x64 .f32) (a1 : FVec Ideal S27x64x64 .f32)
    (a2 : FVec Ideal S64 .f32) (a3 : FVec Ideal S64 .f32) (a4 : IVec S27x100000 32) (a5 : IVec S27x100000 32)
    (h : fn (F := Ideal) a0 a1 a2 a3 a4 a5 = fun _ => 1#1) :
    (∀ i, ∃ a : ℝ, a0 i = (a : EReal)) ∧ (∀ i, ∃ a : ℝ, a1 i = (a : EReal))
      ∧ (∀ i, ∃ a : ℝ, a2 i = (a : EReal)) ∧ (∀ i, ∃ a : ℝ, a3 i = (a : EReal)) := by
  have h0 := congrFun h (fun d => d.elim0)
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_inf (a0 i) (Host.reduce_andi_all _ _ _ _ _ h0' i)
  · exact real_of_abs_lt_inf (a1 i) (Host.reduce_andi_all _ _ _ _ _ h1 i)
  · exact real_of_abs_lt_inf (a2 i) (Host.reduce_andi_all _ _ _ _ _ h2 i)
  · exact real_of_abs_lt_inf (a3 i) (Host.reduce_andi_all _ _ _ _ _ h3 i)

end Cert.PreFinite

end
-- ==== Proof.lean ====
/-
  The kernel is a sparse 3×3×3 convolution block on voxels: for each of 27 offsets the input rows are gathered
  (masked where the output index is the padding sentinel), multiplied by that offset's 64×64 weight matrix, and the
  2,700,000 contribution rows are scatter-added into 100,000 output rows; then batch normalisation over the rows
  (per-channel mean and variance), an affine map and a ReLU.

  The kernel program computes the per-offset products in a pallas_call over 27 × 10 blocks, the per-channel sum and
  sum of squares in a second pallas_call that carries two accumulator rows across its ten blocks, takes the one-pass
  variance max(E[x²] − E[x]², 0), and normalises in a third pallas_call. The reference is the same gather, one batched
  product, the same scatter-add, the two-pass variance E[(x − E[x])²], and the same normalisation.

  Over the extended reals the two agree because the inputs are finite: every gathered entry is an entry of the
  input, so every product, every scatter-added row and every column sum is a real number; on reals the one-pass and
  two-pass variances are the same number, which is non-negative, so the maximum with zero changes nothing. Sums taken
  block by block equal sums taken at once because addition of extended reals is associative and commutative.

  Each program's frame (it terminates, faults nowhere, leaves its arguments unchanged) is read off its run: the
  kernel programs' runs go segment by segment through the host operations and the three pallas_calls, the
  reference's through its host operations. The idealised kernel is the kernel's own text read over the extended
  reals: the idealisation rewrote nothing.
-/
import proofs.«182249_j77902116815210_2_alg».proof.Defs
import proofs.«182249_j77902116815210_2_alg».proof.Proof.Gen.Kernel
import proofs.«182249_j77902116815210_2_alg».proof.Proof.Gen.KernelIdeal
import proofs.«182249_j77902116815210_2_alg».proof.Proof.Gen.ReferenceIdeal
import proofs.«182249_j77902116815210_2_alg».proof.Proof.Gen.Pre_finite_inputs
import proofs.«182249_j77902116815210_2_alg».proof.Proof.KRun
import proofs.«182249_j77902116815210_2_alg».proof.Proof.KIRun
import proofs.«182249_j77902116815210_2_alg».proof.Proof.RefRun
import proofs.«182249_j77902116815210_2_alg».proof.Proof.KIValue
import proofs.«182249_j77902116815210_2_alg».proof.Proof.PreFinite
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Hand.frame m ρ
/-- So does the kernel program read over the extended reals. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)
/-- The idealisation rewrote nothing. -/
theorem preserves : Cert.preserves_Kernel_KernelIdeal := trivial

/-- From memories that agree on the arguments both programs end with the same result array: the reference's result
    term of the arguments. The kernel program's last buffer holds it because its arguments are finite; the reference's
    run states it directly. -/
theorem algebraic : Cert.algebraic_KernelIdeal_ReferenceIdeal := by
  intro m ρ m' ρ' hpre hagree
  have hreal := fun c => Cert.PreFinite.real_of_pre _ _ _ _ _ _ (hpre c)
  refine ⟨fun c => Cert.ReferenceIdeal.RefValue.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v30 (by decide))).trans
        (Cert.KernelIdeal.HandValue.result_eq m ρ c (hreal c).1 (hreal c).2.1),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c)⟩
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
